-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v73_0)) (v1 : (c : Dev Cert.KernelIdeal.nD) → Buf (Elt Ideal) ((c.tc : Thread Cert.KernelIdeal.nD Cert.KernelIdeal.τ).loc Cert.KernelIdeal.main_v73_1)) (v2 : (c : Dev Cert.KernelIdeal.nD) → Buf (Elt Ideal) ((c.tc : Thread Cert.KernelIdeal.nD Cert.KernelIdeal.τ).loc Cert.KernelIdeal.main_v73_2)) (v3 : (c : Dev Cert.KernelIdeal.nD) → Buf (Elt Ideal) ((c.tc : Thread Cert.KernelIdeal.nD Cert.KernelIdeal.τ).loc Cert.KernelIdeal.main_v73_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73_0) = v0 c
          ∧ r.2.mem ((c.tc : Thread Cert.KernelIdeal.nD Cert.KernelIdeal.τ).loc Cert.KernelIdeal.main_v73_1) = v1 c
          ∧ r.2.mem ((c.tc : Thread Cert.KernelIdeal.nD Cert.KernelIdeal.τ).loc Cert.KernelIdeal.main_v73_2) = v2 c
          ∧ r.2.mem ((c.tc : Thread Cert.KernelIdeal.nD Cert.KernelIdeal.τ).loc Cert.KernelIdeal.main_v73_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v110) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x14 : Shape := ⟨2, ![100000, 14]⟩
abbrev S15x64 : Shape := ⟨2, ![15, 64]⟩
abbrev S64 : Shape := ⟨1, ![64]⟩
abbrev S64x64 : Shape := ⟨2, ![64, 64]⟩
abbrev S64x105 : Shape := ⟨2, ![64, 105]⟩
abbrev S105 : Shape := ⟨1, ![105]⟩
abbrev S100000x64 : Shape := ⟨2, ![100000, 64]⟩
abbrev S100000x105 : Shape := ⟨2, ![100000, 105]⟩
abbrev S2x1600000 : Shape := ⟨2, ![2, 1600000]⟩
abbrev S10000 : Shape := ⟨1, ![10000]⟩
abbrev S_ : Shape := ⟨0, ![]⟩

class Facts : Prop where
  bcast_S_S100000x14 : S_.BroadcastsInDim S100000x14 (![] : Fin 0 → Fin S100000x14.rank)
  reducesTo_S100000x14_S_d0_1 : S100000x14.ReducesTo [0, 1] S_
  h_S_ : 0 < S_.numel
  bcast_S_S15x64 : S_.BroadcastsInDim S15x64 (![] : Fin 0 → Fin S15x64.rank)
  reducesTo_S15x64_S_d0_1 : S15x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x105 : S_.BroadcastsInDim S64x105 (![] : Fin 0 → Fin S64x105.rank)
  reducesTo_S64x105_S_d0_1 : S64x105.ReducesTo [0, 1] S_
  bcast_S_S105 : S_.BroadcastsInDim S105 (![] : Fin 0 → Fin S105.rank)
  reducesTo_S105_S_d0 : S105.ReducesTo [0] S_
  bcast_S_S100000x64 : S_.BroadcastsInDim S100000x64 (![] : Fin 0 → Fin S100000x64.rank)
  reducesTo_S100000x64_S_d0_1 : S100000x64.ReducesTo [0, 1] S_
  bcast_S_S100000x105 : S_.BroadcastsInDim S100000x105 (![] : Fin 0 → Fin S100000x105.rank)
  reducesTo_S100000x105_S_d0_1 : S100000x105.ReducesTo [0, 1] S_

variable [Facts]

def fn_part3 {F : FTy → Type} [FloatOps F] (main_arg11 : FVec F S100000x105 .f32) (main_arg12 : FVec F S100000x105 .f32) (main_v48 : IVec S_ 1) (main_v49 : FVec F S100000x64 .f32) (main_v50 : FVec F S100000x64 .f32) : IVec S_ 1 :=
  let main_v51 : IVec S100000x64 1 := cmpf .olt main_v49 main_v50
  let main_c_19 : IVec S_ 1 := constantI S_ 1 1#1
  let main_v52 : IVec S_ 1 := (fun x v => Host.reduce IntOp.andi x v reducesTo_S100000x64_S_d0_1 h_S_) main_v51 main_c_19
  let main_v53 : IVec S_ 1 := andi main_v48 main_v52
  let main_v54 : FVec F S100000x105 .f32 := Host.absf main_arg11
  let main_cst_20 : FVec F S_ .f32 := constant S_ .f32 0x7F800000#32
  let main_v55 : FVec F S100000x105 .f32 := broadcastInDim S100000x105 ![] bcast_S_S100000x105 main_cst_20
  let main_v56 : IVec S100000x105 1 := cmpf .olt main_v54 main_v55
  let main_c_21 : IVec S_ 1 := constantI S_ 1 1#1
  let main_v57 : IVec S_ 1 := (fun x v => Host.reduce IntOp.andi x v reducesTo_S100000x105_S_d0_1 h_S_) main_v56 main_c_21
  let main_v58 : IVec S_ 1 := andi main_v53 main_v57
  let main_v59 : FVec F S100000x105 .f32 := Host.absf main_arg12
  let main_cst_22 : FVec F S_ .f32 := constant S_ .f32 0x7F800000#32
  let main_v60 : FVec F S100000x105 .f32 := broadcastInDim S100000x105 ![] bcast_S_S100000x105 main_cst_22
  let main_v61 : IVec S100000x105 1 := cmpf .olt main_v59 main_v60
  let main_c_23 : IVec S_ 1 := constantI S_ 1 1#1
  let main_v62 : IVec S_ 1 := (fun x v => Host.reduce IntOp.andi x v reducesTo_S100000x105_S_d0_1 h_S_) main_v61 main_c_23
  let main_v63 : IVec S_ 1 := andi main_v58 main_v62
  main_v63

def fn_part2 {F : FTy → Type} [FloatOps F] (main_arg7 : FVec F S64x105 .f32) (main_arg8 : FVec F S105 .f32) (main_arg9 : FVec F S100000x64 .f32) (main_arg10 : FVec F S100000x64 .f32) (main_arg11 : FVec F S100000x105 .f32) (main_arg12 : FVec F S100000x105 .f32) (main_v33 : IVec S_ 1) : IVec S_ 1 :=
  let main_v34 : FVec F S64x105 .f32 := Host.absf main_arg7
  let main_cst_12 : FVec F S_ .f32 := constant S_ .f32 0x7F800000#32
  let main_v35 : FVec F S64x105 .f32 := broadcastInDim S64x105 ![] bcast_S_S64x105 main_cst_12
  let main_v36 : IVec S64x105 1 := cmpf .olt main_v34 main_v35
  let main_c_13 : IVec S_ 1 := constantI S_ 1 1#1
  let main_v37 : IVec S_ 1 := (fun x v => Host.reduce IntOp.andi x v reducesTo_S64x105_S_d0_1 h_S_) main_v36 main_c_13
  let main_v38 : IVec S_ 1 := andi main_v33 main_v37
  let main_v39 : FVec F S105 .f32 := Host.absf main_arg8
  let main_cst_14 : FVec F S_ .f32 := constant S_ .f32 0x7F800000#32
  let main_v40 : FVec F S105 .f32 := broadcastInDim S105 ![] bcast_S_S105 main_cst_14
  let main_v41 : IVec S105 1 := cmpf .olt main_v39 main_v40
  let main_c_15 : IVec S_ 1 := constantI S_ 1 1#1
  let main_v42 : IVec S_ 1 := (fun x v => Host.reduce IntOp.andi x v reducesTo_S105_S_d0 h_S_) main_v41 main_c_15
  let main_v43 : IVec S_ 1 := andi main_v38 main_v42
  let main_v44 : FVec F S100000x64 .f32 := Host.absf main_arg9
  let main_cst_16 : FVec F S_ .f32 := constant S_ .f32 0x7F800000#32
  let main_v45 : FVec F S100000x64 .f32 := broadcastInDim S100000x64 ![] bcast_S_S100000x64 main_cst_16
  let main_v46 : IVec S100000x64 1 := cmpf .olt main_v44 main_v45
  let main_c_17 : IVec S_ 1 := constantI S_ 1 1#1
  let main_v47 : IVec S_ 1 := (fun x v => Host.reduce IntOp.andi x v reducesTo_S100000x64_S_d0_1 h_S_) main_v46 main_c_17
  let main_v48 : IVec S_ 1 := andi main_v43 main_v47
  let main_v49 : FVec F S100000x64 .f32 := Host.absf main_arg10
  let main_cst_18 : FVec F S_ .f32 := constant S_ .f32 0x7F800000#32
  let main_v50 : FVec F S100000x64 .f32 := broadcastInDim S100000x64 ![] bcast_S_S100000x64 main_cst_18
  fn_part3 (F := F) main_arg11 main_arg12 main_v48 main_v49 main_v50

def fn_part1 {F : FTy → Type} [FloatOps F] (main_arg4 : FVec F S64 .f32) (main_arg5 : FVec F S64x105 .f32) (main_arg6 : FVec F S105 .f32) (main_arg7 : FVec F S64x105 .f32) (main_arg8 : FVec F S105 .f32) (main_arg9 : FVec F S100000x64 .f32) (main_arg10 : FVec F S100000x64 .f32) (main_arg11 : FVec F S100000x105 .f32) (main_arg12 : FVec F S100000x105 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x105 .f32 := Host.absf main_arg5
  let main_cst_8 : FVec F S_ .f32 := constant S_ .f32 0x7F800000#32
  let main_v25 : FVec F S64x105 .f32 := broadcastInDim S64x105 ![] bcast_S_S64x105 main_cst_8
  let main_v26 : IVec S64x105 1 := cmpf .olt main_v24 main_v25
  let main_c_9 : IVec S_ 1 := constantI S_ 1 1#1
  let main_v27 : IVec S_ 1 := (fun x v => Host.reduce IntOp.andi x v reducesTo_S64x105_S_d0_1 h_S_) main_v26 main_c_9
  let main_v28 : IVec S_ 1 := andi main_v23 main_v27
  let main_v29 : FVec F S105 .f32 := Host.absf main_arg6
  let main_cst_10 : FVec F S_ .f32 := constant S_ .f32 0x7F800000#32
  let main_v30 : FVec F S105 .f32 := broadcastInDim S105 ![] bcast_S_S105 main_cst_10
  let main_v31 : IVec S105 1 := cmpf .olt main_v29 main_v30
  let main_c_11 : IVec S_ 1 := constantI S_ 1 1#1
  let main_v32 : IVec S_ 1 := (fun x v => Host.reduce IntOp.andi x v reducesTo_S105_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x14 .f32) (main_arg1 : FVec F S15x64 .f32) (main_arg2 : FVec F S64 .f32) (main_arg3 : FVec F S64x64 .f32) (main_arg4 : FVec F S64 .f32) (main_arg5 : FVec F S64x105 .f32) (main_arg6 : FVec F S105 .f32) (main_arg7 : FVec F S64x105 .f32) (main_arg8 : FVec F S105 .f32) (main_arg9 : FVec F S100000x64 .f32) (main_arg10 : FVec F S100000x64 .f32) (main_arg11 : FVec F S100000x105 .f32) (main_arg12 : FVec F S100000x105 .f32) (main_arg13 : IVec S2x1600000 32) (main_arg14 : IVec S10000 32) : IVec S_ 1 :=
  let main_v0 : FVec F S100000x14 .f32 := Host.absf main_arg0
  let main_cst : FVec F S_ .f32 := constant S_ .f32 0x7F800000#32
  let main_v1 : FVec F S100000x14 .f32 := broadcastInDim S100000x14 ![] bcast_S_S100000x14 main_cst
  let main_v2 : IVec S100000x14 1 := cmpf .olt main_v0 main_v1
  let main_c : IVec S_ 1 := constantI S_ 1 1#1
  let main_v3 : IVec S_ 1 := (fun x v => Host.reduce IntOp.andi x v reducesTo_S100000x14_S_d0_1 h_S_) main_v2 main_c
  let main_v4 : FVec F S15x64 .f32 := Host.absf main_arg1
  let main_cst_0 : FVec F S_ .f32 := constant S_ .f32 0x7F800000#32
  let main_v5 : FVec F S15x64 .f32 := broadcastInDim S15x64 ![] bcast_S_S15x64 main_cst_0
  let main_v6 : IVec S15x64 1 := cmpf .olt main_v4 main_v5
  let main_c_1 : IVec S_ 1 := constantI S_ 1 1#1
  let main_v7 : IVec S_ 1 := (fun x v => Host.reduce IntOp.andi x v reducesTo_S15x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_v13 main_v16
-- ==== Kernel.lean ====
abbrev S100000x14 : Shape := ⟨2, ![100000, 14]⟩
abbrev S15x64 : Shape := ⟨2, ![15, 64]⟩
abbrev S64 : Shape := ⟨1, ![64]⟩
abbrev S64x64 : Shape := ⟨2, ![64, 64]⟩
abbrev S64x105 : Shape := ⟨2, ![64, 105]⟩
abbrev S105 : Shape := ⟨1, ![105]⟩
abbrev S100000x64 : Shape := ⟨2, ![100000, 64]⟩
abbrev S100000x105 : Shape := ⟨2, ![100000, 105]⟩
abbrev S2x1600000 : Shape := ⟨2, ![2, 1600000]⟩
abbrev S10000 : Shape := ⟨1, ![10000]⟩
abbrev S_ : Shape := ⟨0, ![]⟩
abbrev S100000 : Shape := ⟨1, ![100000]⟩
abbrev S10000x1 : Shape := ⟨2, ![10000, 1]⟩
abbrev S100000x1 : Shape := ⟨2, ![100000, 1]⟩
abbrev S100000x15 : Shape := ⟨2, ![100000, 15]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1000x15 : Shape := ⟨2, ![1000, 15]⟩
abbrev S1000x64 : Shape := ⟨2, ![1000, 64]⟩
abbrev S1700000x64 : Shape := ⟨2, ![1700000, 64]⟩
abbrev S1x64 : Shape := ⟨2, ![1, 64]⟩
abbrev S1x105 : Shape := ⟨2, ![1, 105]⟩
abbrev S1000x105 : Shape := ⟨2, ![1000, 105]⟩
abbrev S1000 : Shape := ⟨1, ![1000]⟩
abbrev S1000x1 : Shape := ⟨2, ![1000, 1]⟩

abbrev nBuf : Space → Nat
  | .hbm => 112
  | .vmem => 34
  | .smem => 0
  | _ => 0

abbrev bufTy : (tb : Table) → Fin (tcTables nBuf tb) → BufTy
  | .hbm, ⟨0, _⟩ => ⟨S100000x14, .f32⟩
  | .hbm, ⟨1, _⟩ => ⟨S15x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x105, .f32⟩
  | .hbm, ⟨6, _⟩ => ⟨S105, .f32⟩
  | .hbm, ⟨7, _⟩ => ⟨S64x105, .f32⟩
  | .hbm, ⟨8, _⟩ => ⟨S105, .f32⟩
  | .hbm, ⟨9, _⟩ => ⟨S100000x64, .f32⟩
  | .hbm, ⟨10, _⟩ => ⟨S100000x64, .f32⟩
  | .hbm, ⟨11, _⟩ => ⟨S100000x105, .f32⟩
  | .hbm, ⟨12, _⟩ => ⟨S100000x105, .f32⟩
  | .hbm, ⟨13, _⟩ => ⟨S2x1600000, .i32⟩
  | .hbm, ⟨14, _⟩ => ⟨S10000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S10000, .i32⟩
  | .hbm, ⟨19, _⟩ => ⟨S10000, .i1⟩
  | .hbm, ⟨20, _⟩ => ⟨S_, .i32⟩
  | .hbm, ⟨21, _⟩ => ⟨S10000, .i32⟩
  | .hbm, ⟨22, _⟩ => ⟨S10000, .i32⟩
  | .hbm, ⟨23, _⟩ => ⟨S10000, .i32⟩
  | .hbm, ⟨24, _⟩ => ⟨S10000x1, .i32⟩
  | .hbm, ⟨25, _⟩ => ⟨S_, .f32⟩
  | .hbm, ⟨26, _⟩ => ⟨S10000, .f32⟩
  | .hbm, ⟨27, _⟩ => ⟨S100000, .f32⟩
  | .hbm, ⟨28, _⟩ => ⟨S100000x1, .f32⟩
  | .hbm, ⟨29, _⟩ => ⟨S100000x15, .f32⟩
  | .hbm, ⟨30, _⟩ => ⟨S100000, .i32⟩
  | .hbm, ⟨31, _⟩ => ⟨S1x1600000, .i32⟩
  | .hbm, ⟨32, _⟩ => ⟨S1600000, .i32⟩
  | .hbm, ⟨33, _⟩ => ⟨S1700000, .i32⟩
  | .hbm, ⟨34, _⟩ => ⟨S1x1600000, .i32⟩
  | .hbm, ⟨35, _⟩ => ⟨S1600000, .i32⟩
  | .hbm, ⟨36, _⟩ => ⟨S1700000, .i32⟩
  | .hbm, ⟨37, _⟩ => ⟨S_, .f32⟩
  | .hbm, ⟨38, _⟩ => ⟨S1700000, .f32⟩
  | .hbm, ⟨39, _⟩ => ⟨S_, .f32⟩
  | .hbm, ⟨40, _⟩ => ⟨S100000, .f32⟩
  | .hbm, ⟨41, _⟩ => ⟨S1700000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .i1⟩
  | .hbm, ⟨46, _⟩ => ⟨S100000, .f32⟩
  | .hbm, ⟨47, _⟩ => ⟨S_, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000, .f32⟩
  | .hbm, ⟨69, _⟩ => ⟨S1700000, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x64, .f32⟩
  | .hbm, ⟨98, _⟩ => ⟨S1700000x1, .f32⟩
  | .hbm, ⟨99, _⟩ => ⟨S1700000x64, .f32⟩
  | .hbm, ⟨100, _⟩ => ⟨S1700000x64, .f32⟩
  | .hbm, ⟨101, _⟩ => ⟨S_, .f32⟩
  | .hbm, ⟨102, _⟩ => ⟨S100000x64, .f32⟩
  | .hbm, ⟨103, _⟩ => ⟨S1700000x1, .i32⟩
  | .hbm, ⟨104, _⟩ => ⟨S100000x64, .f32⟩
  | .hbm, ⟨105, _⟩ => ⟨S1x64, .f32⟩
  | .hbm, ⟨106, _⟩ => ⟨S1x105, .f32⟩
  | .hbm, ⟨107, _⟩ => ⟨S1x105, .f32⟩
  | .hbm, ⟨108, _⟩ => ⟨S100000x105, .f32⟩
  | .hbm, ⟨109, _⟩ => ⟨S100000x105, .f32⟩
  | .hbm, ⟨110, _⟩ => ⟨S100000x105, .f32⟩
  | .hbm, ⟨111, _⟩ => ⟨S100000x105, .f32⟩
  | .local _ .vmem, ⟨0, _⟩ => ⟨S1000x15, .f32⟩
  | .local _ .vmem, ⟨1, _⟩ => ⟨S1000x15, .f32⟩
  | .local _ .vmem, ⟨2, _⟩ => ⟨S15x64, .f32⟩
  | .local _ .vmem, ⟨3, _⟩ => ⟨S1000x64, .f32⟩
  | .local _ .vmem, ⟨4, _⟩ => ⟨S1000x64, .f32⟩
  | .local _ .vmem, ⟨5, _⟩ => ⟨S1000x64, .f32⟩
  | .local _ .vmem, ⟨6, _⟩ => ⟨S1000x64, .f32⟩
  | .local _ .vmem, ⟨7, _⟩ => ⟨S1x64, .f32⟩
  | .local _ .vmem, ⟨8, _⟩ => ⟨S1000x64, .f32⟩
  | .local _ .vmem, ⟨9, _⟩ => ⟨S1000x64, .f32⟩
  | .local _ .vmem, ⟨10, _⟩ => ⟨S64x64, .f32⟩
  | .local _ .vmem, ⟨11, _⟩ => ⟨S1000x64, .f32⟩
  | .local _ .vmem, ⟨12, _⟩ => ⟨S1000x64, .f32⟩
  | .local _ .vmem, ⟨13, _⟩ => ⟨S1000x64, .f32⟩
  | .local _ .vmem, ⟨14, _⟩ => ⟨S1000x64, .f32⟩
  | .local _ .vmem, ⟨15, _⟩ => ⟨S1x64, .f32⟩
  | .local _ .vmem, ⟨16, _⟩ => ⟨S1000x64, .f32⟩
  | .local _ .vmem, ⟨17, _⟩ => ⟨S1000x64, .f32⟩
  | .local _ .vmem, ⟨18, _⟩ => ⟨S64x105, .f32⟩
  | .local _ .vmem, ⟨19, _⟩ => ⟨S1x105, .f32⟩
  | .local _ .vmem, ⟨20, _⟩ => ⟨S64x105, .f32⟩
  | .local _ .vmem, ⟨21, _⟩ => ⟨S1x105, .f32⟩
  | .local _ .vmem, ⟨22, _⟩ => ⟨S1000x105, .f32⟩
  | .local _ .vmem, ⟨23, _⟩ => ⟨S1000x105, .f32⟩
  | .local _ .vmem, ⟨24, _⟩ => ⟨S1000x105, .f32⟩
  | .local _ .vmem, ⟨25, _⟩ => ⟨S1000x105, .f32⟩
  | .local _ .vmem, ⟨26, _⟩ => ⟨S1000x105, .f32⟩
  | .local _ .vmem, ⟨27, _⟩ => ⟨S1000x105, .f32⟩
  | .local _ .vmem, ⟨28, _⟩ => ⟨S1000x105, .f32⟩
  | .local _ .vmem, ⟨29, _⟩ => ⟨S1000x105, .f32⟩
  | .local _ .vmem, ⟨30, _⟩ => ⟨S1000x105, .f32⟩
  | .local _ .vmem, ⟨31, _⟩ => ⟨S1000x105, .f32⟩
  | .local _ .vmem, ⟨32, _⟩ => ⟨S1000x105, .f32⟩
  | .local _ .vmem, ⟨33, _⟩ => ⟨S1000x105, .f32⟩
  | _, _ => ⟨S100000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_c_7 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_8 : Ref sig .tc := ⟨.hbm, 60, rfl⟩
abbrev main_v33 : Ref sig .tc := ⟨.hbm, 61, rfl⟩
abbrev main_v34 : Ref sig .tc := ⟨.hbm, 62, rfl⟩
abbrev main_c_9 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_10 : Ref sig .tc := ⟨.hbm, 71, rfl⟩
abbrev main_v42 : Ref sig .tc := ⟨.hbm, 72, rfl⟩
abbrev main_v43 : Ref sig .tc := ⟨.hbm, 73, rfl⟩
abbrev main_c_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_12 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_c_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73_0 : Ref sig .tc := ⟨.hbm, 108, rfl⟩
abbrev main_v73_1 : Ref sig .tc := ⟨.hbm, 109, rfl⟩
abbrev main_v73_2 : Ref sig .tc := ⟨.hbm, 110, rfl⟩
abbrev main_v73_3 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc2_stg8_0 : Ref sig .tc := ⟨.vmem, 24, rfl⟩
abbrev cc2_stg8_1 : Ref sig .tc := ⟨.vmem, 25, rfl⟩
abbrev cc2_stg9_0 : Ref sig .tc := ⟨.vmem, 26, rfl⟩
abbrev cc2_stg9_1 : Ref sig .tc := ⟨.vmem, 27, rfl⟩
abbrev cc2_stg10_0 : Ref sig .tc := ⟨.vmem, 28, rfl⟩
abbrev cc2_stg10_1 : Ref sig .tc := ⟨.vmem, 29, rfl⟩
abbrev cc2_stg11_0 : Ref sig .tc := ⟨.vmem, 30, rfl⟩
abbrev cc2_stg11_1 : Ref sig .tc := ⟨.vmem, 31, rfl⟩
abbrev cc2_stg12_0 : Ref sig .tc := ⟨.vmem, 32, rfl⟩
abbrev cc2_stg12_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc2_sem8_0 : DmaSem sig := 24
abbrev cc2_sem8_1 : DmaSem sig := 25
abbrev cc2_sem9_0 : DmaSem sig := 26
abbrev cc2_sem9_1 : DmaSem sig := 27
abbrev cc2_sem10_0 : DmaSem sig := 28
abbrev cc2_sem10_1 : DmaSem sig := 29
abbrev cc2_sem11_0 : DmaSem sig := 30
abbrev cc2_sem11_1 : DmaSem sig := 31
abbrev cc2_sem12_0 : DmaSem sig := 32
abbrev cc2_sem12_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S15x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x105 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x105 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x105 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x105 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x105 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1000x105 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1000x105 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1000x105 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S1000x105 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1000x105 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  bcast_S_S100000 : S_.BroadcastsInDim S100000 (![] : Fin 0 → Fin S100000.rank)
  bcast_S_S10000 : S_.BroadcastsInDim S10000 (![] : Fin 0 → Fin S10000.rank)
  bcast_S10000_S10000x1_0 : S10000.BroadcastsInDim S10000x1 (![0] : Fin 1 → Fin S10000x1.rank)
  bcast_S100000_S100000x1_0 : S100000.BroadcastsInDim S100000x1 (![0] : Fin 1 → Fin S100000x1.rank)
  concatenates_S100000x14_S100000x1_S100000x15_d1 : Shape.Concatenates [S100000x14, S100000x1] S100000x15 1
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S1000x15_S1000x15_0_0 : ∀ a, (![0, 0] : Fin 2 → Nat) a + S1000x15.size a ≤ S1000x15.size a
  h_S1000x15 : 0 < S1000x15.numel
  shapeCasts_S1000x15_S1000x15 : S1000x15.ShapeCasts S1000x15
  bitsLt_bf16_f32 : FTy.bits .bf16 < FTy.bits .f32
  inb_S15x64_S15x64_0_0 : ∀ a, (![0, 0] : Fin 2 → Nat) a + S15x64.size a ≤ S15x64.size a
  h_S15x64 : 0 < S15x64.numel
  inb_S1000x64_S1000x64_0_0 : ∀ a, (![0, 0] : Fin 2 → Nat) a + S1000x64.size a ≤ S1000x64.size a
  h_S1000x64 : 0 < S1000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S1000x64_S1000x64 : S1000x64.ShapeCasts S1000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x64_S64x64_0_0 : ∀ a, (![0, 0] : Fin 2 → Nat) a + S64x64.size a ≤ S64x64.size a
  h_S64x64 : 0 < S64x64.numel
  shapeCasts_S105_S1x105 : S105.ShapeCasts S1x105
  inb_S64x105_S64x105_0_0 : ∀ a, (![0, 0] : Fin 2 → Nat) a + S64x105.size a ≤ S64x105.size a
  h_S64x105 : 0 < S64x105.numel
  inb_S1x105_S1x105_0_0 : ∀ a, (![0, 0] : Fin 2 → Nat) a + S1x105.size a ≤ S1x105.size a
  h_S1x105 : 0 < S1x105.numel
  shapeCasts_S1x105_S1x105 : S1x105.ShapeCasts S1x105
  broadcasts_S1x105_S1000x105 : S1x105.Broadcasts S1000x105
  inb_S1000x105_S1000x105_0_0 : ∀ a, (![0, 0] : Fin 2 → Nat) a + S1000x105.size a ≤ S1000x105.size a
  h_S1000x105 : 0 < S1000x105.numel
  reduces_S1000x105_S1000 : S1000x105.Reduces [1] S1000
  shapeCasts_S1000_S1000x1 : S1000.ShapeCasts S1000x1
  broadcasts_S1000x1_S1000x105 : S1000x1.Broadcasts S1000x105
  scatter_S100000_S10000x1_S10000_n_0_0_1_wf : ScatterDims.WF S100000 S10000x1 S10000 [] [0] [0] 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S1000x15_S15x64_S1000x64_1_0_0_1_n_n_wf : DotDims.WF S1000x15 S15x64 S1000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S1000x64_S64x64_S1000x64_1_0_0_1_n_n_wf : DotDims.WF S1000x64 S64x64 S1000x64 [1] [0] [0] [1] [] []
  dot_S1000x64_S64x105_S1000x105_1_0_0_1_n_n_wf : DotDims.WF S1000x64 S64x105 S1000x105 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x15.size a ≤ S100000x15.size a
  hwx0_0 : ∀ i : grid0.Coords, EltTy.bits .f32 = 32 ∨ (Rect.block (s := S100000x15) S1000x15.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S15x64.size a ≤ S15x64.size a
  hwx0_1 : ∀ i : grid0.Coords, EltTy.bits .f32 = 32 ∨ (Rect.block (s := S15x64) S15x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x64.size a ≤ S100000x64.size a
  hwx0_2 : ∀ i : grid0.Coords, EltTy.bits .f32 = 32 ∨ (Rect.block (s := S100000x64) S1000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S100000x64.size a
  hwx1_0 : ∀ i : grid1.Coords, EltTy.bits .f32 = 32 ∨ (Rect.block (s := S100000x64) S1000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S100000x64.size a
  hwx1_2 : ∀ i : grid1.Coords, EltTy.bits .f32 = 32 ∨ (Rect.block (s := S100000x64) S1000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x64.size a ≤ S100000x64.size a
  hwx1_4 : ∀ i : grid1.Coords, EltTy.bits .f32 = 32 ∨ (Rect.block (s := S100000x64) S1000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S100000x64.size a
  hwx2_0 : ∀ i : grid2.Coords, EltTy.bits .f32 = 32 ∨ (Rect.block (s := S100000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S100000x64.size a
  hwx2_2 : ∀ i : grid2.Coords, EltTy.bits .f32 = 32 ∨ (Rect.block (s := S100000x64) S1000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x105.size a ≤ S64x105.size a
  hwx2_3 : ∀ i : grid2.Coords, EltTy.bits .f32 = 32 ∨ (Rect.block (s := S64x105) S64x105.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x105.size a ≤ S1x105.size a
  hwx2_4 : ∀ i : grid2.Coords, EltTy.bits .f32 = 32 ∨ (Rect.block (s := S1x105) S1x105.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x105.size a ≤ S64x105.size a
  hwx2_5 : ∀ i : grid2.Coords, EltTy.bits .f32 = 32 ∨ (Rect.block (s := S64x105) S64x105.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x105.size a ≤ S1x105.size a
  hwx2_6 : ∀ i : grid2.Coords, EltTy.bits .f32 = 32 ∨ (Rect.block (s := S1x105) S1x105.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x105.size a ≤ S100000x105.size a
  hwx2_7 : ∀ i : grid2.Coords, EltTy.bits .f32 = 32 ∨ (Rect.block (s := S100000x105) S1000x105.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1000x105.size a ≤ S100000x105.size a
  hwx2_8 : ∀ i : grid2.Coords, EltTy.bits .f32 = 32 ∨ (Rect.block (s := S100000x105) S1000x105.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x105.size a ≤ S100000x105.size a
  hwx2_9 : ∀ i : grid2.Coords, EltTy.bits .f32 = 32 ∨ (Rect.block (s := S100000x105) S1000x105.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1000x105.size a ≤ S100000x105.size a
  hwx2_10 : ∀ i : grid2.Coords, EltTy.bits .f32 = 32 ∨ (Rect.block (s := S100000x105) S1000x105.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1000x105.size a ≤ S100000x105.size a
  hwx2_11 : ∀ i : grid2.Coords, EltTy.bits .f32 = 32 ∨ (Rect.block (s := S100000x105) S1000x105.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1000x105.size a ≤ S100000x105.size a
  hwx2_12 : ∀ i : grid2.Coords, EltTy.bits .f32 = 32 ∨ (Rect.block (s := S100000x105) S1000x105.size (cc2_transform_12 i) (hinb2_12 i)).WholeWords (EltTy.packing .f32)

variable [Facts₀]

def scatter_S100000_S10000x1_S10000_n_0_0_1 : ScatterDims S100000 S10000x1 S10000 where
  updateWindowDims := []
  insertedWindowDims := [0]
  scatterDimsToOperandDims := [0]
  indexVectorDim := 1
  wf := scatter_S100000_S10000x1_S10000_n_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S1000x15_S15x64_S1000x64_1_0_0_1_n_n : DotDims S1000x15 S15x64 S1000x64 where
  lhsContracting := [1]
  rhsContracting := [0]
  lhsNonContracting := [0]
  rhsNonContracting := [1]
  lhsBatch := []
  rhsBatch := []
  wf := dot_S1000x15_S15x64_S1000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x105_S1000x105_1_0_0_1_n_n : DotDims S1000x64 S64x105 S1000x105 where
  lhsContracting := [1]
  rhsContracting := [0]
  lhsNonContracting := [0]
  rhsNonContracting := [1]
  lhsBatch := []
  rhsBatch := []
  wf := dot_S1000x64_S64x105_S1000x105_1_0_0_1_n_n_wf

abbrev win0_0 : Pipeline.Window sig grid0 :=
  Pipeline.Window.ofSpec (Memref.whole main_v10) S1000x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S15x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S1000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v69) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S1000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S64x105.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x105.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S64x105.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72) S1x105.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S1000x105.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_arg12) S1000x105.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v73_0) S1000x105.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v73_1) S1000x105.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v73_2) S1000x105.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v73_3) S1000x105.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S100000x14 : Shape := ⟨2, ![100000, 14]⟩
abbrev S15x64 : Shape := ⟨2, ![15, 64]⟩
abbrev S64 : Shape := ⟨1, ![64]⟩
abbrev S64x64 : Shape := ⟨2, ![64, 64]⟩
abbrev S64x105 : Shape := ⟨2, ![64, 105]⟩
abbrev S105 : Shape := ⟨1, ![105]⟩
abbrev S100000x64 : Shape := ⟨2, ![100000, 64]⟩
abbrev S100000x105 : Shape := ⟨2, ![100000, 105]⟩
abbrev S2x1600000 : Shape := ⟨2, ![2, 1600000]⟩
abbrev S10000 : Shape := ⟨1, ![10000]⟩
abbrev S_ : Shape := ⟨0, ![]⟩
abbrev S100000 : Shape := ⟨1, ![100000]⟩
abbrev S10000x1 : Shape := ⟨2, ![10000, 1]⟩
abbrev S100000x1 : Shape := ⟨2, ![100000, 1]⟩
abbrev S100000x15 : Shape := ⟨2, ![100000, 15]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩
abbrev S1x64 : Shape := ⟨2, ![1, 64]⟩
abbrev S1x105 : Shape := ⟨2, ![1, 105]⟩

abbrev nBuf : Space → Nat
  | .hbm => 156
  | .vmem => 0
  | .smem => 0
  | _ => 0

abbrev hbmTy0_0 (i : Nat) : BufTy := match i % 128 with
  | 0 => ⟨S100000x14, .f32⟩
  | 1 => ⟨S15x64, .f32⟩
  | 2 => ⟨S64, .f32⟩
  | 3 => ⟨S64x64, .f32⟩
  | 4 => ⟨S64, .f32⟩
  | 5 => ⟨S64x105, .f32⟩
  | 6 => ⟨S105, .f32⟩
  | 7 => ⟨S64x105, .f32⟩
  | 8 => ⟨S105, .f32⟩
  | 9 => ⟨S100000x64, .f32⟩
  | 10 => ⟨S100000x64, .f32⟩
  | 11 => ⟨S100000x105, .f32⟩
  | 12 => ⟨S100000x105, .f32⟩
  | 13 => ⟨S2x1600000, .i32⟩
  | 14 => ⟨S10000, .i32⟩
  | 15 => ⟨S_, .f32⟩
  | 16 => ⟨S100000, .f32⟩
  | 17 => ⟨S_, .i32⟩
  | 18 => ⟨S10000, .i32⟩
  | 19 => ⟨S10000, .i1⟩
  | 20 => ⟨S_, .i32⟩
  | 21 => ⟨S10000, .i32⟩
  | 22 => ⟨S10000, .i32⟩
  | 23 => ⟨S10000, .i32⟩
  | 24 => ⟨S10000x1, .i32⟩
  | 25 => ⟨S_, .f32⟩
  | 26 => ⟨S10000, .f32⟩
  | 27 => ⟨S100000, .f32⟩
  | 28 => ⟨S100000x1, .f32⟩
  | 29 => ⟨S100000x15, .f32⟩
  | 30 => ⟨S100000, .i32⟩
  | 31 => ⟨S1x1600000, .i32⟩
  | 32 => ⟨S1600000, .i32⟩
  | 33 => ⟨S1700000, .i32⟩
  | 34 => ⟨S1x1600000, .i32⟩
  | 35 => ⟨S1600000, .i32⟩
  | 36 => ⟨S1700000, .i32⟩
  | 37 => ⟨S_, .f32⟩
  | 38 => ⟨S1700000, .f32⟩
  | 39 => ⟨S_, .f32⟩
  | 40 => ⟨S100000, .f32⟩
  | 41 => ⟨S1700000x1, .i32⟩
  | 42 => ⟨S100000, .f32⟩
  | 43 => ⟨S_, .f32⟩
  | 44 => ⟨S100000, .f32⟩
  | 45 => ⟨S100000, .i1⟩
  | 46 => ⟨S100000, .f32⟩
  | 47 => ⟨S_, .f32⟩
  | 48 => ⟨S_, .f32⟩
  | 49 => ⟨S100000, .f32⟩
  | 50 => ⟨S100000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000, .f32⟩
  | 69 => ⟨S1700000, .f32⟩
  | 70 => ⟨S100000x64, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x64, .f32⟩
  | 80 => ⟨S1700000x1, .f32⟩
  | 81 => ⟨S1700000x64, .f32⟩
  | 82 => ⟨S1700000x64, .f32⟩
  | 83 => ⟨S_, .f32⟩
  | 84 => ⟨S100000x64, .f32⟩
  | 85 => ⟨S1700000x1, .i32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S100000x64, .f32⟩
  | 94 => ⟨S100000x64, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x64, .f32⟩
  | 104 => ⟨S1700000x1, .f32⟩
  | 105 => ⟨S1700000x64, .f32⟩
  | 106 => ⟨S1700000x64, .f32⟩
  | 107 => ⟨S_, .f32⟩
  | 108 => ⟨S100000x64, .f32⟩
  | 109 => ⟨S1700000x1, .i32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S100000x105, .f32⟩
  | 119 => ⟨S1x105, .f32⟩
  | 120 => ⟨S100000x105, .f32⟩
  | 121 => ⟨S100000x105, .f32⟩
  | 122 => ⟨S100000x105, .f32⟩
  | 123 => ⟨S1x105, .f32⟩
  | 124 => ⟨S100000x105, .f32⟩
  | 125 => ⟨S100000x105, .f32⟩
  | 126 => ⟨S100000x105, .f32⟩
  | 127 => ⟨S_, .f32⟩
  | _ => ⟨S100000x14, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x105, .f32⟩
  | 6 => ⟨S100000x105, .f32⟩
  | 7 => ⟨S100000x105, .f32⟩
  | 8 => ⟨S_, .f32⟩
  | 9 => ⟨S100000, .f32⟩
  | 10 => ⟨S100000x1, .f32⟩
  | 11 => ⟨S100000x105, .f32⟩
  | 12 => ⟨S100000x105, .f32⟩
  | 13 => ⟨S100000x105, .f32⟩
  | 14 => ⟨S_, .f32⟩
  | 15 => ⟨S100000, .f32⟩
  | 16 => ⟨S_, .f32⟩
  | 17 => ⟨S100000, .f32⟩
  | 18 => ⟨S100000, .f32⟩
  | 19 => ⟨S100000x1, .f32⟩
  | 20 => ⟨S100000x105, .f32⟩
  | 21 => ⟨S100000x105, .f32⟩
  | 22 => ⟨S100000x105, .f32⟩
  | 23 => ⟨S_, .f32⟩
  | 24 => ⟨S100000, .f32⟩
  | 25 => ⟨S100000x1, .f32⟩
  | 26 => ⟨S100000x105, .f32⟩
  | 27 => ⟨S100000x105, .f32⟩
  | _ => ⟨S100000x14, .f32⟩

abbrev hbmTy (i : Nat) : BufTy := match i / 128 with
  | 0 => hbmTy0_0 i
  | 1 => hbmTy0_1 i
  | _ => ⟨S100000x14, .f32⟩

abbrev bufTy : (tb : Table) → Fin (tcTables nBuf tb) → BufTy
  | .hbm, ⟨i, _⟩ => hbmTy i
  | _, _ => ⟨S100000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_c_7 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_8 : Ref sig .tc := ⟨.hbm, 60, rfl⟩
abbrev main_v33 : Ref sig .tc := ⟨.hbm, 61, rfl⟩
abbrev main_v34 : Ref sig .tc := ⟨.hbm, 62, rfl⟩
abbrev main_c_9 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_10 : Ref sig .tc := ⟨.hbm, 71, rfl⟩
abbrev main_v42 : Ref sig .tc := ⟨.hbm, 72, rfl⟩
abbrev main_v43 : Ref sig .tc := ⟨.hbm, 73, rfl⟩
abbrev main_c_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_12 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call1_cst : Ref sig .tc := ⟨.hbm, 90, rfl⟩
abbrev main_call1_v0 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_13 : Ref sig .tc := ⟨.hbm, 95, rfl⟩
abbrev main_v61 : Ref sig .tc := ⟨.hbm, 96, rfl⟩
abbrev main_v62 : Ref sig .tc := ⟨.hbm, 97, rfl⟩
abbrev main_c_14 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_15 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_call2_cst : Ref sig .tc := ⟨.hbm, 114, rfl⟩
abbrev main_call2_v0 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_16 : Ref sig .tc := ⟨.hbm, 127, rfl⟩
abbrev main_v88 : Ref sig .tc := ⟨.hbm, 128, rfl⟩
abbrev main_cst_17 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_18 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_19 : Ref sig .tc := ⟨.hbm, 142, rfl⟩
abbrev main_v100 : Ref sig .tc := ⟨.hbm, 143, rfl⟩
abbrev main_cst_20 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_21 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S_S10000 : S_.BroadcastsInDim S10000 (![] : Fin 0 → Fin S10000.rank)
  bcast_S10000_S10000x1_0 : S10000.BroadcastsInDim S10000x1 (![0] : Fin 1 → Fin S10000x1.rank)
  bcast_S100000_S100000x1_0 : S100000.BroadcastsInDim S100000x1 (![0] : Fin 1 → Fin S100000x1.rank)
  concatenates_S100000x14_S100000x1_S100000x15_d1 : Shape.Concatenates [S100000x14, S100000x1] S100000x15 1
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S105_S1x105_1 : S105.BroadcastsInDim S1x105 (![1] : Fin 1 → Fin S1x105.rank)
  bcast_S1x105_S100000x105_0_1 : S1x105.BroadcastsInDim S100000x105 (![0, 1] : Fin 2 → Fin S100000x105.rank)
  reducesTo_S100000x105_S100000_d1 : S100000x105.ReducesTo [1] S100000
  h_S_ : 0 < S_.numel
  bcast_S100000x1_S100000x105_0_1 : S100000x1.BroadcastsInDim S100000x105 (![0, 1] : Fin 2 → Fin S100000x105.rank)
  scatter_S100000_S10000x1_S10000_n_0_0_1_wf : ScatterDims.WF S100000 S10000x1 S10000 [] [0] [0] 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x15_S15x64_S100000x64_1_0_0_1_n_n_wf : DotDims.WF S100000x15 S15x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x105_S100000x105_1_0_0_1_n_n_wf : DotDims.WF S100000x64 S64x105 S100000x105 [1] [0] [0] [1] [] []

variable [Facts₀]

def scatter_S100000_S10000x1_S10000_n_0_0_1 : ScatterDims S100000 S10000x1 S10000 where
  updateWindowDims := []
  insertedWindowDims := [0]
  scatterDimsToOperandDims := [0]
  indexVectorDim := 1
  wf := scatter_S100000_S10000x1_S10000_n_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x15_S15x64_S100000x64_1_0_0_1_n_n : DotDims S100000x15 S15x64 S100000x64 where
  lhsContracting := [1]
  rhsContracting := [0]
  lhsNonContracting := [0]
  rhsNonContracting := [1]
  lhsBatch := []
  rhsBatch := []
  wf := dot_S100000x15_S15x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x105_S100000x105_1_0_0_1_n_n : DotDims S100000x64 S64x105 S100000x105 where
  lhsContracting := [1]
  rhsContracting := [0]
  lhsNonContracting := [0]
  rhsNonContracting := [1]
  lhsBatch := []
  rhsBatch := []
  wf := dot_S100000x64_S64x105_S100000x105_1_0_0_1_n_n_wf

class Facts : Prop extends Facts₀ where

variable [Facts]
-- ==== Proof.ValueRun.lean ====
/-
  The idealized kernel's run, with its four result arrays named.

  @main is three kernel regions among five stretches of host operations. What every buffer of a core holds after the
  run is a fold through the program: a stretch of host operations maps the contents by the operations' results, a
  region replaces its arrays by what its write-backs leave and keeps every other buffer. This file restates the
  program's run with a richer post: beside the argument arrays ending as launched, each of the four result arrays
  ends at that fold's value (`W8`), which the following files read stretch by stretch.
-/
import proofs.«100760_j54709293417098_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; each result array ends at the fold's value and
    each argument array as launched. -/
theorem run : θ_run defs (onTc (τ := τ) (main (F := F))) ⟨m, fun _ => 0, ρ⟩ (fun r => ∀ c : Dev nD,
      r.2.mem ((c.tc : Thread nD τ).loc main_v73_0) = W8 m ρ c (Proc.devRef .tc main_v73_0)
      ∧ r.2.mem ((c.tc : Thread nD τ).loc main_v73_1) = W8 m ρ c (Proc.devRef .tc main_v73_1)
      ∧ r.2.mem ((c.tc : Thread nD τ).loc main_v73_2) = W8 m ρ c (Proc.devRef .tc main_v73_2)
      ∧ r.2.mem ((c.tc : Thread nD τ).loc main_v73_3) = W8 m ρ c (Proc.devRef .tc main_v73_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v73_0 (by decide)),
       h c _ (mem_uc main_v73_1 (by decide)),
       h c _ (mem_uc main_v73_2 (by decide)),
       h c _ (mem_uc main_v73_3 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.ValueRun

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«100760_j54709293417098_1_alg».proof.Proof.LibRowLayers
import proofs.«100760_j54709293417098_1_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibSoftmaxRows.lean ====
/-
  A row-wise softmax over the extended reals, in the two spellings a program may take.

  softmax sends a row f to j ↦ exp (f j − M) / ∑ k, exp (f k − M), M the row's largest entry, taken as a fold of max
  from a start value z (both programs take z to be −∞, and both take the maximum of z with the fold once more, which
  changes nothing: the start value is below the fold). The device computes it with lane reductions whose results are
  re-laid as a column and broadcast back along the lanes; the host with reduces broadcast back through a unit column,
  its float sum started from the constant 0. Read at an entry (p, j), for any number of rows, both are softmax of row p
  at j: the division, the exponential and the subtraction are the same functions on every extended real in both
  spellings, so nothing here asks for finiteness.
-/
import proofs.«100760_j54709293417098_1_alg».proof.Proof.LibChebRows

noncomputable section

namespace Cert.SoftmaxRows

open Idealize.ShloMosaic Idealize.ShloMosaic.ValueIdx Cert.RowLayers Cert.ChebRows

/-- softmax of a row: the exponentials of the row shifted by its largest entry, each divided by their sum. -/
def softmax {n : ℕ} (z : EReal) (f : Fin n → EReal) : Fin n → EReal :=
  fun j => Ideal.div (Ideal.exp (f j - rowMax z f)) (∑ k : Fin n, Ideal.exp (f k - rowMax z f))

theorem softmax_apply {n : ℕ} (z : EReal) (f : Fin n → EReal) (j : Fin n) :
    softmax z f j = Ideal.div (Ideal.exp (f j - rowMax z f)) (∑ k : Fin n, Ideal.exp (f k - rowMax z f)) := rfl

/-- softmax depends on the row only. -/
theorem softmax_congr {n : ℕ} (z : EReal) {f g : Fin n → EReal} (h : ∀ j, f j = g j) : softmax z f = softmax z g := by
  rw [show f = g from funext h]

/-! ## The device's spelling -/

section Device
variable {a n : ℕ} {φ : FTy}

/-- The shifted exponentials: the array minus (the column of per-row maxima, each taken once more with the start value,
    broadcast along the lanes), exponentiated, read at (p, j). -/
theorem device_shiftExp_apply (x : FVec Ideal ⟨2, ![a, n]⟩ φ) (acc : BitVec φ.bits)
    (h : (⟨2, ![a, n]⟩ : Shape).Reduces [1] (⟨1, ![a]⟩ : Shape)) (hφ : FKind.Formats φ) (hacc : acc = FKind.maximumf.neutral φ hφ)
    (hc : (⟨1, ![a]⟩ : Shape).ShapeCasts ⟨2, ![a, 1]⟩) (hb : (⟨2, ![a, 1]⟩ : Shape).Broadcasts ⟨2, ![a, n]⟩) (p : Fin a) (j : Fin n) :
    exp (subf x (broadcastTo ⟨2, ![a, n]⟩ (shapeCast ⟨2, ![a, 1]⟩
        (maximumf (broadcast (⟨1, ![a]⟩ : Shape) (Scalar.ofBits φ acc)) (multiReduction .maximumf [1] ⟨1, ![a]⟩ x acc h hφ hacc)) hc) hb)) (ix2 p j)
      = Ideal.exp (x (ix2 p j) - rowMax (Ideal.ofBits φ acc) (rowOf x p)) := by
  show Ideal.exp (x (ix2 p j) - broadcastTo ⟨2, ![a, n]⟩ (shapeCast ⟨2, ![a, 1]⟩ _ hc) hb (ix2 p j)) = _
  rw [column_device_apply]
  show Ideal.exp (x (ix2 p j) - max (Ideal.ofBits φ acc) (multiReduction .maximumf [1] ⟨1, ![a]⟩ x acc h hφ hacc (ix1 p))) = _
  rw [multiReduction_max_row, max_rowMax]

/-- The device's softmax, read at (p, j), is softmax of row p at j. -/
theorem device_softmax_apply (x : FVec Ideal ⟨2, ![a, n]⟩ φ) (acc acc0 : BitVec φ.bits)
    (h : (⟨2, ![a, n]⟩ : Shape).Reduces [1] (⟨1, ![a]⟩ : Shape)) (hφ : FKind.Formats φ) (hacc : acc = FKind.maximumf.neutral φ hφ)
    (hacc0 : acc0 = FKind.add.neutral φ hφ)
    (hc : (⟨1, ![a]⟩ : Shape).ShapeCasts ⟨2, ![a, 1]⟩) (hb : (⟨2, ![a, 1]⟩ : Shape).Broadcasts ⟨2, ![a, n]⟩) (p : Fin a) (j : Fin n) :
    divf (exp (subf x (broadcastTo ⟨2, ![a, n]⟩ (shapeCast ⟨2, ![a, 1]⟩
            (maximumf (broadcast (⟨1, ![a]⟩ : Shape) (Scalar.ofBits φ acc)) (multiReduction .maximumf [1] ⟨1, ![a]⟩ x acc h hφ hacc)) hc) hb)))
         (broadcastTo ⟨2, ![a, n]⟩ (shapeCast ⟨2, ![a, 1]⟩
            (multiReduction .add [1] ⟨1, ![a]⟩
              (exp (subf x (broadcastTo ⟨2, ![a, n]⟩ (shapeCast ⟨2, ![a, 1]⟩
                (maximumf (broadcast (⟨1, ![a]⟩ : Shape) (Scalar.ofBits φ acc)) (multiReduction .maximumf [1] ⟨1, ![a]⟩ x acc h hφ hacc)) hc) hb)))
              acc0 h hφ hacc0) hc) hb) (ix2 p j)
      = softmax (Ideal.ofBits φ acc) (rowOf x p) j := by
  show Ideal.div (exp (subf x _) (ix2 p j)) (broadcastTo ⟨2, ![a, n]⟩ (shapeCast ⟨2, ![a, 1]⟩ _ hc) hb (ix2 p j)) = _
  rw [column_device_apply, multiReduction_add_row, device_shiftExp_apply]
  refine congrArg (Ideal.div _) (Finset.sum_congr rfl fun k _ => ?_)
  exact device_shiftExp_apply x acc h hφ hacc hc hb p k

end Device

/-! ## The host's spelling -/

section Host
variable {a n : ℕ}

/-- The host's shifted exponentials read at (p, j). -/
theorem host_shiftExp_apply (x : FVec Ideal ⟨2, ![a, n]⟩ .f32) (w : BitVec 32)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel)
    (hb0 : (⟨0, ![]⟩ : Shape).BroadcastsInDim (⟨1, ![a]⟩ : Shape) ![])
    (h1 : (⟨1, ![a]⟩ : Shape).BroadcastsInDim ⟨2, ![a, 1]⟩ ![0]) (h2 : (⟨2, ![a, 1]⟩ : Shape).BroadcastsInDim ⟨2, ![a, n]⟩ ![0, 1])
    (p : Fin a) (j : Fin n) :
    Host.exp (subf x (broadcastInDim ⟨2, ![a, n]⟩ ![0, 1] h2 (broadcastInDim ⟨2, ![a, 1]⟩ ![0] h1
        (maximumf (broadcastInDim (⟨1, ![a]⟩ : Shape) ![] hb0 (constant (F := Ideal) ⟨0, ![]⟩ .f32 w))
                  (Host.reduce FloatOps.maximumf x (constant (F := Ideal) ⟨0, ![]⟩ .f32 w) h' hu))))) (ix2 p j)
      = Ideal.exp (x (ix2 p j) - rowMax (Ideal.ofBits .f32 w) (rowOf x p)) := by
  show Ideal.exp (x (ix2 p j) - _) = _
  rw [lanes_host_apply, column_host_apply]
  show Ideal.exp (x (ix2 p j) - max (Ideal.ofBits .f32 w) (Host.reduce FloatOps.maximumf x (constant (F := Ideal) ⟨0, ![]⟩ .f32 w) h' hu (ix1 p))) = _
  rw [hostReduce_max_row x _ h' h hu p]
  show Ideal.exp (x (ix2 p j) - max (Ideal.ofBits .f32 w) (rowMax (Ideal.ofBits .f32 w) (rowOf x p))) = _
  rw [max_rowMax]

/-- The host's softmax, its sum started from the constant 0, read at (p, j), is softmax of row p at j. -/
theorem host_softmax_apply (x : FVec Ideal ⟨2, ![a, n]⟩ .f32) (w : BitVec 32)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel)
    (hb0 : (⟨0, ![]⟩ : Shape).BroadcastsInDim (⟨1, ![a]⟩ : Shape) ![])
    (h1 : (⟨1, ![a]⟩ : Shape).BroadcastsInDim ⟨2, ![a, 1]⟩ ![0]) (h2 : (⟨2, ![a, 1]⟩ : Shape).BroadcastsInDim ⟨2, ![a, n]⟩ ![0, 1])
    (p : Fin a) (j : Fin n) :
    Host.divf
        (Host.exp (subf x (broadcastInDim ⟨2, ![a, n]⟩ ![0, 1] h2 (broadcastInDim ⟨2, ![a, 1]⟩ ![0] h1
          (maximumf (broadcastInDim (⟨1, ![a]⟩ : Shape) ![] hb0 (constant (F := Ideal) ⟨0, ![]⟩ .f32 w))
                    (Host.reduce FloatOps.maximumf x (constant (F := Ideal) ⟨0, ![]⟩ .f32 w) h' hu))))))
        (broadcastInDim ⟨2, ![a, n]⟩ ![0, 1] h2 (broadcastInDim ⟨2, ![a, 1]⟩ ![0] h1
          (Host.reduceAdd
            (Host.exp (subf x (broadcastInDim ⟨2, ![a, n]⟩ ![0, 1] h2 (broadcastInDim ⟨2, ![a, 1]⟩ ![0] h1
              (maximumf (broadcastInDim (⟨1, ![a]⟩ : Shape) ![] hb0 (constant (F := Ideal) ⟨0, ![]⟩ .f32 w))
                        (Host.reduce FloatOps.maximumf x (constant (F := Ideal) ⟨0, ![]⟩ .f32 w) h' hu))))))
            (constant (F := Ideal) ⟨0, ![]⟩ .f32 0x00000000#32) h' hu))) (ix2 p j)
      = softmax (Ideal.ofBits .f32 w) (rowOf x p) j := by
  show Ideal.div (Host.exp (subf x _) (ix2 p j)) _ = _
  rw [lanes_host_apply, column_host_apply, hostReduceAdd_row _ _ h' h hu p, host_shiftExp_apply x w h' h hu hb0 h1 h2 p j]
  show Ideal.div _ (Ideal.ofBits .f32 0x00000000#32 + _) = _
  rw [Ideal.ofBits_zero_f32, zero_add]
  refine congrArg (Ideal.div _) (Finset.sum_congr rfl fun k _ => ?_)
  exact host_shiftExp_apply x w h' h hu hb0 h1 h2 p k

end Host

end Cert.SoftmaxRows

end
-- ==== Proof.LibDenseStages.lean ====
/-
  The dense stages of a layered network over the extended reals, as functions of whole arrays with any number of rows.

  Between two aggregation steps a graph network treats every node alone. Its hidden layer is entry-wise,
  max (agg[r, k] + b k) z · drop[r, k] (`hiddenArr`: bias, rectifier at threshold z, dropout scale); a projection
  sends row r to j ↦ ∑ k, x[r, k] · w[k, j] (`projArr`); a head adds a bias row to a projection (`denseArr`), a noise
  array is added entry by entry (`addArr`), and a softmax normalises every row (`softmaxArr`). Each of these reads row r
  of its result off row r of its operands only, so a tile of consecutive rows of the operands gives the matching tile
  of the result (`IsTile`): that is the one step from an evaluation tile by tile to the whole array. The device's
  spelling of each stage (a bias row broadcast down the rows, a splat threshold, a matrix product into a zero
  accumulator after a change of float format, lane reductions re-laid as a column) and the host's (a bias vector given
  a unit axis and broadcast, a rank-0 threshold broadcast, a dot_general, reduces) are read as these functions.
  Nothing is asked of the entries: every equation holds at the infinities too.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«100760_j54709293417098_1_alg».proof.Proof.LibRowLayers
import proofs.«100760_j54709293417098_1_alg».proof.Proof.LibChebRows
import proofs.«100760_j54709293417098_1_alg».proof.Proof.LibSoftmaxRows

noncomputable section

namespace Cert.DenseStages

open Idealize.ShloMosaic Idealize.ShloMosaic.ValueIdx Cert.RowLayers Cert.ChebRows Cert.SoftmaxRows

/-- An `[a, b]` array of extended reals. -/
abbrev Arr (a b : ℕ) : Type := (⟨2, ![a, b]⟩ : Shape).Idx → EReal

/-! ## The stages -/

/-- The hidden layer, entry by entry: bias, rectifier at `z`, dropout scale. -/
def hiddenArr {a K : ℕ} (z : EReal) (b : Fin K → EReal) (agg drop : Arr a K) : Arr a K :=
  fun i => max (agg i + b (i 1)) z * drop i

/-- A projection: row `r` of the result is row `r` of `x` times the matrix `w`. -/
def projArr {a K J : ℕ} (x : Arr a K) (w : Arr K J) : Arr a J :=
  fun i => ∑ k : Fin K, rowOf x (i 0) k * w (ix2 k (i 1))

/-- A head: a projection plus a bias row. -/
def denseArr {a K J : ℕ} (x : Arr a K) (w : Arr K J) (bias : Fin J → EReal) : Arr a J :=
  fun i => dense (rowOf x (i 0)) w bias (i 1)

/-- Two arrays added entry by entry. -/
def addArr {a J : ℕ} (x y : Arr a J) : Arr a J := fun i => x i + y i

/-- Every row normalised by softmax (its maximum folded from `z`). -/
def softmaxArr {a J : ℕ} (z : EReal) (x : Arr a J) : Arr a J := fun i => softmax z (rowOf x (i 0)) (i 1)

/-! ## Tiles of rows -/

/-- `A₀` holds the rows of `A` from row `r₀` on. -/
def IsTile {a₀ a K : ℕ} (r₀ : ℕ) (A₀ : Arr a₀ K) (A : Arr a K) : Prop :=
  ∀ (y : (⟨2, ![a₀, K]⟩ : Shape).Idx) (i : (⟨2, ![a, K]⟩ : Shape).Idx),
    (i 0).val = r₀ + (y 0).val → (i 1).val = (y 1).val → A₀ y = A i

section Tiles
variable {a₀ a K J : ℕ} {r₀ : ℕ}

theorem IsTile.rowOf_eq {A₀ : Arr a₀ K} {A : Arr a K} (h : IsTile r₀ A₀ A) (p : Fin a₀) (r : Fin a)
    (hr : r.val = r₀ + p.val) : rowOf A₀ p = rowOf A r :=
  funext fun k => h (ix2 p k) (ix2 r k) hr rfl

theorem IsTile.hiddenArr (z : EReal) (b : Fin K → EReal) {agg₀ drop₀ : Arr a₀ K} {agg drop : Arr a K}
    (h1 : IsTile r₀ agg₀ agg) (h2 : IsTile r₀ drop₀ drop) :
    IsTile r₀ (hiddenArr z b agg₀ drop₀) (hiddenArr z b agg drop) := by
  intro y i h0 hcol
  have hc : (y 1 : Fin K) = i 1 := Fin.ext hcol.symm
  show max (agg₀ y + b (y 1)) z * drop₀ y = max (agg i + b (i 1)) z * drop i
  rw [h1 y i h0 hcol, h2 y i h0 hcol, hc]

theorem IsTile.projArr {x₀ : Arr a₀ K} {x : Arr a K} (h : IsTile r₀ x₀ x) (w : Arr K J) :
    IsTile r₀ (projArr x₀ w) (projArr x w) := by
  intro y i h0 hcol
  have hr : rowOf x₀ (y 0) = rowOf x (i 0) := h.rowOf_eq (y 0) (i 0) h0
  have hc : (y 1 : Fin J) = i 1 := Fin.ext hcol.symm
  show (∑ k : Fin K, rowOf x₀ (y 0) k * w (ix2 k (y 1))) = ∑ k : Fin K, rowOf x (i 0) k * w (ix2 k (i 1))
  rw [hr, hc]

theorem IsTile.denseArr {x₀ : Arr a₀ K} {x : Arr a K} (h : IsTile r₀ x₀ x) (w : Arr K J) (bias : Fin J → EReal) :
    IsTile r₀ (denseArr x₀ w bias) (denseArr x w bias) := by
  intro y i h0 hcol
  have hr : rowOf x₀ (y 0) = rowOf x (i 0) := h.rowOf_eq (y 0) (i 0) h0
  have hc : (y 1 : Fin J) = i 1 := Fin.ext hcol.symm
  show dense (rowOf x₀ (y 0)) w bias (y 1) = dense (rowOf x (i 0)) w bias (i 1)
  rw [hr, hc]

theorem IsTile.addArr {x₀ y₀ : Arr a₀ J} {x y : Arr a J} (h1 : IsTile r₀ x₀ x) (h2 : IsTile r₀ y₀ y) :
    IsTile r₀ (addArr x₀ y₀) (addArr x y) := by
  intro u i h0 hcol
  show x₀ u + y₀ u = x i + y i
  rw [h1 u i h0 hcol, h2 u i h0 hcol]

theorem IsTile.softmaxArr (z : EReal) {x₀ : Arr a₀ J} {x : Arr a J} (h : IsTile r₀ x₀ x) :
    IsTile r₀ (softmaxArr z x₀) (softmaxArr z x) := by
  intro y i h0 hcol
  have hr : rowOf x₀ (y 0) = rowOf x (i 0) := h.rowOf_eq (y 0) (i 0) h0
  have hc : (y 1 : Fin J) = i 1 := Fin.ext hcol.symm
  show softmax z (rowOf x₀ (y 0)) (y 1) = softmax z (rowOf x (i 0)) (i 1)
  rw [hr, hc]

end Tiles

/-! ## The device's spellings -/

section Device
variable {a K J : ℕ}

/-- Bias row broadcast down the rows, maximum with a splat threshold, product with the dropout scale. -/
theorem device_hidden (agg drop : FVec Ideal ⟨2, ![a, K]⟩ .f32) (brow : FVec Ideal ⟨2, ![1, K]⟩ .f32) (z : Ideal .f32)
    (hB : (⟨2, ![1, K]⟩ : Shape).Broadcasts ⟨2, ![a, K]⟩) :
    mulf (maximumf (addf agg (broadcastTo ⟨2, ![a, K]⟩ brow hB)) (broadcast ⟨2, ![a, K]⟩ z)) drop
      = hiddenArr z (rowOf brow 0) agg drop := by
  funext i
  obtain ⟨p, q, rfl⟩ : ∃ (p : Fin a) (q : Fin K), i = ix2 p q := ⟨i 0, i 1, eq_ix2 i⟩
  show max (agg (ix2 p q) + broadcastTo ⟨2, ![a, K]⟩ brow hB (ix2 p q)) z * drop (ix2 p q)
    = max (agg (ix2 p q) + brow (ix2 (0 : Fin 1) q)) z * drop (ix2 p q)
  rw [broadcastTo_1b_ab_apply]

/-- A matrix product into a zero accumulator, whatever the operands' float formats. -/
theorem device_proj {d : DotDims ⟨2, ![a, K]⟩ ⟨2, ![K, J]⟩ ⟨2, ![a, J]⟩} (H : RowsTimesCols d) (prec : Option ContractPrecision)
    {φ₁ φ₂ : FTy} (x : FVec Ideal ⟨2, ![a, K]⟩ φ₁) (w : FVec Ideal ⟨2, ![K, J]⟩ φ₂) :
    matmul d prec x w (constant (F := Ideal) ⟨2, ![a, J]⟩ .f32 0x00000000#32) = projArr x w := by
  funext i
  obtain ⟨p, q, rfl⟩ : ∃ (p : Fin a) (q : Fin J), i = ix2 p q := ⟨i 0, i 1, eq_ix2 i⟩
  exact congrFun (rowOf_matmul_zero H prec x w p) q

/-- A product into a zero accumulator plus a `[1, J]` bias row broadcast down the rows. -/
theorem device_dense {d : DotDims ⟨2, ![a, K]⟩ ⟨2, ![K, J]⟩ ⟨2, ![a, J]⟩} (H : RowsTimesCols d) (prec : Option ContractPrecision)
    {φ₁ φ₂ : FTy} (x : FVec Ideal ⟨2, ![a, K]⟩ φ₁) (w : FVec Ideal ⟨2, ![K, J]⟩ φ₂) (bias : FVec Ideal ⟨2, ![1, J]⟩ .f32)
    (hB : (⟨2, ![1, J]⟩ : Shape).Broadcasts ⟨2, ![a, J]⟩) :
    addf (matmul d prec x w (constant (F := Ideal) ⟨2, ![a, J]⟩ .f32 0x00000000#32)) (broadcastTo ⟨2, ![a, J]⟩ bias hB)
      = denseArr x w (rowOf bias 0) := by
  funext i
  obtain ⟨p, q, rfl⟩ : ∃ (p : Fin a) (q : Fin J), i = ix2 p q := ⟨i 0, i 1, eq_ix2 i⟩
  exact congrFun (rowOf_dense_device H prec x w bias hB p) q

/-- The device's softmax: lane maximum and lane sum, each re-laid as a column and broadcast along the lanes. -/
theorem device_softmax (x : FVec Ideal ⟨2, ![a, J]⟩ .f32) (acc acc0 : BitVec 32)
    (h : (⟨2, ![a, J]⟩ : Shape).Reduces [1] (⟨1, ![a]⟩ : Shape)) (hφ : FKind.Formats FTy.f32)
    (hacc : acc = FKind.maximumf.neutral .f32 hφ) (hacc0 : acc0 = FKind.add.neutral .f32 hφ)
    (hc : (⟨1, ![a]⟩ : Shape).ShapeCasts ⟨2, ![a, 1]⟩) (hb : (⟨2, ![a, 1]⟩ : Shape).Broadcasts ⟨2, ![a, J]⟩) :
    divf (exp (subf x (broadcastTo ⟨2, ![a, J]⟩ (shapeCast ⟨2, ![a, 1]⟩
            (multiReduction .maximumf [1] ⟨1, ![a]⟩ x acc h hφ hacc) hc) hb)))
         (broadcastTo ⟨2, ![a, J]⟩ (shapeCast ⟨2, ![a, 1]⟩
            (multiReduction .add [1] ⟨1, ![a]⟩
              (exp (subf x (broadcastTo ⟨2, ![a, J]⟩ (shapeCast ⟨2, ![a, 1]⟩
                (multiReduction .maximumf [1] ⟨1, ![a]⟩ x acc h hφ hacc) hc) hb)))
              acc0 h hφ hacc0) hc) hb)
      = softmaxArr (Ideal.ofBits .f32 acc) x := by
  have hexp : ∀ (p : Fin a) (j : Fin J),
      exp (subf x (broadcastTo ⟨2, ![a, J]⟩ (shapeCast ⟨2, ![a, 1]⟩
            (multiReduction .maximumf [1] ⟨1, ![a]⟩ x acc h hφ hacc) hc) hb)) (ix2 p j)
        = Ideal.exp (x (ix2 p j) - rowMax (Ideal.ofBits .f32 acc) (rowOf x p)) := by
    intro p j
    show Ideal.exp (x (ix2 p j) - broadcastTo ⟨2, ![a, J]⟩ (shapeCast ⟨2, ![a, 1]⟩ _ hc) hb (ix2 p j)) = _
    rw [column_device_apply, multiReduction_max_row]
  funext i
  obtain ⟨p, q, rfl⟩ : ∃ (p : Fin a) (q : Fin J), i = ix2 p q := ⟨i 0, i 1, eq_ix2 i⟩
  show Ideal.div (exp (subf x _) (ix2 p q)) (broadcastTo ⟨2, ![a, J]⟩ (shapeCast ⟨2, ![a, 1]⟩ _ hc) hb (ix2 p q))
    = softmax (Ideal.ofBits .f32 acc) (rowOf x p) q
  rw [column_device_apply, multiReduction_add_row, hexp p q]
  refine congrArg (Ideal.div _) (Finset.sum_congr rfl fun k _ => ?_)
  exact hexp p k

end Device

/-! ## The host's spellings -/

section Host
variable {a K J : ℕ}

/-- Bias vector given a unit leading axis and broadcast, maximum with a rank-0 threshold broadcast, product with
    the dropout scale. -/
theorem host_hidden (agg drop : FVec Ideal ⟨2, ![a, K]⟩ .f32) (b : FVec Ideal ⟨1, ![K]⟩ .f32) (w : BitVec 32)
    {s : Shape} (dims : Fin s.rank → Fin 2) (hz : s.BroadcastsInDim ⟨2, ![a, K]⟩ dims)
    (h1 : (⟨1, ![K]⟩ : Shape).BroadcastsInDim ⟨2, ![1, K]⟩ ![1]) (h2 : (⟨2, ![1, K]⟩ : Shape).BroadcastsInDim ⟨2, ![a, K]⟩ ![0, 1]) :
    mulf (maximumf (addf agg (broadcastInDim ⟨2, ![a, K]⟩ ![0, 1] h2 (broadcastInDim ⟨2, ![1, K]⟩ ![1] h1 b)))
                   (broadcastInDim ⟨2, ![a, K]⟩ dims hz (constant (F := Ideal) s .f32 w))) drop
      = hiddenArr (Ideal.ofBits .f32 w) (fun j => b (ix1 j)) agg drop := by
  funext i
  obtain ⟨p, q, rfl⟩ : ∃ (p : Fin a) (q : Fin K), i = ix2 p q := ⟨i 0, i 1, eq_ix2 i⟩
  have e : broadcastInDim ⟨2, ![a, K]⟩ ![0, 1] h2 (broadcastInDim ⟨2, ![1, K]⟩ ![1] h1 b) (ix2 p q) = b (ix1 q) :=
    congrFun (rowOf_broadcastInDim_vec b h1 h2 p) q
  exact congrArg (fun t => max (agg (ix2 p q) + t) (Ideal.ofBits .f32 w) * drop (ix2 p q)) e

/-- A `dot_general` whose dimension numbers say rows times columns. -/
theorem host_proj {d : DotDims ⟨2, ![a, K]⟩ ⟨2, ![K, J]⟩ ⟨2, ![a, J]⟩} (H : RowsTimesCols d) (prec : Option ContractPrecision)
    {φ₁ φ₂ : FTy} (x : FVec Ideal ⟨2, ![a, K]⟩ φ₁) (w : FVec Ideal ⟨2, ![K, J]⟩ φ₂) :
    Host.dotGeneral (F := Ideal) d prec x w = projArr x w := by
  funext i
  obtain ⟨p, q, rfl⟩ : ∃ (p : Fin a) (q : Fin J), i = ix2 p q := ⟨i 0, i 1, eq_ix2 i⟩
  exact congrFun (rowOf_dotGeneral H prec x w p) q

/-- A `dot_general` plus a bias vector given a unit leading axis and broadcast down the rows. -/
theorem host_dense {d : DotDims ⟨2, ![a, K]⟩ ⟨2, ![K, J]⟩ ⟨2, ![a, J]⟩} (H : RowsTimesCols d) (prec : Option ContractPrecision)
    {φ₁ φ₂ : FTy} (x : FVec Ideal ⟨2, ![a, K]⟩ φ₁) (w : FVec Ideal ⟨2, ![K, J]⟩ φ₂) (bias : FVec Ideal ⟨1, ![J]⟩ .f32)
    (h1 : (⟨1, ![J]⟩ : Shape).BroadcastsInDim ⟨2, ![1, J]⟩ ![1]) (h2 : (⟨2, ![1, J]⟩ : Shape).BroadcastsInDim ⟨2, ![a, J]⟩ ![0, 1]) :
    addf (Host.dotGeneral (F := Ideal) d prec x w) (broadcastInDim ⟨2, ![a, J]⟩ ![0, 1] h2 (broadcastInDim ⟨2, ![1, J]⟩ ![1] h1 bias))
      = denseArr x w (fun j => bias (ix1 j)) := by
  funext i
  obtain ⟨p, q, rfl⟩ : ∃ (p : Fin a) (q : Fin J), i = ix2 p q := ⟨i 0, i 1, eq_ix2 i⟩
  exact congrFun (rowOf_dense_host H prec x w bias h1 h2 p) q

/-- The host's softmax: the maximum taken once more with its start value, the sum started from the constant 0. -/
theorem host_softmax (x : FVec Ideal ⟨2, ![a, J]⟩ .f32) (w : BitVec 32)
    (h' : (⟨2, ![a, J]⟩ : Shape).ReducesTo [1] (⟨1, ![a]⟩ : Shape)) (h : (⟨2, ![a, J]⟩ : Shape).Reduces [1] (⟨1, ![a]⟩ : Shape))
    (hu : 0 < (⟨0, ![]⟩ : Shape).numel)
    (hb0 : (⟨0, ![]⟩ : Shape).BroadcastsInDim (⟨1, ![a]⟩ : Shape) ![])
    (h1 : (⟨1, ![a]⟩ : Shape).BroadcastsInDim ⟨2, ![a, 1]⟩ ![0]) (h2 : (⟨2, ![a, 1]⟩ : Shape).BroadcastsInDim ⟨2, ![a, J]⟩ ![0, 1]) :
    Host.divf
        (Host.exp (subf x (broadcastInDim ⟨2, ![a, J]⟩ ![0, 1] h2 (broadcastInDim ⟨2, ![a, 1]⟩ ![0] h1
          (maximumf (broadcastInDim (⟨1, ![a]⟩ : Shape) ![] hb0 (constant (F := Ideal) ⟨0, ![]⟩ .f32 w))
                    (Host.reduce FloatOps.maximumf x (constant (F := Ideal) ⟨0, ![]⟩ .f32 w) h' hu))))))
        (broadcastInDim ⟨2, ![a, J]⟩ ![0, 1] h2 (broadcastInDim ⟨2, ![a, 1]⟩ ![0] h1
          (Host.reduceAdd
            (Host.exp (subf x (broadcastInDim ⟨2, ![a, J]⟩ ![0, 1] h2 (broadcastInDim ⟨2, ![a, 1]⟩ ![0] h1
              (maximumf (broadcastInDim (⟨1, ![a]⟩ : Shape) ![] hb0 (constant (F := Ideal) ⟨0, ![]⟩ .f32 w))
                        (Host.reduce FloatOps.maximumf x (constant (F := Ideal) ⟨0, ![]⟩ .f32 w) h' hu))))))
            (constant (F := Ideal) ⟨0, ![]⟩ .f32 0x00000000#32) h' hu)))
      = softmaxArr (Ideal.ofBits .f32 w) x := by
  funext i
  obtain ⟨p, q, rfl⟩ : ∃ (p : Fin a) (q : Fin J), i = ix2 p q := ⟨i 0, i 1, eq_ix2 i⟩
  exact host_softmax_apply x w h' h hu hb0 h1 h2 p q

end Host

end Cert.DenseStages

end
-- ==== Proof.Region0.lean ====
/-
  The first projection, read off the run as one function of whole arrays.

  The region runs over 100 grid points; point t loads rows 1000·t … 1000·t + 999 of the node features h0 (15 columns:
  the 14 inputs and the stem indicator) and the whole 15 × 64 weight matrix, and stores the product of the two, formed
  into a zero accumulator after a change of float format. At the extended reals the change of format is the identity
  and the accumulator adds nothing, so the block stored is the matching tile of rows of the one product h0 · W1; the
  100 blocks tile the 100000 rows, so the result array ends as h0 · W1, whatever the entries.
-/
import proofs.«100760_j54709293417098_1_alg».proof.Proof.Gen.KernelIdeal.Frame
import proofs.«100760_j54709293417098_1_alg».proof.Proof.LibDenseStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowLayers Cert.DenseStages

variable (V : (c : Dev nD) → (b : Ref sig .tc) → Buf (Elt Ideal) ((c : Thread nD τ).loc b))

theorem hz : (![0, 0] : Fin 2 → Nat) = fun _ => 0 := funext fun a => by fin_cases a <;> rfl

/-- The printed dimension numbers of the block product say rows times columns. -/
theorem rtc : RowsTimesCols (a := 1000) (K := 15) (b := 64) dot_S1000x15_S15x64_S1000x64_1_0_0_1_n_n where
  rank := rfl
  size := rfl
  lhs0 := fun j q => by
    unfold DotDims.lhsIdx
    rw [dif_neg (show ¬(0 : Fin 2) ∈ dot_S1000x15_S15x64_S1000x64_1_0_0_1_n_n.lhsBatch by decide), dif_pos (show (0 : Fin 2) ∈ dot_S1000x15_S15x64_S1000x64_1_0_0_1_n_n.lhsNonContracting by decide)]
    rfl
  lhs1 := fun j q => dot_S1000x15_S15x64_S1000x64_1_0_0_1_n_n.lhsIdx_val_of_single rfl j q
  rhs0 := fun j q => dot_S1000x15_S15x64_S1000x64_1_0_0_1_n_n.rhsIdx_val_of_single rfl j q
  rhs1 := fun j q => by
    unfold DotDims.rhsIdx
    rw [dif_neg (show ¬(1 : Fin 2) ∈ dot_S1000x15_S15x64_S1000x64_1_0_0_1_n_n.rhsBatch by decide), dif_pos (show (1 : Fin 2) ∈ dot_S1000x15_S15x64_S1000x64_1_0_0_1_n_n.rhsNonContracting by decide)]
    rfl

/-- The body's one stored value is the product of its two loaded blocks. -/
theorem pay_eq (x0 : Vec Ideal S1000x15 .f32) (x1 : Vec Ideal S15x64 .f32) :
    k0_pay1 (F := Ideal) x0 x1 = projArr (a := 1000) (K := 15) (J := 64) x0 x1 := by
  show matmul dot_S1000x15_S15x64_S1000x64_1_0_0_1_n_n none
      (truncf .bf16 (shapeCast S1000x15 x0 shapeCasts_S1000x15_S1000x15) bitsLt_bf16_f32) (truncf .bf16 x1 bitsLt_bf16_f32)
      (constant (F := Ideal) S1000x64 .f32 0x00000000#32) = _
  rw [shapeCast_self]
  exact device_proj rtc none _ _

/-- The printed index maps, decided over the grid: the row blocks move with the point, the weight block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t
      = ((cfg0.win 2).blk t).view.read (Elt Ideal) (projArr (a := 100000) (K := 15) (J := 64) (V c main_v10) (V c main_arg1)) := by
  show (cfg0.win 2).cut (grid0.coords t) ((dat0 V c).after 2 t) = _
  rw [after0_2]
  unfold out0_2
  rw [View.canon_unit_zero hz]
  simp only [View.ld_unit_zero (S := S1000x15) hz, View.ld_unit_zero (S := S15x64) hz]
  rw [pay_eq]
  obtain ⟨e0, e1, e2, e3, e4, e5⟩ := idx_facts t
  have hw : iblk0 V c 1 t = V c main_arg1 := by
    funext y
    show V c main_arg1 (((cfg0.win 1).blk t).view.emb y) = V c main_arg1 y
    refine congrArg _ (funext fun a => Fin.ext ?_)
    match a with
    | ⟨0, _⟩ => show win0_1.index t (0 : Fin 2) * 15 + 1 * (y 0).val = (y 0).val; omega
    | ⟨1, _⟩ => show win0_1.index t (1 : Fin 2) * 64 + 1 * (y 1).val = (y 1).val; omega
  have hx : IsTile (a₀ := 1000) (a := 100000) (K := 15) (1000 * t.val) (iblk0 V c 0 t) (V c main_v10) := by
    intro y i h0 h1
    show V c main_v10 (((cfg0.win 0).blk t).view.emb y) = V c main_v10 i
    refine congrArg _ (funext fun a => Fin.ext ?_)
    match a with
    | ⟨0, _⟩ => show win0_0.index t (0 : Fin 2) * 1000 + 1 * (y 0).val = (i 0).val; omega
    | ⟨1, _⟩ => show win0_0.index t (1 : Fin 2) * 15 + 1 * (y 1).val = (i 1).val; omega
  rw [hw]
  funext j
  exact (hx.projArr (J := 64) (V c main_arg1)) j (((cfg0.win 2).blk t).view.emb j)
    (by show win0_2.index t (0 : Fin 2) * 1000 + 1 * (j 0).val = 1000 * t.val + (j 0).val; omega)
    (by show win0_2.index t (1 : Fin 2) * 64 + 1 * (j 1).val = (j 1).val; omega)

/-- An index of the result array is in point t's block iff each coordinate is in the block's range. -/
theorem mem_blk (t : Fin cfg0.N) (i : S100000x64.Idx) :
    i ∈ ((cfg0.win 2).blk t).view.set ↔ ∀ a : Fin 2, win0_2.index t a * S1000x64.size a ≤ (i a).val ∧ (i a).val < win0_2.index t a * S1000x64.size a + S1000x64.size a := by
  show i ∈ ((View.whole main_v41).slice (win0_2.rect t)).set ↔ _
  rw [View.set_slice_whole, Rect.mem_set_unit]
  exact Iff.rfl

/-- Row r of the result lies in the block of point r / 1000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 100 := N_0
  let t : Fin cfg0.N := ⟨(i 0).val / 1000, by rw [hN]; omega⟩
  have ht : t.val = (i 0).val / 1000 := rfl
  obtain ⟨e0, e1, e2, e3, e4, e5⟩ := idx_facts t
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 64 ≤ (i 1).val ∧ (i 1).val < win0_2.index t (1 : Fin 2) * 64 + 64; omega

/-- The result array after the region: the product of the region's two operand arrays as it finds them. -/
theorem final (c : Dev nD) :
    (dat0 V c).arrAt 2 cfg0.N = projArr (a := 100000) (K := 15) (J := 64) (V c main_v10) (V c main_arg1) :=
  (dat0 V c).arrAt_eq_of_cover 2 _ (fun t _ => flushed_eq V c t) cover

end Cert.KernelIdeal.Region0

end
-- ==== Proof.Region1.lean ====
/-
  The second projection, fused with the first hidden layer, read off the run as one function of whole arrays.

  Point t of the region loads rows 1000·t … 1000·t + 999 of the aggregated messages and of the dropout scale, the whole
  bias row and the whole 64 × 64 weight matrix; it adds the bias row to every row, takes the maximum with 0, multiplies
  by the scale entry by entry, and stores the product of that hidden block with the weights (formed into a zero
  accumulator after a change of float format, the identity on extended reals). Every row of the stored block depends on
  the same row of the operands only, so the block is the matching tile of rows of
  (max (agg + b) 0 · drop) · W2 on the whole arrays, and the 100 blocks tile the 100000 rows.
-/
import proofs.«100760_j54709293417098_1_alg».proof.Proof.Gen.KernelIdeal.Frame
import proofs.«100760_j54709293417098_1_alg».proof.Proof.LibDenseStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowLayers Cert.DenseStages

variable (V : (c : Dev nD) → (b : Ref sig .tc) → Buf (Elt Ideal) ((c : Thread nD τ).loc b))

theorem hz : (![0, 0] : Fin 2 → Nat) = fun _ => 0 := funext fun a => by fin_cases a <;> rfl

/-- The printed dimension numbers of the block product say rows times columns. -/
theorem rtc : RowsTimesCols (a := 1000) (K := 64) (b := 64) dot_S1000x64_S64x64_S1000x64_1_0_0_1_n_n where
  rank := rfl
  size := rfl
  lhs0 := fun j q => by
    unfold DotDims.lhsIdx
    rw [dif_neg (show ¬(0 : Fin 2) ∈ dot_S1000x64_S64x64_S1000x64_1_0_0_1_n_n.lhsBatch by decide), dif_pos (show (0 : Fin 2) ∈ dot_S1000x64_S64x64_S1000x64_1_0_0_1_n_n.lhsNonContracting by decide)]
    rfl
  lhs1 := fun j q => dot_S1000x64_S64x64_S1000x64_1_0_0_1_n_n.lhsIdx_val_of_single rfl j q
  rhs0 := fun j q => dot_S1000x64_S64x64_S1000x64_1_0_0_1_n_n.rhsIdx_val_of_single rfl j q
  rhs1 := fun j q => by
    unfold DotDims.rhsIdx
    rw [dif_neg (show ¬(1 : Fin 2) ∈ dot_S1000x64_S64x64_S1000x64_1_0_0_1_n_n.rhsBatch by decide), dif_pos (show (1 : Fin 2) ∈ dot_S1000x64_S64x64_S1000x64_1_0_0_1_n_n.rhsNonContracting by decide)]
    rfl

/-- The body's one stored value: the hidden block of its loads times the weights. -/
theorem pay_eq (x0 : Vec Ideal S1000x64 .f32) (x1 : Vec Ideal S1x64 .f32) (x2 : Vec Ideal S1000x64 .f32) (x3 : Vec Ideal S64x64 .f32) :
    k1_pay1 (F := Ideal) x0 x1 x2 x3
      = projArr (a := 1000) (K := 64) (J := 64) (hiddenArr (Ideal.ofBits .f32 0x00000000#32) (rowOf (a := 1) (b := 64) x1 0) x0 x2) x3 := by
  show matmul dot_S1000x64_S64x64_S1000x64_1_0_0_1_n_n none
      (truncf .bf16 (mulf (maximumf (addf (shapeCast S1000x64 x0 shapeCasts_S1000x64_S1000x64)
          (broadcastTo S1000x64 (shapeCast S1x64 x1 shapeCasts_S1x64_S1x64) broadcasts_S1x64_S1000x64))
          (broadcast S1000x64 (Scalar.ofBits (F := Ideal) .f32 0x00000000#32))) x2) bitsLt_bf16_f32)
      (truncf .bf16 x3 bitsLt_bf16_f32) (constant (F := Ideal) S1000x64 .f32 0x00000000#32) = _
  rw [shapeCast_self, shapeCast_self, device_hidden]
  exact device_proj rtc none _ _

/-- The printed index maps, decided over the grid: a row-tiled window's block moves with the point, the others stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t holds rows 1000·t … 1000·t + 999 of its array. -/
theorem tile0 (c : Dev nD) (t : Fin cfg1.N) :
    IsTile (a₀ := 1000) (a := 100000) (K := 64) (1000 * t.val) (iblk1 V c 0 t) (V c main_v54) := by
  obtain ⟨e0_0, e0_1, e1_0, e1_1, e2_0, e2_1, e3_0, e3_1, e4_0, e4_1⟩ := idx_facts t
  intro y i h0 h1
  show V c main_v54 (((cfg1.win 0).blk t).view.emb y) = V c main_v54 i
  refine congrArg _ (funext fun a => Fin.ext ?_)
  match a with
  | ⟨0, _⟩ => show win1_0.index t (0 : Fin 2) * 1000 + 1 * (y 0).val = (i 0).val; omega
  | ⟨1, _⟩ => show win1_0.index t (1 : Fin 2) * 64 + 1 * (y 1).val = (i 1).val; omega

/-- Window 1's block is its whole array at every point. -/
theorem blk1 (c : Dev nD) (t : Fin cfg1.N) : iblk1 V c 1 t = V c main_v55 := by
  obtain ⟨e0_0, e0_1, e1_0, e1_1, e2_0, e2_1, e3_0, e3_1, e4_0, e4_1⟩ := idx_facts t
  funext y
  show V c main_v55 (((cfg1.win 1).blk t).view.emb y) = V c main_v55 y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- Window 2's block at point t holds rows 1000·t … 1000·t + 999 of its array. -/
theorem tile2 (c : Dev nD) (t : Fin cfg1.N) :
    IsTile (a₀ := 1000) (a := 100000) (K := 64) (1000 * t.val) (iblk1 V c 2 t) (V c main_arg9) := by
  obtain ⟨e0_0, e0_1, e1_0, e1_1, e2_0, e2_1, e3_0, e3_1, e4_0, e4_1⟩ := idx_facts t
  intro y i h0 h1
  show V c main_arg9 (((cfg1.win 2).blk t).view.emb y) = V c main_arg9 i
  refine congrArg _ (funext fun a => Fin.ext ?_)
  match a with
  | ⟨0, _⟩ => show win1_2.index t (0 : Fin 2) * 1000 + 1 * (y 0).val = (i 0).val; omega
  | ⟨1, _⟩ => show win1_2.index t (1 : Fin 2) * 64 + 1 * (y 1).val = (i 1).val; omega

/-- Window 3's block is its whole array at every point. -/
theorem blk3 (c : Dev nD) (t : Fin cfg1.N) : iblk1 V c 3 t = V c main_arg3 := by
  obtain ⟨e0_0, e0_1, e1_0, e1_1, e2_0, e2_1, e3_0, e3_1, e4_0, e4_1⟩ := idx_facts t
  funext y
  show V c main_arg3 (((cfg1.win 3).blk t).view.emb y) = V c main_arg3 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- What point t writes back is block t of the whole fused layer. -/
theorem flushed4_eq (c : Dev nD) (t : Fin cfg1.N) :
    (dat1 V c).flushed 4 t = ((cfg1.win 4).blk t).view.read (Elt Ideal) (projArr (a := 100000) (K := 64) (J := 64) (hiddenArr (Ideal.ofBits .f32 0x00000000#32) (rowOf (a := 1) (b := 64) (V c main_v55) 0) (V c main_v54) (V c main_arg9)) (V c main_arg3)) := by
  show (cfg1.win 4).cut (grid1.coords t) ((dat1 V c).after 4 t) = _
  rw [after1_4]
  unfold out1_4
  rw [View.canon_unit_zero hz]
  simp only [View.ld_unit_zero (S := S1000x64) hz, View.ld_unit_zero (S := S1x64) hz, View.ld_unit_zero (S := S64x64) hz]
  rw [pay_eq, blk1 V c t, blk3 V c t]
  obtain ⟨e0_0, e0_1, e1_0, e1_1, e2_0, e2_1, e3_0, e3_1, e4_0, e4_1⟩ := idx_facts t
  funext j
  exact (((tile0 V c t).hiddenArr (Ideal.ofBits .f32 0x00000000#32) (rowOf (a := 1) (b := 64) (V c main_v55) 0) (tile2 V c t)).projArr (J := 64) (V c main_arg3))
    j (((cfg1.win 4).blk t).view.emb j)
    (by show win1_4.index t (0 : Fin 2) * 1000 + 1 * (j 0).val = 1000 * t.val + (j 0).val; omega)
    (by show win1_4.index t (1 : Fin 2) * 64 + 1 * (j 1).val = (j 1).val; omega)

/-- An index of result array main_v56 is in point t's block iff each coordinate is in the block's range. -/
theorem mem_blk4 (t : Fin cfg1.N) (i : S100000x64.Idx) :
    i ∈ ((cfg1.win 4).blk t).view.set ↔ ∀ a : Fin 2, win1_4.index t a * S1000x64.size a ≤ (i a).val ∧ (i a).val < win1_4.index t a * S1000x64.size a + S1000x64.size a := by
  show i ∈ ((View.whole main_v56).slice (win1_4.rect t)).set ↔ _
  rw [View.set_slice_whole, Rect.mem_set_unit]
  exact Iff.rfl

/-- Row r of main_v56 lies in the block of point r / 1000. -/
theorem cover4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 100 := N_1
  let t : Fin cfg1.N := ⟨(i 0).val / 1000, by rw [hN]; omega⟩
  have ht : t.val = (i 0).val / 1000 := rfl
  obtain ⟨e0_0, e0_1, e1_0, e1_1, e2_0, e2_1, e3_0, e3_1, e4_0, e4_1⟩ := idx_facts t
  refine ⟨t, flush1_4 t, ?_⟩
  rw [mem_blk4]
  intro a
  match a with
  | ⟨0, _⟩ => show win1_4.index t (0 : Fin 2) * 1000 ≤ (i 0).val ∧ (i 0).val < win1_4.index t (0 : Fin 2) * 1000 + 1000; omega
  | ⟨1, _⟩ => show win1_4.index t (1 : Fin 2) * 64 ≤ (i 1).val ∧ (i 1).val < win1_4.index t (1 : Fin 2) * 64 + 64; omega

/-- Result array main_v56 after the region, as one function of the region's operand arrays as it finds them. -/
theorem final4 (c : Dev nD) :
    (dat1 V c).arrAt 4 cfg1.N = projArr (a := 100000) (K := 64) (J := 64) (hiddenArr (Ideal.ofBits .f32 0x00000000#32) (rowOf (a := 1) (b := 64) (V c main_v55) 0) (V c main_v54) (V c main_arg9)) (V c main_arg3) :=
  (dat1 V c).arrAt_eq_of_cover 4 _ (fun t _ => flushed4_eq V c t) cover4

end Cert.KernelIdeal.Region1

end
-- ==== Proof.Region2.lean ====
/-
  The two heads and their softmax, fused with the second hidden layer, read off the run as functions of whole arrays.

  Point t of the region loads rows 1000·t … 1000·t + 999 of the aggregated messages, of the dropout scale and of the two
  noise arrays, and the whole bias rows and weight matrices. From the hidden block max (agg + b) 0 · drop it forms the
  two logit blocks (a product into a zero accumulator plus a bias row, each), stores them, adds the noise to each and
  normalises every row by a softmax: the row's maximum (a lane reduction started from −∞) is subtracted, the
  exponentials are divided by their lane sum. Every row of each of the four stored blocks depends on the same row of the
  operands only, so each block is the matching tile of rows of one function of the whole arrays, and the 100 blocks of
  each output tile its 100000 rows. Nothing is asked of the entries.
-/
import proofs.«100760_j54709293417098_1_alg».proof.Proof.Gen.KernelIdeal.Frame
import proofs.«100760_j54709293417098_1_alg».proof.Proof.LibDenseStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowLayers Cert.DenseStages

variable (V : (c : Dev nD) → (b : Ref sig .tc) → Buf (Elt Ideal) ((c : Thread nD τ).loc b))

theorem hz : (![0, 0] : Fin 2 → Nat) = fun _ => 0 := funext fun a => by fin_cases a <;> rfl

/-- The printed dimension numbers of the block products say rows times columns. -/
theorem rtc : RowsTimesCols (a := 1000) (K := 64) (b := 105) dot_S1000x64_S64x105_S1000x105_1_0_0_1_n_n where
  rank := rfl
  size := rfl
  lhs0 := fun j q => by
    unfold DotDims.lhsIdx
    rw [dif_neg (show ¬(0 : Fin 2) ∈ dot_S1000x64_S64x105_S1000x105_1_0_0_1_n_n.lhsBatch by decide), dif_pos (show (0 : Fin 2) ∈ dot_S1000x64_S64x105_S1000x105_1_0_0_1_n_n.lhsNonContracting by decide)]
    rfl
  lhs1 := fun j q => dot_S1000x64_S64x105_S1000x105_1_0_0_1_n_n.lhsIdx_val_of_single rfl j q
  rhs0 := fun j q => dot_S1000x64_S64x105_S1000x105_1_0_0_1_n_n.rhsIdx_val_of_single rfl j q
  rhs1 := fun j q => by
    unfold DotDims.rhsIdx
    rw [dif_neg (show ¬(1 : Fin 2) ∈ dot_S1000x64_S64x105_S1000x105_1_0_0_1_n_n.rhsBatch by decide), dif_pos (show (1 : Fin 2) ∈ dot_S1000x64_S64x105_S1000x105_1_0_0_1_n_n.rhsNonContracting by decide)]
    rfl

/-- The hidden block: bias row, rectifier, dropout scale (the change of float format is the identity). -/
theorem hid_eq (x0 : Vec Ideal S1000x64 .f32) (x1 : Vec Ideal S1x64 .f32) (x2 : Vec Ideal S1000x64 .f32) :
    k2_pay3 (F := Ideal) x0 x1 x2 = (hiddenArr (Ideal.ofBits .f32 0x00000000#32) (rowOf (a := 1) (b := 64) x1 0) x0 x2) := by
  show truncf .bf16 (mulf (maximumf (addf (shapeCast S1000x64 x0 shapeCasts_S1000x64_S1000x64)
          (broadcastTo S1000x64 (shapeCast S1x64 x1 shapeCasts_S1x64_S1x64) broadcasts_S1x64_S1000x64))
          (broadcast S1000x64 (Scalar.ofBits (F := Ideal) .f32 0x00000000#32))) x2) bitsLt_bf16_f32 = _
  rw [shapeCast_self, shapeCast_self, device_hidden]
  rfl

/-- The first head's logit block. -/
theorem pay4_eq (x0 : Vec Ideal S1000x64 .f32) (x1 : Vec Ideal S1x64 .f32) (x2 : Vec Ideal S1000x64 .f32) (x3 : Vec Ideal S64x105 .f32) (x4 : Vec Ideal S1x105 .f32) :
    k2_pay4 (F := Ideal) x0 x1 x2 x3 x4 = denseArr (a := 1000) (K := 64) (J := 105) (hiddenArr (Ideal.ofBits .f32 0x00000000#32) (rowOf (a := 1) (b := 64) x1 0) x0 x2) x3 (rowOf (a := 1) (b := 105) x4 0) := by
  show addf (matmul dot_S1000x64_S64x105_S1000x105_1_0_0_1_n_n none (k2_pay3 (F := Ideal) x0 x1 x2) (truncf .bf16 x3 bitsLt_bf16_f32)
        (constant (F := Ideal) S1000x105 .f32 0x00000000#32))
      (broadcastTo S1000x105 (shapeCast S1x105 x4 shapeCasts_S1x105_S1x105) broadcasts_S1x105_S1000x105) = _
  rw [shapeCast_self, hid_eq]
  exact device_dense rtc none _ _ _ _

/-- The second head's logit block. -/
theorem pay5_eq (x0 : Vec Ideal S1000x64 .f32) (x1 : Vec Ideal S1x64 .f32) (x2 : Vec Ideal S1000x64 .f32) (x5 : Vec Ideal S64x105 .f32) (x6 : Vec Ideal S1x105 .f32) :
    k2_pay5 (F := Ideal) x0 x1 x2 x5 x6 = denseArr (a := 1000) (K := 64) (J := 105) (hiddenArr (Ideal.ofBits .f32 0x00000000#32) (rowOf (a := 1) (b := 64) x1 0) x0 x2) x5 (rowOf (a := 1) (b := 105) x6 0) := by
  show addf (matmul dot_S1000x64_S64x105_S1000x105_1_0_0_1_n_n none (k2_pay3 (F := Ideal) x0 x1 x2) (truncf .bf16 x5 bitsLt_bf16_f32)
        (constant (F := Ideal) S1000x105 .f32 0x00000000#32))
      (broadcastTo S1000x105 (shapeCast S1x105 x6 shapeCasts_S1x105_S1x105) broadcasts_S1x105_S1000x105) = _
  rw [shapeCast_self, hid_eq]
  exact device_dense rtc none _ _ _ _

/-- The first head's selected block: the softmax of its logits plus the noise. -/
theorem pay11_eq (x0 : Vec Ideal S1000x64 .f32) (x1 : Vec Ideal S1x64 .f32) (x2 : Vec Ideal S1000x64 .f32) (x3 : Vec Ideal S64x105 .f32) (x4 : Vec Ideal S1x105 .f32) (x7 : Vec Ideal S1000x105 .f32) :
    k2_pay1 (F := Ideal) (k2_pay6 (F := Ideal) x0 x1 x2 x3 x4 x7)
      = softmaxArr (a := 1000) (J := 105) (Ideal.ofBits .f32 0xFF800000#32) (addArr (denseArr (a := 1000) (K := 64) (J := 105) (hiddenArr (Ideal.ofBits .f32 0x00000000#32) (rowOf (a := 1) (b := 64) x1 0) x0 x2) x3 (rowOf (a := 1) (b := 105) x4 0)) x7) :=
  (device_softmax (a := 1000) (J := 105) (addf (k2_pay4 (F := Ideal) x0 x1 x2 x3 x4) x7) 0xFF800000#32 0x00000000#32
      reduces_S1000x105_S1000 (.inl rfl) rfl rfl shapeCasts_S1000_S1000x1 broadcasts_S1000x1_S1000x105).trans (by rw [pay4_eq]; rfl)

/-- The second head's selected block. -/
theorem pay12_eq (x0 : Vec Ideal S1000x64 .f32) (x1 : Vec Ideal S1x64 .f32) (x2 : Vec Ideal S1000x64 .f32) (x5 : Vec Ideal S64x105 .f32) (x6 : Vec Ideal S1x105 .f32) (x8 : Vec Ideal S1000x105 .f32) :
    k2_pay2 (F := Ideal) (k2_pay5 (F := Ideal) x0 x1 x2 x5 x6) x8
      = softmaxArr (a := 1000) (J := 105) (Ideal.ofBits .f32 0xFF800000#32) (addArr (denseArr (a := 1000) (K := 64) (J := 105) (hiddenArr (Ideal.ofBits .f32 0x00000000#32) (rowOf (a := 1) (b := 64) x1 0) x0 x2) x5 (rowOf (a := 1) (b := 105) x6 0)) x8) :=
  (device_softmax (a := 1000) (J := 105) (addf (k2_pay5 (F := Ideal) x0 x1 x2 x5 x6) x8) 0xFF800000#32 0x00000000#32
      reduces_S1000x105_S1000 (.inl rfl) rfl rfl shapeCasts_S1000_S1000x1 broadcasts_S1000x1_S1000x105).trans (by rw [pay5_eq]; rfl)

/-- The printed index maps, decided over the grid: a row-tiled window's block moves with the point, the others stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0
    ∧ win2_10.index t (0 : Fin 2) = t.val ∧ win2_10.index t (1 : Fin 2) = 0
    ∧ win2_11.index t (0 : Fin 2) = t.val ∧ win2_11.index t (1 : Fin 2) = 0
    ∧ win2_12.index t (0 : Fin 2) = t.val ∧ win2_12.index t (1 : Fin 2) = 0 :=
  (by decide +kernel : ∀ t : Fin grid2.N, _)

/-- Window 0's block at point t holds rows 1000·t … 1000·t + 999 of its array. -/
theorem tile0 (c : Dev nD) (t : Fin cfg2.N) :
    IsTile (a₀ := 1000) (a := 100000) (K := 64) (1000 * t.val) (iblk2 V c 0 t) (V c main_v69) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  intro y i h0 h1
  show V c main_v69 (((cfg2.win 0).blk t).view.emb y) = V c main_v69 i
  refine congrArg _ (funext fun a => Fin.ext ?_)
  match a with
  | ⟨0, _⟩ => show win2_0.index t (0 : Fin 2) * 1000 + 1 * (y 0).val = (i 0).val; omega
  | ⟨1, _⟩ => show win2_0.index t (1 : Fin 2) * 64 + 1 * (y 1).val = (i 1).val; omega

/-- Window 1's block is its whole array at every point. -/
theorem blk1 (c : Dev nD) (t : Fin cfg2.N) : iblk2 V c 1 t = V c main_v70 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext y
  show V c main_v70 (((cfg2.win 1).blk t).view.emb y) = V c main_v70 y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 64 + 1 * (y 1).val = (y 1).val; omega

/-- Window 2's block at point t holds rows 1000·t … 1000·t + 999 of its array. -/
theorem tile2 (c : Dev nD) (t : Fin cfg2.N) :
    IsTile (a₀ := 1000) (a := 100000) (K := 64) (1000 * t.val) (iblk2 V c 2 t) (V c main_arg10) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  intro y i h0 h1
  show V c main_arg10 (((cfg2.win 2).blk t).view.emb y) = V c main_arg10 i
  refine congrArg _ (funext fun a => Fin.ext ?_)
  match a with
  | ⟨0, _⟩ => show win2_2.index t (0 : Fin 2) * 1000 + 1 * (y 0).val = (i 0).val; omega
  | ⟨1, _⟩ => show win2_2.index t (1 : Fin 2) * 64 + 1 * (y 1).val = (i 1).val; omega

/-- Window 3's block is its whole array at every point. -/
theorem blk3 (c : Dev nD) (t : Fin cfg2.N) : iblk2 V c 3 t = V c main_arg5 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext y
  show V c main_arg5 (((cfg2.win 3).blk t).view.emb y) = V c main_arg5 y
  refine congrArg _ (funext fun a => Fin.ext ?_)
  match a with
  | ⟨0, _⟩ => show win2_3.index t (0 : Fin 2) * 64 + 1 * (y 0).val = (y 0).val; omega
  | ⟨1, _⟩ => show win2_3.index t (1 : Fin 2) * 105 + 1 * (y 1).val = (y 1).val; omega

/-- Window 4's block is its whole array at every point. -/
theorem blk4 (c : Dev nD) (t : Fin cfg2.N) : iblk2 V c 4 t = V c main_v71 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext y
  show V c main_v71 (((cfg2.win 4).blk t).view.emb y) = V c main_v71 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 105 + 1 * (y 1).val = (y 1).val; omega

/-- Window 5's block is its whole array at every point. -/
theorem blk5 (c : Dev nD) (t : Fin cfg2.N) : iblk2 V c 5 t = V c main_arg7 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext y
  show V c main_arg7 (((cfg2.win 5).blk t).view.emb y) = V c main_arg7 y
  refine congrArg _ (funext fun a => Fin.ext ?_)
  match a with
  | ⟨0, _⟩ => show win2_5.index t (0 : Fin 2) * 64 + 1 * (y 0).val = (y 0).val; omega
  | ⟨1, _⟩ => show win2_5.index t (1 : Fin 2) * 105 + 1 * (y 1).val = (y 1).val; omega

/-- Window 6's block is its whole array at every point. -/
theorem blk6 (c : Dev nD) (t : Fin cfg2.N) : iblk2 V c 6 t = V c main_v72 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext y
  show V c main_v72 (((cfg2.win 6).blk t).view.emb y) = V c main_v72 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 105 + 1 * (y 1).val = (y 1).val; omega

/-- Window 7's block at point t holds rows 1000·t … 1000·t + 999 of its array. -/
theorem tile7 (c : Dev nD) (t : Fin cfg2.N) :
    IsTile (a₀ := 1000) (a := 100000) (K := 105) (1000 * t.val) (iblk2 V c 7 t) (V c main_arg11) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  intro y i h0 h1
  show V c main_arg11 (((cfg2.win 7).blk t).view.emb y) = V c main_arg11 i
  refine congrArg _ (funext fun a => Fin.ext ?_)
  match a with
  | ⟨0, _⟩ => show win2_7.index t (0 : Fin 2) * 1000 + 1 * (y 0).val = (i 0).val; omega
  | ⟨1, _⟩ => show win2_7.index t (1 : Fin 2) * 105 + 1 * (y 1).val = (i 1).val; omega

/-- Window 8's block at point t holds rows 1000·t … 1000·t + 999 of its array. -/
theorem tile8 (c : Dev nD) (t : Fin cfg2.N) :
    IsTile (a₀ := 1000) (a := 100000) (K := 105) (1000 * t.val) (iblk2 V c 8 t) (V c main_arg12) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  intro y i h0 h1
  show V c main_arg12 (((cfg2.win 8).blk t).view.emb y) = V c main_arg12 i
  refine congrArg _ (funext fun a => Fin.ext ?_)
  match a with
  | ⟨0, _⟩ => show win2_8.index t (0 : Fin 2) * 1000 + 1 * (y 0).val = (i 0).val; omega
  | ⟨1, _⟩ => show win2_8.index t (1 : Fin 2) * 105 + 1 * (y 1).val = (i 1).val; omega

/-- What point t writes back through window 9 is block t of the whole-array function. -/
theorem flushed9_eq (c : Dev nD) (t : Fin cfg2.N) :
    (dat2 V c).flushed 9 t = ((cfg2.win 9).blk t).view.read (Elt Ideal) (denseArr (a := 100000) (K := 64) (J := 105) (hiddenArr (Ideal.ofBits .f32 0x00000000#32) (rowOf (a := 1) (b := 64) (V c main_v70) 0) (V c main_v69) (V c main_arg10)) (V c main_arg5) (rowOf (a := 1) (b := 105) (V c main_v71) 0)) := by
  show (cfg2.win 9).cut (grid2.coords t) ((dat2 V c).after 9 t) = _
  rw [after2_9]
  unfold out2_9
  rw [View.canon_unit_zero hz]
  simp only [View.ld_unit_zero (S := S1000x64) hz, View.ld_unit_zero (S := S1x64) hz, View.ld_unit_zero (S := S64x105) hz, View.ld_unit_zero (S := S1x105) hz, View.ld_unit_zero (S := S1000x105) hz]
  rw [pay4_eq, blk1 V c t, blk3 V c t, blk4 V c t]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext j
  exact (((tile0 V c t).hiddenArr (Ideal.ofBits .f32 0x00000000#32) (rowOf (a := 1) (b := 64) (V c main_v70) 0) (tile2 V c t)).denseArr (J := 105) (V c main_arg5) (rowOf (a := 1) (b := 105) (V c main_v71) 0))
    j (((cfg2.win 9).blk t).view.emb j)
    (by show win2_9.index t (0 : Fin 2) * 1000 + 1 * (j 0).val = 1000 * t.val + (j 0).val; omega)
    (by show win2_9.index t (1 : Fin 2) * 105 + 1 * (j 1).val = (j 1).val; omega)

/-- What point t writes back through window 10 is block t of the whole-array function. -/
theorem flushed10_eq (c : Dev nD) (t : Fin cfg2.N) :
    (dat2 V c).flushed 10 t = ((cfg2.win 10).blk t).view.read (Elt Ideal) (denseArr (a := 100000) (K := 64) (J := 105) (hiddenArr (Ideal.ofBits .f32 0x00000000#32) (rowOf (a := 1) (b := 64) (V c main_v70) 0) (V c main_v69) (V c main_arg10)) (V c main_arg7) (rowOf (a := 1) (b := 105) (V c main_v72) 0)) := by
  show (cfg2.win 10).cut (grid2.coords t) ((dat2 V c).after 10 t) = _
  rw [after2_10]
  unfold out2_10
  rw [View.canon_unit_zero hz]
  simp only [View.ld_unit_zero (S := S1000x64) hz, View.ld_unit_zero (S := S1x64) hz, View.ld_unit_zero (S := S64x105) hz, View.ld_unit_zero (S := S1x105) hz, View.ld_unit_zero (S := S1000x105) hz]
  rw [pay5_eq, blk1 V c t, blk5 V c t, blk6 V c t]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext j
  exact (((tile0 V c t).hiddenArr (Ideal.ofBits .f32 0x00000000#32) (rowOf (a := 1) (b := 64) (V c main_v70) 0) (tile2 V c t)).denseArr (J := 105) (V c main_arg7) (rowOf (a := 1) (b := 105) (V c main_v72) 0))
    j (((cfg2.win 10).blk t).view.emb j)
    (by show win2_10.index t (0 : Fin 2) * 1000 + 1 * (j 0).val = 1000 * t.val + (j 0).val; omega)
    (by show win2_10.index t (1 : Fin 2) * 105 + 1 * (j 1).val = (j 1).val; omega)

/-- What point t writes back through window 11 is block t of the whole-array function. -/
theorem flushed11_eq (c : Dev nD) (t : Fin cfg2.N) :
    (dat2 V c).flushed 11 t = ((cfg2.win 11).blk t).view.read (Elt Ideal) (softmaxArr (a := 100000) (J := 105) (Ideal.ofBits .f32 0xFF800000#32) (addArr (denseArr (a := 100000) (K := 64) (J := 105) (hiddenArr (Ideal.ofBits .f32 0x00000000#32) (rowOf (a := 1) (b := 64) (V c main_v70) 0) (V c main_v69) (V c main_arg10)) (V c main_arg5) (rowOf (a := 1) (b := 105) (V c main_v71) 0)) (V c main_arg11))) := by
  show (cfg2.win 11).cut (grid2.coords t) ((dat2 V c).after 11 t) = _
  rw [after2_11]
  unfold out2_11
  rw [View.canon_unit_zero hz]
  simp only [View.ld_unit_zero (S := S1000x64) hz, View.ld_unit_zero (S := S1x64) hz, View.ld_unit_zero (S := S64x105) hz, View.ld_unit_zero (S := S1x105) hz, View.ld_unit_zero (S := S1000x105) hz]
  rw [pay11_eq, blk1 V c t, blk3 V c t, blk4 V c t]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext j
  exact (((((tile0 V c t).hiddenArr (Ideal.ofBits .f32 0x00000000#32) (rowOf (a := 1) (b := 64) (V c main_v70) 0) (tile2 V c t)).denseArr (J := 105) (V c main_arg5) (rowOf (a := 1) (b := 105) (V c main_v71) 0)).addArr (tile7 V c t)).softmaxArr (Ideal.ofBits .f32 0xFF800000#32))
    j (((cfg2.win 11).blk t).view.emb j)
    (by show win2_11.index t (0 : Fin 2) * 1000 + 1 * (j 0).val = 1000 * t.val + (j 0).val; omega)
    (by show win2_11.index t (1 : Fin 2) * 105 + 1 * (j 1).val = (j 1).val; omega)

/-- What point t writes back through window 12 is block t of the whole-array function. -/
theorem flushed12_eq (c : Dev nD) (t : Fin cfg2.N) :
    (dat2 V c).flushed 12 t = ((cfg2.win 12).blk t).view.read (Elt Ideal) (softmaxArr (a := 100000) (J := 105) (Ideal.ofBits .f32 0xFF800000#32) (addArr (denseArr (a := 100000) (K := 64) (J := 105) (hiddenArr (Ideal.ofBits .f32 0x00000000#32) (rowOf (a := 1) (b := 64) (V c main_v70) 0) (V c main_v69) (V c main_arg10)) (V c main_arg7) (rowOf (a := 1) (b := 105) (V c main_v72) 0)) (V c main_arg12))) := by
  show (cfg2.win 12).cut (grid2.coords t) ((dat2 V c).after 12 t) = _
  rw [after2_12]
  unfold out2_12
  rw [View.canon_unit_zero hz]
  simp only [View.ld_unit_zero (S := S1000x64) hz, View.ld_unit_zero (S := S1x64) hz, View.ld_unit_zero (S := S64x105) hz, View.ld_unit_zero (S := S1x105) hz, View.ld_unit_zero (S := S1000x105) hz]
  rw [pay12_eq, blk1 V c t, blk5 V c t, blk6 V c t]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext j
  exact (((((tile0 V c t).hiddenArr (Ideal.ofBits .f32 0x00000000#32) (rowOf (a := 1) (b := 64) (V c main_v70) 0) (tile2 V c t)).denseArr (J := 105) (V c main_arg7) (rowOf (a := 1) (b := 105) (V c main_v72) 0)).addArr (tile8 V c t)).softmaxArr (Ideal.ofBits .f32 0xFF800000#32))
    j (((cfg2.win 12).blk t).view.emb j)
    (by show win2_12.index t (0 : Fin 2) * 1000 + 1 * (j 0).val = 1000 * t.val + (j 0).val; omega)
    (by show win2_12.index t (1 : Fin 2) * 105 + 1 * (j 1).val = (j 1).val; omega)

/-- An index of result array main_v73_0 is in point t's block iff each coordinate is in the block's range. -/
theorem mem_blk9 (t : Fin cfg2.N) (i : S100000x105.Idx) :
    i ∈ ((cfg2.win 9).blk t).view.set ↔ ∀ a : Fin 2, win2_9.index t a * S1000x105.size a ≤ (i a).val ∧ (i a).val < win2_9.index t a * S1000x105.size a + S1000x105.size a := by
  show i ∈ ((View.whole main_v73_0).slice (win2_9.rect t)).set ↔ _
  rw [View.set_slice_whole, Rect.mem_set_unit]
  exact Iff.rfl

/-- Row r of main_v73_0 lies in the block of point r / 1000. -/
theorem cover9 (i : S100000x105.Idx) : ∃ t : Fin cfg2.N, (cfg2.win 9).flush t = true ∧ i ∈ ((cfg2.win 9).blk t).view.set := by
  have hi0 : (i 0).val < 100000 := (i 0).isLt
  have hi1 : (i 1).val < 105 := (i 1).isLt
  have hN : cfg2.N = 100 := N_2
  let t : Fin cfg2.N := ⟨(i 0).val / 1000, by rw [hN]; omega⟩
  have ht : t.val = (i 0).val / 1000 := rfl
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  refine ⟨t, flush2_9 t, ?_⟩
  rw [mem_blk9]
  intro a
  match a with
  | ⟨0, _⟩ => show win2_9.index t (0 : Fin 2) * 1000 ≤ (i 0).val ∧ (i 0).val < win2_9.index t (0 : Fin 2) * 1000 + 1000; omega
  | ⟨1, _⟩ => show win2_9.index t (1 : Fin 2) * 105 ≤ (i 1).val ∧ (i 1).val < win2_9.index t (1 : Fin 2) * 105 + 105; omega

/-- Result array main_v73_0 after the region, as one function of the region's operand arrays as it finds them. -/
theorem final9 (c : Dev nD) :
    (dat2 V c).arrAt 9 cfg2.N = denseArr (a := 100000) (K := 64) (J := 105) (hiddenArr (Ideal.ofBits .f32 0x00000000#32) (rowOf (a := 1) (b := 64) (V c main_v70) 0) (V c main_v69) (V c main_arg10)) (V c main_arg5) (rowOf (a := 1) (b := 105) (V c main_v71) 0) :=
  (dat2 V c).arrAt_eq_of_cover 9 _ (fun t _ => flushed9_eq V c t) cover9

/-- An index of result array main_v73_1 is in point t's block iff each coordinate is in the block's range. -/
theorem mem_blk10 (t : Fin cfg2.N) (i : S100000x105.Idx) :
    i ∈ ((cfg2.win 10).blk t).view.set ↔ ∀ a : Fin 2, win2_10.index t a * S1000x105.size a ≤ (i a).val ∧ (i a).val < win2_10.index t a * S1000x105.size a + S1000x105.size a := by
  show i ∈ ((View.whole main_v73_1).slice (win2_10.rect t)).set ↔ _
  rw [View.set_slice_whole, Rect.mem_set_unit]
  exact Iff.rfl

/-- Row r of main_v73_1 lies in the block of point r / 1000. -/
theorem cover10 (i : S100000x105.Idx) : ∃ t : Fin cfg2.N, (cfg2.win 10).flush t = true ∧ i ∈ ((cfg2.win 10).blk t).view.set := by
  have hi0 : (i 0).val < 100000 := (i 0).isLt
  have hi1 : (i 1).val < 105 := (i 1).isLt
  have hN : cfg2.N = 100 := N_2
  let t : Fin cfg2.N := ⟨(i 0).val / 1000, by rw [hN]; omega⟩
  have ht : t.val = (i 0).val / 1000 := rfl
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  refine ⟨t, flush2_10 t, ?_⟩
  rw [mem_blk10]
  intro a
  match a with
  | ⟨0, _⟩ => show win2_10.index t (0 : Fin 2) * 1000 ≤ (i 0).val ∧ (i 0).val < win2_10.index t (0 : Fin 2) * 1000 + 1000; omega
  | ⟨1, _⟩ => show win2_10.index t (1 : Fin 2) * 105 ≤ (i 1).val ∧ (i 1).val < win2_10.index t (1 : Fin 2) * 105 + 105; omega

/-- Result array main_v73_1 after the region, as one function of the region's operand arrays as it finds them. -/
theorem final10 (c : Dev nD) :
    (dat2 V c).arrAt 10 cfg2.N = denseArr (a := 100000) (K := 64) (J := 105) (hiddenArr (Ideal.ofBits .f32 0x00000000#32) (rowOf (a := 1) (b := 64) (V c main_v70) 0) (V c main_v69) (V c main_arg10)) (V c main_arg7) (rowOf (a := 1) (b := 105) (V c main_v72) 0) :=
  (dat2 V c).arrAt_eq_of_cover 10 _ (fun t _ => flushed10_eq V c t) cover10

/-- An index of result array main_v73_2 is in point t's block iff each coordinate is in the block's range. -/
theorem mem_blk11 (t : Fin cfg2.N) (i : S100000x105.Idx) :
    i ∈ ((cfg2.win 11).blk t).view.set ↔ ∀ a : Fin 2, win2_11.index t a * S1000x105.size a ≤ (i a).val ∧ (i a).val < win2_11.index t a * S1000x105.size a + S1000x105.size a := by
  show i ∈ ((View.whole main_v73_2).slice (win2_11.rect t)).set ↔ _
  rw [View.set_slice_whole, Rect.mem_set_unit]
  exact Iff.rfl

/-- Row r of main_v73_2 lies in the block of point r / 1000. -/
theorem cover11 (i : S100000x105.Idx) : ∃ t : Fin cfg2.N, (cfg2.win 11).flush t = true ∧ i ∈ ((cfg2.win 11).blk t).view.set := by
  have hi0 : (i 0).val < 100000 := (i 0).isLt
  have hi1 : (i 1).val < 105 := (i 1).isLt
  have hN : cfg2.N = 100 := N_2
  let t : Fin cfg2.N := ⟨(i 0).val / 1000, by rw [hN]; omega⟩
  have ht : t.val = (i 0).val / 1000 := rfl
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  refine ⟨t, flush2_11 t, ?_⟩
  rw [mem_blk11]
  intro a
  match a with
  | ⟨0, _⟩ => show win2_11.index t (0 : Fin 2) * 1000 ≤ (i 0).val ∧ (i 0).val < win2_11.index t (0 : Fin 2) * 1000 + 1000; omega
  | ⟨1, _⟩ => show win2_11.index t (1 : Fin 2) * 105 ≤ (i 1).val ∧ (i 1).val < win2_11.index t (1 : Fin 2) * 105 + 105; omega

/-- Result array main_v73_2 after the region, as one function of the region's operand arrays as it finds them. -/
theorem final11 (c : Dev nD) :
    (dat2 V c).arrAt 11 cfg2.N = softmaxArr (a := 100000) (J := 105) (Ideal.ofBits .f32 0xFF800000#32) (addArr (denseArr (a := 100000) (K := 64) (J := 105) (hiddenArr (Ideal.ofBits .f32 0x00000000#32) (rowOf (a := 1) (b := 64) (V c main_v70) 0) (V c main_v69) (V c main_arg10)) (V c main_arg5) (rowOf (a := 1) (b := 105) (V c main_v71) 0)) (V c main_arg11)) :=
  (dat2 V c).arrAt_eq_of_cover 11 _ (fun t _ => flushed11_eq V c t) cover11

/-- An index of result array main_v73_3 is in point t's block iff each coordinate is in the block's range. -/
theorem mem_blk12 (t : Fin cfg2.N) (i : S100000x105.Idx) :
    i ∈ ((cfg2.win 12).blk t).view.set ↔ ∀ a : Fin 2, win2_12.index t a * S1000x105.size a ≤ (i a).val ∧ (i a).val < win2_12.index t a * S1000x105.size a + S1000x105.size a := by
  show i ∈ ((View.whole main_v73_3).slice (win2_12.rect t)).set ↔ _
  rw [View.set_slice_whole, Rect.mem_set_unit]
  exact Iff.rfl

/-- Row r of main_v73_3 lies in the block of point r / 1000. -/
theorem cover12 (i : S100000x105.Idx) : ∃ t : Fin cfg2.N, (cfg2.win 12).flush t = true ∧ i ∈ ((cfg2.win 12).blk t).view.set := by
  have hi0 : (i 0).val < 100000 := (i 0).isLt
  have hi1 : (i 1).val < 105 := (i 1).isLt
  have hN : cfg2.N = 100 := N_2
  let t : Fin cfg2.N := ⟨(i 0).val / 1000, by rw [hN]; omega⟩
  have ht : t.val = (i 0).val / 1000 := rfl
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  refine ⟨t, flush2_12 t, ?_⟩
  rw [mem_blk12]
  intro a
  match a with
  | ⟨0, _⟩ => show win2_12.index t (0 : Fin 2) * 1000 ≤ (i 0).val ∧ (i 0).val < win2_12.index t (0 : Fin 2) * 1000 + 1000; omega
  | ⟨1, _⟩ => show win2_12.index t (1 : Fin 2) * 105 ≤ (i 1).val ∧ (i 1).val < win2_12.index t (1 : Fin 2) * 105 + 105; omega

/-- Result array main_v73_3 after the region, as one function of the region's operand arrays as it finds them. -/
theorem final12 (c : Dev nD) :
    (dat2 V c).arrAt 12 cfg2.N = softmaxArr (a := 100000) (J := 105) (Ideal.ofBits .f32 0xFF800000#32) (addArr (denseArr (a := 100000) (K := 64) (J := 105) (hiddenArr (Ideal.ofBits .f32 0x00000000#32) (rowOf (a := 1) (b := 64) (V c main_v70) 0) (V c main_v69) (V c main_arg10)) (V c main_arg7) (rowOf (a := 1) (b := 105) (V c main_v72) 0)) (V c main_arg12)) :=
  (dat2 V c).arrAt_eq_of_cover 12 _ (fun t _ => flushed12_eq V c t) cover12

end Cert.KernelIdeal.Region2

end
-- ==== Proof.Stages.lean ====
/-
  The network as a composition of whole-array functions over the extended reals.

  One aggregation step of the graph layer (`aggregate`): every edge e reads row src e of a node table (the node numbers
  read signed, a negative one counted from the end), scales it by the edge's coefficient, and the scaled rows are summed
  at row dst e of an all-zero table. With the node features h0, the edge lists src / dst and the coefficients taken as
  given, the two layers and the two heads are then compositions of `aggregate` with the dense stages: the hidden layer
  after two rounds (`hidden2`), a head's logits (`logits`), and the softmax of logits plus noise (`selected`).
  Both programs are read as these functions of the same arrays.
-/
import proofs.«100760_j54709293417098_1_alg».proof.KernelIdeal
import proofs.«100760_j54709293417098_1_alg».proof.Proof.Gen.KernelIdeal
import proofs.«100760_j54709293417098_1_alg».proof.Proof.LibDenseStages
import Idealize.ShloMosaic.PureOps.Ideal

noncomputable section

namespace Cert.Stages

open Cert.KernelIdeal Cert.KernelIdeal.Gen Idealize.ShloMosaic Idealize.ShloMosaic.ValueIdx Cert.RowLayers Cert.DenseStages

/-- One aggregation step: gather the source rows, scale each by its edge's coefficient, sum at the target rows. -/
def aggregate (xw : FVec Ideal S100000x64 .f32) (src dst : IVec S1700000 32) (nrm : FVec Ideal S1700000 .f32) :
    FVec Ideal S100000x64 .f32 :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf (Host.gather gather_S100000x64_S1700000x1_S1700000x64_1_0_n_n_0_1_164 xw
            (broadcastInDim S1700000x1 ![0] bcast_S1700000_S1700000x1_0
              (select (cmpi .slt src (broadcastInDim S1700000 ![] bcast_S_S1700000 (constantI S_ 32 0#32)))
                      (addi src (broadcastInDim S1700000 ![] bcast_S_S1700000 (constantI S_ 32 100000#32))) src)))
          (broadcastInDim S1700000x64 ![0, 1] bcast_S1700000x1_S1700000x64_0_1
            (broadcastInDim S1700000x1 ![0] bcast_S1700000_S1700000x1_0 nrm)))

/-- A vector as the function of its position. -/
def vec {n : ℕ} (b : FVec Ideal ⟨1, ![n]⟩ .f32) : Fin n → EReal := fun j => b (ix1 j)

/-- The one row of a vector viewed as a `[1, n]` array is the vector. -/
theorem rowOf_shapeCast_vec {n : ℕ} (b : FVec Ideal ⟨1, ![n]⟩ .f32) (h : (⟨1, ![n]⟩ : Shape).ShapeCasts ⟨2, ![1, n]⟩) :
    rowOf (a := 1) (b := n) (shapeCast ⟨2, ![1, n]⟩ b h) 0 = vec b :=
  funext fun j => shapeCast_a_1a_apply b h 0 j

/-- The hidden layer after two rounds of projection, aggregation, bias, rectifier and dropout scale. -/
def hidden2 (h0 : Arr 100000 15) (src dst : IVec S1700000 32) (nrm : FVec Ideal S1700000 .f32)
    (W1 : Arr 15 64) (b1 : FVec Ideal ⟨1, ![64]⟩ .f32) (W2 : Arr 64 64) (b2 : FVec Ideal ⟨1, ![64]⟩ .f32)
    (drop1 drop2 : Arr 100000 64) : Arr 100000 64 :=
  hiddenArr (Ideal.ofBits .f32 0x00000000#32) (vec b2)
    (aggregate (projArr (hiddenArr (Ideal.ofBits .f32 0x00000000#32) (vec b1) (aggregate (projArr h0 W1) src dst nrm) drop1) W2) src dst nrm) drop2

/-- A head's logits. -/
def logits (hid : Arr 100000 64) (Wh : Arr 64 105) (bh : FVec Ideal ⟨1, ![105]⟩ .f32) : Arr 100000 105 :=
  denseArr hid Wh (vec bh)

/-- A head's selection: the softmax of its logits plus the noise. -/
def selected (lg g : Arr 100000 105) : Arr 100000 105 := softmaxArr (Ideal.ofBits .f32 0xFF800000#32) (addArr lg g)

end Cert.Stages

end
-- ==== Proof.LibConcatPair.lean ====
/-
  A concatenation of two arrays with each operand as a plain argument, and the fold of a line of host operations read
  through it.

  `concatenate t ax [⟨A, a⟩, ⟨B, b⟩] h` takes its operands inside a list of (shape, contents) pairs; rewriting does not
  reach the contents there. `concat2 t ax A B a b h` is the same array with `a` and `b` as arguments of their own, so a
  rewrite of an operand's contents goes through. `after_results_pairs` reads what one buffer holds after a literal line
  of host operations (the library's one-pass reading of such a line) with every two-operand concatenation first put in
  that form, so that the operands' own contents are read as well; `concat2` unfolds back by `rfl`.
-/
import Idealize.ShloMosaic.Lib.StableHlo.Run

namespace Cert.ConcatPair

open Idealize.ShloMosaic

variable {α : Type}

/-- The concatenation of two arrays along axis `ax` of the result shape `t`. -/
def concat2 (t : Shape) (ax : Fin t.rank) (A B : Shape) (a : A.Idx → α) (b : B.Idx → α)
    (h : Shape.Concatenates [A, B] t ax) : t.Idx → α :=
  concatenate t ax [⟨A, a⟩, ⟨B, b⟩] h

theorem concat2_intro (t : Shape) (ax : Fin t.rank) (A B : Shape) (a : A.Idx → α) (b : B.Idx → α)
    (h : Shape.Concatenates [A, B] t ax) :
    concatenate t ax [⟨A, a⟩, ⟨B, b⟩] h = concat2 t ax A B a b h := rfl

end Cert.ConcatPair

namespace Idealize.ShloMosaic.StableHlo

/-- What one buffer holds after a literal line of host operations, two-operand concatenations included. -/
macro "after_results_pairs" : tactic =>
  `(tactic| (simp (disch := decide) only [Cert.ConcatPair.concat2_intro, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KernelChain.lean ====
/-
  The idealized kernel's four results as compositions of whole-array functions of the launch contents.

  The contents of a core's buffers are followed through @main: a stretch of host operations keeps every buffer it
  does not write and computes its results from the buffers it reads (an aggregation step; a bias vector viewed as a
  one-row array); a region replaces its result array by one function of its operand arrays (the three files on the
  regions) and keeps the rest. The node features, the two edge lists and the edge coefficients computed by the first
  stretches are kept as they are found at the first region; everything after them is a composition of the dense
  stages and the aggregation step, applied to those four arrays and to the argument arrays as launched.
-/
import proofs.«100760_j54709293417098_1_alg».proof.Proof.Gen.KernelIdeal.Frame
import proofs.«100760_j54709293417098_1_alg».proof.Proof.Region0
import proofs.«100760_j54709293417098_1_alg».proof.Proof.Region1
import proofs.«100760_j54709293417098_1_alg».proof.Proof.Region2
import proofs.«100760_j54709293417098_1_alg».proof.Proof.Stages
import proofs.«100760_j54709293417098_1_alg».proof.Proof.LibConcatPair

set_option maxRecDepth 16384

noncomputable section

namespace Cert.KernelIdeal.Chain

open Cert.KernelIdeal Cert.KernelIdeal.Gen Cert.Stages Cert.DenseStages Cert.RowLayers
open Idealize.ShloMosaic Idealize.ShloMosaic.TcCoe Idealize.ShloMosaic.StableHlo Idealize.SL.Sem

/-! ## What each stretch of host operations keeps and computes, from any contents -/

section Stretches
variable (V : Valuation τ sig (Elt Ideal))

theorem keep0_arg1 : after (hostOps0 (F := Ideal)) V (Proc.devRef .tc main_arg1) = V (Proc.devRef .tc main_arg1) := by
  dsimp only [hostOps0]; after_results_simp
theorem keep0_1_arg1 : after (hostOps0_1 (F := Ideal)) V (Proc.devRef .tc main_arg1) = V (Proc.devRef .tc main_arg1) := by
  dsimp only [hostOps0_1]; after_results_simp
theorem keep0_2_arg1 : after (hostOps0_2 (F := Ideal)) V (Proc.devRef .tc main_arg1) = V (Proc.devRef .tc main_arg1) := by
  dsimp only [hostOps0_2]; after_results_simp
theorem keep0_arg2 : after (hostOps0 (F := Ideal)) V (Proc.devRef .tc main_arg2) = V (Proc.devRef .tc main_arg2) := by
  dsimp only [hostOps0]; after_results_simp
theorem keep0_1_arg2 : after (hostOps0_1 (F := Ideal)) V (Proc.devRef .tc main_arg2) = V (Proc.devRef .tc main_arg2) := by
  dsimp only [hostOps0_1]; after_results_simp
theorem keep0_2_arg2 : after (hostOps0_2 (F := Ideal)) V (Proc.devRef .tc main_arg2) = V (Proc.devRef .tc main_arg2) := by
  dsimp only [hostOps0_2]; after_results_simp
theorem keep0_arg3 : after (hostOps0 (F := Ideal)) V (Proc.devRef .tc main_arg3) = V (Proc.devRef .tc main_arg3) := by
  dsimp only [hostOps0]; after_results_simp
theorem keep0_1_arg3 : after (hostOps0_1 (F := Ideal)) V (Proc.devRef .tc main_arg3) = V (Proc.devRef .tc main_arg3) := by
  dsimp only [hostOps0_1]; after_results_simp
theorem keep0_2_arg3 : after (hostOps0_2 (F := Ideal)) V (Proc.devRef .tc main_arg3) = V (Proc.devRef .tc main_arg3) := by
  dsimp only [hostOps0_2]; after_results_simp
theorem keep0_arg4 : after (hostOps0 (F := Ideal)) V (Proc.devRef .tc main_arg4) = V (Proc.devRef .tc main_arg4) := by
  dsimp only [hostOps0]; after_results_simp
theorem keep0_1_arg4 : after (hostOps0_1 (F := Ideal)) V (Proc.devRef .tc main_arg4) = V (Proc.devRef .tc main_arg4) := by
  dsimp only [hostOps0_1]; after_results_simp
theorem keep0_2_arg4 : after (hostOps0_2 (F := Ideal)) V (Proc.devRef .tc main_arg4) = V (Proc.devRef .tc main_arg4) := by
  dsimp only [hostOps0_2]; after_results_simp
theorem keep0_arg5 : after (hostOps0 (F := Ideal)) V (Proc.devRef .tc main_arg5) = V (Proc.devRef .tc main_arg5) := by
  dsimp only [hostOps0]; after_results_simp
theorem keep0_1_arg5 : after (hostOps0_1 (F := Ideal)) V (Proc.devRef .tc main_arg5) = V (Proc.devRef .tc main_arg5) := by
  dsimp only [hostOps0_1]; after_results_simp
theorem keep0_2_arg5 : after (hostOps0_2 (F := Ideal)) V (Proc.devRef .tc main_arg5) = V (Proc.devRef .tc main_arg5) := by
  dsimp only [hostOps0_2]; after_results_simp
theorem keep0_arg6 : after (hostOps0 (F := Ideal)) V (Proc.devRef .tc main_arg6) = V (Proc.devRef .tc main_arg6) := by
  dsimp only [hostOps0]; after_results_simp
theorem keep0_1_arg6 : after (hostOps0_1 (F := Ideal)) V (Proc.devRef .tc main_arg6) = V (Proc.devRef .tc main_arg6) := by
  dsimp only [hostOps0_1]; after_results_simp
theorem keep0_2_arg6 : after (hostOps0_2 (F := Ideal)) V (Proc.devRef .tc main_arg6) = V (Proc.devRef .tc main_arg6) := by
  dsimp only [hostOps0_2]; after_results_simp
theorem keep0_arg7 : after (hostOps0 (F := Ideal)) V (Proc.devRef .tc main_arg7) = V (Proc.devRef .tc main_arg7) := by
  dsimp only [hostOps0]; after_results_simp
theorem keep0_1_arg7 : after (hostOps0_1 (F := Ideal)) V (Proc.devRef .tc main_arg7) = V (Proc.devRef .tc main_arg7) := by
  dsimp only [hostOps0_1]; after_results_simp
theorem keep0_2_arg7 : after (hostOps0_2 (F := Ideal)) V (Proc.devRef .tc main_arg7) = V (Proc.devRef .tc main_arg7) := by
  dsimp only [hostOps0_2]; after_results_simp
theorem keep0_arg8 : after (hostOps0 (F := Ideal)) V (Proc.devRef .tc main_arg8) = V (Proc.devRef .tc main_arg8) := by
  dsimp only [hostOps0]; after_results_simp
theorem keep0_1_arg8 : after (hostOps0_1 (F := Ideal)) V (Proc.devRef .tc main_arg8) = V (Proc.devRef .tc main_arg8) := by
  dsimp only [hostOps0_1]; after_results_simp
theorem keep0_2_arg8 : after (hostOps0_2 (F := Ideal)) V (Proc.devRef .tc main_arg8) = V (Proc.devRef .tc main_arg8) := by
  dsimp only [hostOps0_2]; after_results_simp
theorem keep0_arg9 : after (hostOps0 (F := Ideal)) V (Proc.devRef .tc main_arg9) = V (Proc.devRef .tc main_arg9) := by
  dsimp only [hostOps0]; after_results_simp
theorem keep0_1_arg9 : after (hostOps0_1 (F := Ideal)) V (Proc.devRef .tc main_arg9) = V (Proc.devRef .tc main_arg9) := by
  dsimp only [hostOps0_1]; after_results_simp
theorem keep0_2_arg9 : after (hostOps0_2 (F := Ideal)) V (Proc.devRef .tc main_arg9) = V (Proc.devRef .tc main_arg9) := by
  dsimp only [hostOps0_2]; after_results_simp
theorem keep0_arg10 : after (hostOps0 (F := Ideal)) V (Proc.devRef .tc main_arg10) = V (Proc.devRef .tc main_arg10) := by
  dsimp only [hostOps0]; after_results_simp
theorem keep0_1_arg10 : after (hostOps0_1 (F := Ideal)) V (Proc.devRef .tc main_arg10) = V (Proc.devRef .tc main_arg10) := by
  dsimp only [hostOps0_1]; after_results_simp
theorem keep0_2_arg10 : after (hostOps0_2 (F := Ideal)) V (Proc.devRef .tc main_arg10) = V (Proc.devRef .tc main_arg10) := by
  dsimp only [hostOps0_2]; after_results_simp
theorem keep0_arg11 : after (hostOps0 (F := Ideal)) V (Proc.devRef .tc main_arg11) = V (Proc.devRef .tc main_arg11) := by
  dsimp only [hostOps0]; after_results_simp
theorem keep0_1_arg11 : after (hostOps0_1 (F := Ideal)) V (Proc.devRef .tc main_arg11) = V (Proc.devRef .tc main_arg11) := by
  dsimp only [hostOps0_1]; after_results_simp
theorem keep0_2_arg11 : after (hostOps0_2 (F := Ideal)) V (Proc.devRef .tc main_arg11) = V (Proc.devRef .tc main_arg11) := by
  dsimp only [hostOps0_2]; after_results_simp
theorem keep0_arg12 : after (hostOps0 (F := Ideal)) V (Proc.devRef .tc main_arg12) = V (Proc.devRef .tc main_arg12) := by
  dsimp only [hostOps0]; after_results_simp
theorem keep0_1_arg12 : after (hostOps0_1 (F := Ideal)) V (Proc.devRef .tc main_arg12) = V (Proc.devRef .tc main_arg12) := by
  dsimp only [hostOps0_1]; after_results_simp
theorem keep0_2_arg12 : after (hostOps0_2 (F := Ideal)) V (Proc.devRef .tc main_arg12) = V (Proc.devRef .tc main_arg12) := by
  dsimp only [hostOps0_2]; after_results_simp
theorem keep1_v14 : after (hostOps1 (F := Ideal)) V (Proc.devRef .tc main_v14) = V (Proc.devRef .tc main_v14) := by
  dsimp only [hostOps1]; after_results_simp
theorem keep1_v17 : after (hostOps1 (F := Ideal)) V (Proc.devRef .tc main_v17) = V (Proc.devRef .tc main_v17) := by
  dsimp only [hostOps1]; after_results_simp
theorem keep1_v40 : after (hostOps1 (F := Ideal)) V (Proc.devRef .tc main_v40) = V (Proc.devRef .tc main_v40) := by
  dsimp only [hostOps1]; after_results_simp
theorem keep1_arg3 : after (hostOps1 (F := Ideal)) V (Proc.devRef .tc main_arg3) = V (Proc.devRef .tc main_arg3) := by
  dsimp only [hostOps1]; after_results_simp
theorem keep1_arg9 : after (hostOps1 (F := Ideal)) V (Proc.devRef .tc main_arg9) = V (Proc.devRef .tc main_arg9) := by
  dsimp only [hostOps1]; after_results_simp
theorem keep1_arg4 : after (hostOps1 (F := Ideal)) V (Proc.devRef .tc main_arg4) = V (Proc.devRef .tc main_arg4) := by
  dsimp only [hostOps1]; after_results_simp
theorem keep1_arg6 : after (hostOps1 (F := Ideal)) V (Proc.devRef .tc main_arg6) = V (Proc.devRef .tc main_arg6) := by
  dsimp only [hostOps1]; after_results_simp
theorem keep1_arg8 : after (hostOps1 (F := Ideal)) V (Proc.devRef .tc main_arg8) = V (Proc.devRef .tc main_arg8) := by
  dsimp only [hostOps1]; after_results_simp
theorem keep1_arg5 : after (hostOps1 (F := Ideal)) V (Proc.devRef .tc main_arg5) = V (Proc.devRef .tc main_arg5) := by
  dsimp only [hostOps1]; after_results_simp
theorem keep1_arg7 : after (hostOps1 (F := Ideal)) V (Proc.devRef .tc main_arg7) = V (Proc.devRef .tc main_arg7) := by
  dsimp only [hostOps1]; after_results_simp
theorem keep1_arg10 : after (hostOps1 (F := Ideal)) V (Proc.devRef .tc main_arg10) = V (Proc.devRef .tc main_arg10) := by
  dsimp only [hostOps1]; after_results_simp
theorem keep1_arg11 : after (hostOps1 (F := Ideal)) V (Proc.devRef .tc main_arg11) = V (Proc.devRef .tc main_arg11) := by
  dsimp only [hostOps1]; after_results_simp
theorem keep1_arg12 : after (hostOps1 (F := Ideal)) V (Proc.devRef .tc main_arg12) = V (Proc.devRef .tc main_arg12) := by
  dsimp only [hostOps1]; after_results_simp
theorem keep2_arg5 : after (hostOps2 (F := Ideal)) V (Proc.devRef .tc main_arg5) = V (Proc.devRef .tc main_arg5) := by
  dsimp only [hostOps2]; after_results_simp
theorem keep2_arg7 : after (hostOps2 (F := Ideal)) V (Proc.devRef .tc main_arg7) = V (Proc.devRef .tc main_arg7) := by
  dsimp only [hostOps2]; after_results_simp
theorem keep2_arg10 : after (hostOps2 (F := Ideal)) V (Proc.devRef .tc main_arg10) = V (Proc.devRef .tc main_arg10) := by
  dsimp only [hostOps2]; after_results_simp
theorem keep2_arg11 : after (hostOps2 (F := Ideal)) V (Proc.devRef .tc main_arg11) = V (Proc.devRef .tc main_arg11) := by
  dsimp only [hostOps2]; after_results_simp
theorem keep2_arg12 : after (hostOps2 (F := Ideal)) V (Proc.devRef .tc main_arg12) = V (Proc.devRef .tc main_arg12) := by
  dsimp only [hostOps2]; after_results_simp

/-- The first aggregation step. -/
theorem agg1 : after (hostOps1 (F := Ideal)) V (Proc.devRef .tc main_v54)
    = aggregate (V (Proc.devRef .tc main_v41)) (V (Proc.devRef .tc main_v14)) (V (Proc.devRef .tc main_v17)) (V (Proc.devRef .tc main_v40)) := by
  dsimp only [hostOps1]; after_results_simp; rfl

/-- The first bias vector viewed as one row. -/
theorem row1 : after (hostOps1 (F := Ideal)) V (Proc.devRef .tc main_v55) = shapeCast S1x64 (V (Proc.devRef .tc main_arg2)) shapeCasts_S64_S1x64 := by
  dsimp only [hostOps1]; after_results_simp; rfl

/-- The second aggregation step. -/
theorem agg2 : after (hostOps2 (F := Ideal)) V (Proc.devRef .tc main_v69)
    = aggregate (V (Proc.devRef .tc main_v56)) (V (Proc.devRef .tc main_v14)) (V (Proc.devRef .tc main_v17)) (V (Proc.devRef .tc main_v40)) := by
  dsimp only [hostOps2]; after_results_simp; rfl

/-- The second bias vector and the two heads' bias vectors, each viewed as one row. -/
theorem row2_70 : after (hostOps2 (F := Ideal)) V (Proc.devRef .tc main_v70) = shapeCast S1x64 (V (Proc.devRef .tc main_arg4)) shapeCasts_S64_S1x64 := by
  dsimp only [hostOps2]; after_results_simp; rfl
theorem row2_71 : after (hostOps2 (F := Ideal)) V (Proc.devRef .tc main_v71) = shapeCast S1x105 (V (Proc.devRef .tc main_arg6)) shapeCasts_S105_S1x105 := by
  dsimp only [hostOps2]; after_results_simp; rfl
theorem row2_72 : after (hostOps2 (F := Ideal)) V (Proc.devRef .tc main_v72) = shapeCast S1x105 (V (Proc.devRef .tc main_arg8)) shapeCasts_S105_S1x105 := by
  dsimp only [hostOps2]; after_results_simp; rfl

end Stretches

/-! ## The buffers followed through @main -/

variable (m : (ℓ : Loc nD τ sig) → Buf (Elt Ideal) ℓ) (ρ : Dev nD → PrngReg) (c : Dev nD)

theorem W3_arg1 : W3 m ρ c (Proc.devRef .tc main_arg1) = m ((c : Thread nD τ).loc main_arg1) :=
  ((keep0_2_arg1 (W2 m ρ c)).trans ((keep0_1_arg1 (W1 m ρ c)).trans (keep0_arg1 (W0 m ρ c)))).trans rfl
theorem W3_arg2 : W3 m ρ c (Proc.devRef .tc main_arg2) = m ((c : Thread nD τ).loc main_arg2) :=
  ((keep0_2_arg2 (W2 m ρ c)).trans ((keep0_1_arg2 (W1 m ρ c)).trans (keep0_arg2 (W0 m ρ c)))).trans rfl
theorem W3_arg3 : W3 m ρ c (Proc.devRef .tc main_arg3) = m ((c : Thread nD τ).loc main_arg3) :=
  ((keep0_2_arg3 (W2 m ρ c)).trans ((keep0_1_arg3 (W1 m ρ c)).trans (keep0_arg3 (W0 m ρ c)))).trans rfl
theorem W3_arg4 : W3 m ρ c (Proc.devRef .tc main_arg4) = m ((c : Thread nD τ).loc main_arg4) :=
  ((keep0_2_arg4 (W2 m ρ c)).trans ((keep0_1_arg4 (W1 m ρ c)).trans (keep0_arg4 (W0 m ρ c)))).trans rfl
theorem W3_arg5 : W3 m ρ c (Proc.devRef .tc main_arg5) = m ((c : Thread nD τ).loc main_arg5) :=
  ((keep0_2_arg5 (W2 m ρ c)).trans ((keep0_1_arg5 (W1 m ρ c)).trans (keep0_arg5 (W0 m ρ c)))).trans rfl
theorem W3_arg6 : W3 m ρ c (Proc.devRef .tc main_arg6) = m ((c : Thread nD τ).loc main_arg6) :=
  ((keep0_2_arg6 (W2 m ρ c)).trans ((keep0_1_arg6 (W1 m ρ c)).trans (keep0_arg6 (W0 m ρ c)))).trans rfl
theorem W3_arg7 : W3 m ρ c (Proc.devRef .tc main_arg7) = m ((c : Thread nD τ).loc main_arg7) :=
  ((keep0_2_arg7 (W2 m ρ c)).trans ((keep0_1_arg7 (W1 m ρ c)).trans (keep0_arg7 (W0 m ρ c)))).trans rfl
theorem W3_arg8 : W3 m ρ c (Proc.devRef .tc main_arg8) = m ((c : Thread nD τ).loc main_arg8) :=
  ((keep0_2_arg8 (W2 m ρ c)).trans ((keep0_1_arg8 (W1 m ρ c)).trans (keep0_arg8 (W0 m ρ c)))).trans rfl
theorem W3_arg9 : W3 m ρ c (Proc.devRef .tc main_arg9) = m ((c : Thread nD τ).loc main_arg9) :=
  ((keep0_2_arg9 (W2 m ρ c)).trans ((keep0_1_arg9 (W1 m ρ c)).trans (keep0_arg9 (W0 m ρ c)))).trans rfl
theorem W3_arg10 : W3 m ρ c (Proc.devRef .tc main_arg10) = m ((c : Thread nD τ).loc main_arg10) :=
  ((keep0_2_arg10 (W2 m ρ c)).trans ((keep0_1_arg10 (W1 m ρ c)).trans (keep0_arg10 (W0 m ρ c)))).trans rfl
theorem W3_arg11 : W3 m ρ c (Proc.devRef .tc main_arg11) = m ((c : Thread nD τ).loc main_arg11) :=
  ((keep0_2_arg11 (W2 m ρ c)).trans ((keep0_1_arg11 (W1 m ρ c)).trans (keep0_arg11 (W0 m ρ c)))).trans rfl
theorem W3_arg12 : W3 m ρ c (Proc.devRef .tc main_arg12) = m ((c : Thread nD τ).loc main_arg12) :=
  ((keep0_2_arg12 (W2 m ρ c)).trans ((keep0_1_arg12 (W1 m ρ c)).trans (keep0_arg12 (W0 m ρ c)))).trans rfl
theorem W4_v14 : W4 m ρ c (Proc.devRef .tc main_v14) = W3 m ρ c (Proc.devRef .tc main_v14) := W4_of_ne m ρ c main_v14 (by decide)
theorem W4_v17 : W4 m ρ c (Proc.devRef .tc main_v17) = W3 m ρ c (Proc.devRef .tc main_v17) := W4_of_ne m ρ c main_v17 (by decide)
theorem W4_v40 : W4 m ρ c (Proc.devRef .tc main_v40) = W3 m ρ c (Proc.devRef .tc main_v40) := W4_of_ne m ρ c main_v40 (by decide)
theorem W4_arg2 : W4 m ρ c (Proc.devRef .tc main_arg2) = W3 m ρ c (Proc.devRef .tc main_arg2) := W4_of_ne m ρ c main_arg2 (by decide)
theorem W4_arg3 : W4 m ρ c (Proc.devRef .tc main_arg3) = W3 m ρ c (Proc.devRef .tc main_arg3) := W4_of_ne m ρ c main_arg3 (by decide)
theorem W4_arg9 : W4 m ρ c (Proc.devRef .tc main_arg9) = W3 m ρ c (Proc.devRef .tc main_arg9) := W4_of_ne m ρ c main_arg9 (by decide)
theorem W4_arg4 : W4 m ρ c (Proc.devRef .tc main_arg4) = W3 m ρ c (Proc.devRef .tc main_arg4) := W4_of_ne m ρ c main_arg4 (by decide)
theorem W4_arg6 : W4 m ρ c (Proc.devRef .tc main_arg6) = W3 m ρ c (Proc.devRef .tc main_arg6) := W4_of_ne m ρ c main_arg6 (by decide)
theorem W4_arg8 : W4 m ρ c (Proc.devRef .tc main_arg8) = W3 m ρ c (Proc.devRef .tc main_arg8) := W4_of_ne m ρ c main_arg8 (by decide)
theorem W4_arg5 : W4 m ρ c (Proc.devRef .tc main_arg5) = W3 m ρ c (Proc.devRef .tc main_arg5) := W4_of_ne m ρ c main_arg5 (by decide)
theorem W4_arg7 : W4 m ρ c (Proc.devRef .tc main_arg7) = W3 m ρ c (Proc.devRef .tc main_arg7) := W4_of_ne m ρ c main_arg7 (by decide)
theorem W4_arg10 : W4 m ρ c (Proc.devRef .tc main_arg10) = W3 m ρ c (Proc.devRef .tc main_arg10) := W4_of_ne m ρ c main_arg10 (by decide)
theorem W4_arg11 : W4 m ρ c (Proc.devRef .tc main_arg11) = W3 m ρ c (Proc.devRef .tc main_arg11) := W4_of_ne m ρ c main_arg11 (by decide)
theorem W4_arg12 : W4 m ρ c (Proc.devRef .tc main_arg12) = W3 m ρ c (Proc.devRef .tc main_arg12) := W4_of_ne m ρ c main_arg12 (by decide)
theorem W5_v14 : W5 m ρ c (Proc.devRef .tc main_v14) = W3 m ρ c (Proc.devRef .tc main_v14) := (keep1_v14 (W4 m ρ c)).trans (W4_v14 m ρ c)
theorem W5_v17 : W5 m ρ c (Proc.devRef .tc main_v17) = W3 m ρ c (Proc.devRef .tc main_v17) := (keep1_v17 (W4 m ρ c)).trans (W4_v17 m ρ c)
theorem W5_v40 : W5 m ρ c (Proc.devRef .tc main_v40) = W3 m ρ c (Proc.devRef .tc main_v40) := (keep1_v40 (W4 m ρ c)).trans (W4_v40 m ρ c)
theorem W5_arg3 : W5 m ρ c (Proc.devRef .tc main_arg3) = W3 m ρ c (Proc.devRef .tc main_arg3) := (keep1_arg3 (W4 m ρ c)).trans (W4_arg3 m ρ c)
theorem W5_arg9 : W5 m ρ c (Proc.devRef .tc main_arg9) = W3 m ρ c (Proc.devRef .tc main_arg9) := (keep1_arg9 (W4 m ρ c)).trans (W4_arg9 m ρ c)
theorem W5_arg4 : W5 m ρ c (Proc.devRef .tc main_arg4) = W3 m ρ c (Proc.devRef .tc main_arg4) := (keep1_arg4 (W4 m ρ c)).trans (W4_arg4 m ρ c)
theorem W5_arg6 : W5 m ρ c (Proc.devRef .tc main_arg6) = W3 m ρ c (Proc.devRef .tc main_arg6) := (keep1_arg6 (W4 m ρ c)).trans (W4_arg6 m ρ c)
theorem W5_arg8 : W5 m ρ c (Proc.devRef .tc main_arg8) = W3 m ρ c (Proc.devRef .tc main_arg8) := (keep1_arg8 (W4 m ρ c)).trans (W4_arg8 m ρ c)
theorem W5_arg5 : W5 m ρ c (Proc.devRef .tc main_arg5) = W3 m ρ c (Proc.devRef .tc main_arg5) := (keep1_arg5 (W4 m ρ c)).trans (W4_arg5 m ρ c)
theorem W5_arg7 : W5 m ρ c (Proc.devRef .tc main_arg7) = W3 m ρ c (Proc.devRef .tc main_arg7) := (keep1_arg7 (W4 m ρ c)).trans (W4_arg7 m ρ c)
theorem W5_arg10 : W5 m ρ c (Proc.devRef .tc main_arg10) = W3 m ρ c (Proc.devRef .tc main_arg10) := (keep1_arg10 (W4 m ρ c)).trans (W4_arg10 m ρ c)
theorem W5_arg11 : W5 m ρ c (Proc.devRef .tc main_arg11) = W3 m ρ c (Proc.devRef .tc main_arg11) := (keep1_arg11 (W4 m ρ c)).trans (W4_arg11 m ρ c)
theorem W5_arg12 : W5 m ρ c (Proc.devRef .tc main_arg12) = W3 m ρ c (Proc.devRef .tc main_arg12) := (keep1_arg12 (W4 m ρ c)).trans (W4_arg12 m ρ c)
theorem W6_v14 : W6 m ρ c (Proc.devRef .tc main_v14) = W3 m ρ c (Proc.devRef .tc main_v14) := (W6_of_ne m ρ c main_v14 (by decide)).trans (W5_v14 m ρ c)
theorem W6_v17 : W6 m ρ c (Proc.devRef .tc main_v17) = W3 m ρ c (Proc.devRef .tc main_v17) := (W6_of_ne m ρ c main_v17 (by decide)).trans (W5_v17 m ρ c)
theorem W6_v40 : W6 m ρ c (Proc.devRef .tc main_v40) = W3 m ρ c (Proc.devRef .tc main_v40) := (W6_of_ne m ρ c main_v40 (by decide)).trans (W5_v40 m ρ c)
theorem W6_arg4 : W6 m ρ c (Proc.devRef .tc main_arg4) = W3 m ρ c (Proc.devRef .tc main_arg4) := (W6_of_ne m ρ c main_arg4 (by decide)).trans (W5_arg4 m ρ c)
theorem W6_arg6 : W6 m ρ c (Proc.devRef .tc main_arg6) = W3 m ρ c (Proc.devRef .tc main_arg6) := (W6_of_ne m ρ c main_arg6 (by decide)).trans (W5_arg6 m ρ c)
theorem W6_arg8 : W6 m ρ c (Proc.devRef .tc main_arg8) = W3 m ρ c (Proc.devRef .tc main_arg8) := (W6_of_ne m ρ c main_arg8 (by decide)).trans (W5_arg8 m ρ c)
theorem W6_arg5 : W6 m ρ c (Proc.devRef .tc main_arg5) = W3 m ρ c (Proc.devRef .tc main_arg5) := (W6_of_ne m ρ c main_arg5 (by decide)).trans (W5_arg5 m ρ c)
theorem W6_arg7 : W6 m ρ c (Proc.devRef .tc main_arg7) = W3 m ρ c (Proc.devRef .tc main_arg7) := (W6_of_ne m ρ c main_arg7 (by decide)).trans (W5_arg7 m ρ c)
theorem W6_arg10 : W6 m ρ c (Proc.devRef .tc main_arg10) = W3 m ρ c (Proc.devRef .tc main_arg10) := (W6_of_ne m ρ c main_arg10 (by decide)).trans (W5_arg10 m ρ c)
theorem W6_arg11 : W6 m ρ c (Proc.devRef .tc main_arg11) = W3 m ρ c (Proc.devRef .tc main_arg11) := (W6_of_ne m ρ c main_arg11 (by decide)).trans (W5_arg11 m ρ c)
theorem W6_arg12 : W6 m ρ c (Proc.devRef .tc main_arg12) = W3 m ρ c (Proc.devRef .tc main_arg12) := (W6_of_ne m ρ c main_arg12 (by decide)).trans (W5_arg12 m ρ c)
theorem W7_arg5 : W7 m ρ c (Proc.devRef .tc main_arg5) = W3 m ρ c (Proc.devRef .tc main_arg5) := (keep2_arg5 (W6 m ρ c)).trans (W6_arg5 m ρ c)
theorem W7_arg7 : W7 m ρ c (Proc.devRef .tc main_arg7) = W3 m ρ c (Proc.devRef .tc main_arg7) := (keep2_arg7 (W6 m ρ c)).trans (W6_arg7 m ρ c)
theorem W7_arg10 : W7 m ρ c (Proc.devRef .tc main_arg10) = W3 m ρ c (Proc.devRef .tc main_arg10) := (keep2_arg10 (W6 m ρ c)).trans (W6_arg10 m ρ c)
theorem W7_arg11 : W7 m ρ c (Proc.devRef .tc main_arg11) = W3 m ρ c (Proc.devRef .tc main_arg11) := (keep2_arg11 (W6 m ρ c)).trans (W6_arg11 m ρ c)
theorem W7_arg12 : W7 m ρ c (Proc.devRef .tc main_arg12) = W3 m ρ c (Proc.devRef .tc main_arg12) := (keep2_arg12 (W6 m ρ c)).trans (W6_arg12 m ρ c)

/-! ## The regions' results and the stretches' results, level by level -/

/-- After region 0: the first projection. -/
theorem X41 : W4 m ρ c (Proc.devRef .tc main_v41) = projArr (a := 100000) (K := 15) (J := 64) (W3 m ρ c (Proc.devRef .tc main_v10)) (W3 m ρ c (Proc.devRef .tc main_arg1)) :=
  (W4_arr m ρ c 2).trans (Region0.final (V3 m ρ) c)

/-- After the second stretch: the first aggregation and the first bias row. -/
theorem X54 : W5 m ρ c (Proc.devRef .tc main_v54) = aggregate (projArr (a := 100000) (K := 15) (J := 64) (W3 m ρ c (Proc.devRef .tc main_v10)) (m ((c : Thread nD τ).loc main_arg1))) (W3 m ρ c (Proc.devRef .tc main_v14)) (W3 m ρ c (Proc.devRef .tc main_v17)) (W3 m ρ c (Proc.devRef .tc main_v40)) := by
  rw [show W5 m ρ c (Proc.devRef .tc main_v54) = _ from agg1 (W4 m ρ c), X41, W4_v14, W4_v17, W4_v40, W3_arg1]
theorem X55 : W5 m ρ c (Proc.devRef .tc main_v55) = shapeCast S1x64 (m ((c : Thread nD τ).loc main_arg2)) shapeCasts_S64_S1x64 := by
  rw [show W5 m ρ c (Proc.devRef .tc main_v55) = _ from row1 (W4 m ρ c), W4_arg2, W3_arg2]

/-- After region 1: the second projection, fused with the first hidden layer. -/
theorem X56 : W6 m ρ c (Proc.devRef .tc main_v56)
    = projArr (a := 100000) (K := 64) (J := 64) (hiddenArr (Ideal.ofBits .f32 0x00000000#32) (rowOf (a := 1) (b := 64) (W5 m ρ c (Proc.devRef .tc main_v55)) 0) (W5 m ρ c (Proc.devRef .tc main_v54)) (W5 m ρ c (Proc.devRef .tc main_arg9))) (W5 m ρ c (Proc.devRef .tc main_arg3)) :=
  (W6_arr m ρ c 4).trans (Region1.final4 (V5 m ρ) c)

/-- After the third stretch: the second aggregation and the three bias rows. -/
theorem X69 : W7 m ρ c (Proc.devRef .tc main_v69) = aggregate (W6 m ρ c (Proc.devRef .tc main_v56)) (W3 m ρ c (Proc.devRef .tc main_v14)) (W3 m ρ c (Proc.devRef .tc main_v17)) (W3 m ρ c (Proc.devRef .tc main_v40)) := by
  rw [show W7 m ρ c (Proc.devRef .tc main_v69) = _ from agg2 (W6 m ρ c), W6_v14, W6_v17, W6_v40]
theorem X70 : W7 m ρ c (Proc.devRef .tc main_v70) = shapeCast S1x64 (m ((c : Thread nD τ).loc main_arg4)) shapeCasts_S64_S1x64 := by
  rw [show W7 m ρ c (Proc.devRef .tc main_v70) = _ from row2_70 (W6 m ρ c), W6_arg4, W3_arg4]
theorem X71 : W7 m ρ c (Proc.devRef .tc main_v71) = shapeCast S1x105 (m ((c : Thread nD τ).loc main_arg6)) shapeCasts_S105_S1x105 := by
  rw [show W7 m ρ c (Proc.devRef .tc main_v71) = _ from row2_71 (W6 m ρ c), W6_arg6, W3_arg6]
theorem X72 : W7 m ρ c (Proc.devRef .tc main_v72) = shapeCast S1x105 (m ((c : Thread nD τ).loc main_arg8)) shapeCasts_S105_S1x105 := by
  rw [show W7 m ρ c (Proc.devRef .tc main_v72) = _ from row2_72 (W6 m ρ c), W6_arg8, W3_arg8]

/-- The hidden layer region 2 forms, as the two-round composition. -/
theorem hid2_eq :
    hiddenArr (Ideal.ofBits .f32 0x00000000#32) (rowOf (a := 1) (b := 64) (W7 m ρ c (Proc.devRef .tc main_v70)) 0) (W7 m ρ c (Proc.devRef .tc main_v69)) (W7 m ρ c (Proc.devRef .tc main_arg10))
      = hidden2 (W3 m ρ c (Proc.devRef .tc main_v10)) (W3 m ρ c (Proc.devRef .tc main_v14)) (W3 m ρ c (Proc.devRef .tc main_v17)) (W3 m ρ c (Proc.devRef .tc main_v40)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) := by
  rw [X70, X69, X56, X55, X54, W5_arg9, W5_arg3, W7_arg10, W3_arg9, W3_arg3, W3_arg10, rowOf_shapeCast_vec, rowOf_shapeCast_vec]
  rfl

/-! ## The four results -/

theorem out0_raw : W8 m ρ c (Proc.devRef .tc main_v73_0) = denseArr (a := 100000) (K := 64) (J := 105) (hiddenArr (Ideal.ofBits .f32 0x00000000#32) (rowOf (a := 1) (b := 64) (W7 m ρ c (Proc.devRef .tc main_v70)) 0) (W7 m ρ c (Proc.devRef .tc main_v69)) (W7 m ρ c (Proc.devRef .tc main_arg10))) (W7 m ρ c (Proc.devRef .tc main_arg5)) (rowOf (a := 1) (b := 105) (W7 m ρ c (Proc.devRef .tc main_v71)) 0) :=
  (W8_arr m ρ c 9).trans (Region2.final9 (V7 m ρ) c)

/-- Result 0 as the composition of the stages. -/
theorem out0_eq : W8 m ρ c (Proc.devRef .tc main_v73_0) = logits (hidden2 (W3 m ρ c (Proc.devRef .tc main_v10)) (W3 m ρ c (Proc.devRef .tc main_v14)) (W3 m ρ c (Proc.devRef .tc main_v17)) (W3 m ρ c (Proc.devRef .tc main_v40)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10))) (m ((c : Thread nD τ).loc main_arg5)) (m ((c : Thread nD τ).loc main_arg6)) := by
  rw [out0_raw, hid2_eq, X71, W7_arg5, W3_arg5, rowOf_shapeCast_vec]
  rfl

theorem out1_raw : W8 m ρ c (Proc.devRef .tc main_v73_1) = denseArr (a := 100000) (K := 64) (J := 105) (hiddenArr (Ideal.ofBits .f32 0x00000000#32) (rowOf (a := 1) (b := 64) (W7 m ρ c (Proc.devRef .tc main_v70)) 0) (W7 m ρ c (Proc.devRef .tc main_v69)) (W7 m ρ c (Proc.devRef .tc main_arg10))) (W7 m ρ c (Proc.devRef .tc main_arg7)) (rowOf (a := 1) (b := 105) (W7 m ρ c (Proc.devRef .tc main_v72)) 0) :=
  (W8_arr m ρ c 10).trans (Region2.final10 (V7 m ρ) c)

/-- Result 1 as the composition of the stages. -/
theorem out1_eq : W8 m ρ c (Proc.devRef .tc main_v73_1) = logits (hidden2 (W3 m ρ c (Proc.devRef .tc main_v10)) (W3 m ρ c (Proc.devRef .tc main_v14)) (W3 m ρ c (Proc.devRef .tc main_v17)) (W3 m ρ c (Proc.devRef .tc main_v40)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10))) (m ((c : Thread nD τ).loc main_arg7)) (m ((c : Thread nD τ).loc main_arg8)) := by
  rw [out1_raw, hid2_eq, X72, W7_arg7, W3_arg7, rowOf_shapeCast_vec]
  rfl

theorem out2_raw : W8 m ρ c (Proc.devRef .tc main_v73_2) = softmaxArr (a := 100000) (J := 105) (Ideal.ofBits .f32 0xFF800000#32) (addArr (denseArr (a := 100000) (K := 64) (J := 105) (hiddenArr (Ideal.ofBits .f32 0x00000000#32) (rowOf (a := 1) (b := 64) (W7 m ρ c (Proc.devRef .tc main_v70)) 0) (W7 m ρ c (Proc.devRef .tc main_v69)) (W7 m ρ c (Proc.devRef .tc main_arg10))) (W7 m ρ c (Proc.devRef .tc main_arg5)) (rowOf (a := 1) (b := 105) (W7 m ρ c (Proc.devRef .tc main_v71)) 0)) (W7 m ρ c (Proc.devRef .tc main_arg11))) :=
  (W8_arr m ρ c 11).trans (Region2.final11 (V7 m ρ) c)

/-- Result 2 as the composition of the stages. -/
theorem out2_eq : W8 m ρ c (Proc.devRef .tc main_v73_2) = selected (logits (hidden2 (W3 m ρ c (Proc.devRef .tc main_v10)) (W3 m ρ c (Proc.devRef .tc main_v14)) (W3 m ρ c (Proc.devRef .tc main_v17)) (W3 m ρ c (Proc.devRef .tc main_v40)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10))) (m ((c : Thread nD τ).loc main_arg5)) (m ((c : Thread nD τ).loc main_arg6))) (m ((c : Thread nD τ).loc main_arg11)) := by
  rw [out2_raw, hid2_eq, X71, W7_arg5, W3_arg5, W7_arg11, W3_arg11, rowOf_shapeCast_vec]
  rfl

theorem out3_raw : W8 m ρ c (Proc.devRef .tc main_v73_3) = softmaxArr (a := 100000) (J := 105) (Ideal.ofBits .f32 0xFF800000#32) (addArr (denseArr (a := 100000) (K := 64) (J := 105) (hiddenArr (Ideal.ofBits .f32 0x00000000#32) (rowOf (a := 1) (b := 64) (W7 m ρ c (Proc.devRef .tc main_v70)) 0) (W7 m ρ c (Proc.devRef .tc main_v69)) (W7 m ρ c (Proc.devRef .tc main_arg10))) (W7 m ρ c (Proc.devRef .tc main_arg7)) (rowOf (a := 1) (b := 105) (W7 m ρ c (Proc.devRef .tc main_v72)) 0)) (W7 m ρ c (Proc.devRef .tc main_arg12))) :=
  (W8_arr m ρ c 12).trans (Region2.final12 (V7 m ρ) c)

/-- Result 3 as the composition of the stages. -/
theorem out3_eq : W8 m ρ c (Proc.devRef .tc main_v73_3) = selected (logits (hidden2 (W3 m ρ c (Proc.devRef .tc main_v10)) (W3 m ρ c (Proc.devRef .tc main_v14)) (W3 m ρ c (Proc.devRef .tc main_v17)) (W3 m ρ c (Proc.devRef .tc main_v40)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10))) (m ((c : Thread nD τ).loc main_arg7)) (m ((c : Thread nD τ).loc main_arg8))) (m ((c : Thread nD τ).loc main_arg12)) := by
  rw [out3_raw, hid2_eq, X72, W7_arg7, W3_arg7, W7_arg12, W3_arg12, rowOf_shapeCast_vec]
  rfl

end Cert.KernelIdeal.Chain

end
-- ==== Proof.RefStages.lean ====
/-
  The reference's spellings of the dense stages.

  As the reference prints them: the bias vector given a unit axis and broadcast, the maximum with a broadcast 0 and the
  product with the dropout scale (the hidden layer); a dot_general plus a broadcast bias vector (a head's logits); jax's
  softmax, the row maximum taken once more with −∞ and the sum started from 0. Each is the corresponding function of
  whole arrays, and two rounds of projection, aggregation and hidden layer compose to the two-round hidden layer.
-/
import proofs.«100760_j54709293417098_1_alg».proof.Proof.RefRunPatched
import proofs.«100760_j54709293417098_1_alg».proof.Proof.Stages
import proofs.«100760_j54709293417098_1_alg».proof.Proof.LibDenseStages

set_option maxRecDepth 16384

noncomputable section

namespace Cert.ReferenceIdeal.Chain

open Cert.ReferenceIdeal Cert.ReferenceIdeal.Gen Cert.ReferenceIdeal.ValueP Cert.Stages Cert.DenseStages Cert.RowLayers
open Idealize.ShloMosaic Idealize.ShloMosaic.TcCoe Idealize.ShloMosaic.StableHlo Idealize.SL.Sem Idealize.ShloMosaic.ValueIdx
/-! ## The printed dimension numbers say rows times columns -/

theorem rtcA : RowsTimesCols (a := 100000) (K := 15) (b := 64) dot_S100000x15_S15x64_S100000x64_1_0_0_1_n_n where
  rank := rfl
  size := rfl
  lhs0 := fun j q => by
    unfold DotDims.lhsIdx
    rw [dif_neg (show ¬(0 : Fin 2) ∈ dot_S100000x15_S15x64_S100000x64_1_0_0_1_n_n.lhsBatch by decide), dif_pos (show (0 : Fin 2) ∈ dot_S100000x15_S15x64_S100000x64_1_0_0_1_n_n.lhsNonContracting by decide)]
    rfl
  lhs1 := fun j q => dot_S100000x15_S15x64_S100000x64_1_0_0_1_n_n.lhsIdx_val_of_single rfl j q
  rhs0 := fun j q => dot_S100000x15_S15x64_S100000x64_1_0_0_1_n_n.rhsIdx_val_of_single rfl j q
  rhs1 := fun j q => by
    unfold DotDims.rhsIdx
    rw [dif_neg (show ¬(1 : Fin 2) ∈ dot_S100000x15_S15x64_S100000x64_1_0_0_1_n_n.rhsBatch by decide), dif_pos (show (1 : Fin 2) ∈ dot_S100000x15_S15x64_S100000x64_1_0_0_1_n_n.rhsNonContracting by decide)]
    rfl
theorem rtcB : RowsTimesCols (a := 100000) (K := 64) (b := 64) dot_S100000x64_S64x64_S100000x64_1_0_0_1_n_n where
  rank := rfl
  size := rfl
  lhs0 := fun j q => by
    unfold DotDims.lhsIdx
    rw [dif_neg (show ¬(0 : Fin 2) ∈ dot_S100000x64_S64x64_S100000x64_1_0_0_1_n_n.lhsBatch by decide), dif_pos (show (0 : Fin 2) ∈ dot_S100000x64_S64x64_S100000x64_1_0_0_1_n_n.lhsNonContracting by decide)]
    rfl
  lhs1 := fun j q => dot_S100000x64_S64x64_S100000x64_1_0_0_1_n_n.lhsIdx_val_of_single rfl j q
  rhs0 := fun j q => dot_S100000x64_S64x64_S100000x64_1_0_0_1_n_n.rhsIdx_val_of_single rfl j q
  rhs1 := fun j q => by
    unfold DotDims.rhsIdx
    rw [dif_neg (show ¬(1 : Fin 2) ∈ dot_S100000x64_S64x64_S100000x64_1_0_0_1_n_n.rhsBatch by decide), dif_pos (show (1 : Fin 2) ∈ dot_S100000x64_S64x64_S100000x64_1_0_0_1_n_n.rhsNonContracting by decide)]
    rfl
theorem rtcC : RowsTimesCols (a := 100000) (K := 64) (b := 105) dot_S100000x64_S64x105_S100000x105_1_0_0_1_n_n where
  rank := rfl
  size := rfl
  lhs0 := fun j q => by
    unfold DotDims.lhsIdx
    rw [dif_neg (show ¬(0 : Fin 2) ∈ dot_S100000x64_S64x105_S100000x105_1_0_0_1_n_n.lhsBatch by decide), dif_pos (show (0 : Fin 2) ∈ dot_S100000x64_S64x105_S100000x105_1_0_0_1_n_n.lhsNonContracting by decide)]
    rfl
  lhs1 := fun j q => dot_S100000x64_S64x105_S100000x105_1_0_0_1_n_n.lhsIdx_val_of_single rfl j q
  rhs0 := fun j q => dot_S100000x64_S64x105_S100000x105_1_0_0_1_n_n.rhsIdx_val_of_single rfl j q
  rhs1 := fun j q => by
    unfold DotDims.rhsIdx
    rw [dif_neg (show ¬(1 : Fin 2) ∈ dot_S100000x64_S64x105_S100000x105_1_0_0_1_n_n.rhsBatch by decide), dif_pos (show (1 : Fin 2) ∈ dot_S100000x64_S64x105_S100000x105_1_0_0_1_n_n.rhsNonContracting by decide)]
    rfl

/-! ## The host's spellings of the stages, as the program prints them -/

/-- Bias, rectifier and dropout scale in the host's operations. -/
def hostHidden (agg : FVec Ideal S100000x64 .f32) (b : FVec Ideal S64 .f32) (drop : FVec Ideal S100000x64 .f32) : FVec Ideal S100000x64 .f32 :=
  mulf (maximumf (addf agg (broadcastInDim S100000x64 ![0, 1] bcast_S1x64_S100000x64_0_1 (broadcastInDim S1x64 ![1] bcast_S64_S1x64_1 b)))
                 (broadcastInDim S100000x64 ![] bcast_S_S100000x64 (constant (F := Ideal) S_ .f32 0x00000000#32))) drop

theorem hostHidden_eq (agg : FVec Ideal S100000x64 .f32) (b : FVec Ideal S64 .f32) (drop : FVec Ideal S100000x64 .f32) :
    hostHidden agg b drop = hiddenArr (a := 100000) (K := 64) (Ideal.ofBits .f32 0x00000000#32) (vec (n := 64) b) agg drop :=
  host_hidden (a := 100000) (K := 64) agg drop b 0x00000000#32 (s := S_) (![] : Fin 0 → Fin 2) bcast_S_S100000x64 bcast_S64_S1x64_1 bcast_S1x64_S100000x64_0_1

/-- A head's logits in the host's operations. -/
def hostDense (hid : FVec Ideal S100000x64 .f32) (w : FVec Ideal S64x105 .f32) (b : FVec Ideal S105 .f32) : FVec Ideal S100000x105 .f32 :=
  addf (Host.dotGeneral (F := Ideal) dot_S100000x64_S64x105_S100000x105_1_0_0_1_n_n none hid w)
       (broadcastInDim S100000x105 ![0, 1] bcast_S1x105_S100000x105_0_1 (broadcastInDim S1x105 ![1] bcast_S105_S1x105_1 b))

theorem hostDense_eq (hid : FVec Ideal S100000x64 .f32) (w : FVec Ideal S64x105 .f32) (b : FVec Ideal S105 .f32) :
    hostDense hid w b = logits hid w b :=
  host_dense (a := 100000) (K := 64) (J := 105) rtcC none hid w b bcast_S105_S1x105_1 bcast_S1x105_S100000x105_0_1

/-- jax's softmax along the rows in the host's operations. -/
def hostSoftmax (x : FVec Ideal S100000x105 .f32) : FVec Ideal S100000x105 .f32 :=
  Host.divf
    (Host.exp (subf x (broadcastInDim S100000x105 ![0, 1] bcast_S100000x1_S100000x105_0_1 (broadcastInDim S100000x1 ![0] bcast_S100000_S100000x1_0
          (maximumf (broadcastInDim S100000 ![] bcast_S_S100000 (constant (F := Ideal) S_ .f32 0xFF800000#32))
                    (Host.reduce FloatOps.maximumf x (constant (F := Ideal) S_ .f32 0xFF800000#32) reducesTo_S100000x105_S100000_d1 h_S_))))))
    (broadcastInDim S100000x105 ![0, 1] bcast_S100000x1_S100000x105_0_1 (broadcastInDim S100000x1 ![0] bcast_S100000_S100000x1_0
      (Host.reduceAdd (Host.exp (subf x (broadcastInDim S100000x105 ![0, 1] bcast_S100000x1_S100000x105_0_1 (broadcastInDim S100000x1 ![0] bcast_S100000_S100000x1_0
          (maximumf (broadcastInDim S100000 ![] bcast_S_S100000 (constant (F := Ideal) S_ .f32 0xFF800000#32))
                    (Host.reduce FloatOps.maximumf x (constant (F := Ideal) S_ .f32 0xFF800000#32) reducesTo_S100000x105_S100000_d1 h_S_))))))
        (constant (F := Ideal) S_ .f32 0x00000000#32) reducesTo_S100000x105_S100000_d1 h_S_)))

theorem hostSoftmax_eq (x : FVec Ideal S100000x105 .f32) : hostSoftmax x = softmaxArr (a := 100000) (J := 105) (Ideal.ofBits .f32 0xFF800000#32) x :=
  host_softmax (a := 100000) (J := 105) x 0xFF800000#32 reducesTo_S100000x105_S100000_d1 (by decide) h_S_
    bcast_S_S100000 bcast_S100000_S100000x1_0 bcast_S100000x1_S100000x105_0_1

/-- The hidden layer after two rounds, in the host's operations. -/
def hostHid2 (h0 : FVec Ideal S100000x15 .f32) (src dst : IVec S1700000 32) (nrm : FVec Ideal S1700000 .f32)
    (w1 : FVec Ideal S15x64 .f32) (b1 : FVec Ideal S64 .f32) (w2 : FVec Ideal S64x64 .f32) (b2 : FVec Ideal S64 .f32)
    (d1 d2 : FVec Ideal S100000x64 .f32) : FVec Ideal S100000x64 .f32 :=
  hostHidden
    (aggregate (Host.dotGeneral (F := Ideal) dot_S100000x64_S64x64_S100000x64_1_0_0_1_n_n none
        (hostHidden (aggregate (Host.dotGeneral (F := Ideal) dot_S100000x15_S15x64_S100000x64_1_0_0_1_n_n none h0 w1) src dst nrm) b1 d1) w2) src dst nrm)
    b2 d2

theorem hostHid2_eq (h0 : FVec Ideal S100000x15 .f32) (src dst : IVec S1700000 32) (nrm : FVec Ideal S1700000 .f32)
    (w1 : FVec Ideal S15x64 .f32) (b1 : FVec Ideal S64 .f32) (w2 : FVec Ideal S64x64 .f32) (b2 : FVec Ideal S64 .f32)
    (d1 d2 : FVec Ideal S100000x64 .f32) :
    hostHid2 h0 src dst nrm w1 b1 w2 b2 d1 d2 = hidden2 h0 src dst nrm w1 b1 w2 b2 d1 d2 := by
  unfold hostHid2 hidden2
  rw [hostHidden_eq, hostHidden_eq, host_proj rtcA, host_proj rtcB]

end Cert.ReferenceIdeal.Chain

end
-- ==== Proof.LibHostFold.lean ====
/-
  The fold of a line of host operations over a concatenated line, and typed references' transports.

  `StableHlo.after ops V` is what a core's buffers hold once the operations `ops` have run in order from contents `V`.
  Running two lines one after the other is running the second from what the first leaves: the fold over `l₁ ++ l₂` is
  the fold over `l₂` of the fold over `l₁`. This lets a long straight-line program be read one stretch at a time, each
  stretch from a valuation that is only a variable, so that no stretch's term is ever nested inside another's.
  An operation of an inlined call reads and writes its buffers through a typed reference, transporting contents along
  the equation "the buffer's type is the value's"; writing a value and reading it back through the same typed reference
  is the identity, whatever the equation's proof.
-/
import Idealize.ShloMosaic.Lib.StableHlo.Run

namespace Cert.HostFold

open Idealize.ShloMosaic Idealize.ShloMosaic.StableHlo

variable {τ : Topo} {sig : RefSig} {Val : EltTy → Type}

/-- The fold over a concatenation is the folds composed. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's buffer and back are the contents. -/
theorem ofBuf_toBuf {T : BufTy} (x : TRef sig T) (v : T.Contents Val) : x.ofBuf (x.toBuf v) = v := by
  obtain ⟨r, h, h2, h3⟩ := x
  subst h
  rfl

end Cert.HostFold
-- ==== Proof.RefTailA.lean ====
/-
  The reference's operations after the edge coefficients, read from any contents of the buffers at that point: the two
  heads' logits.

  Operation for operation the line is: a dot_general (the first projection), the gather / scale / scatter-add lines (the
  aggregation step), the bias, rectifier and dropout lines and a dot_general (the second projection of the hidden
  layer), the aggregation lines again, the bias, rectifier and dropout lines, and per head a dot_general plus a broadcast
  bias vector. The rectifier is an inlined call, whose operations read and write their buffers through typed
  references: at a literal buffer of the value's own type that transport is the identity.
-/
import proofs.«100760_j54709293417098_1_alg».proof.Proof.RefStages
import proofs.«100760_j54709293417098_1_alg».proof.Proof.LibHostFold

set_option maxRecDepth 16384

noncomputable section

namespace Cert.ReferenceIdeal.Chain

open Cert.ReferenceIdeal Cert.ReferenceIdeal.Gen Cert.ReferenceIdeal.ValueP Cert.Stages Cert.DenseStages Cert.RowLayers
open Idealize.ShloMosaic Idealize.ShloMosaic.TcCoe Idealize.ShloMosaic.StableHlo Idealize.SL.Sem Idealize.ShloMosaic.ValueIdx

/-- A value carried to a literal buffer of its own type, or read back from it, is the value. -/
theorem toBuf_v58 (v : (⟨S100000x64, .f32⟩ : BufTy).Contents (Elt Ideal)) :
    (TRef.of (T := ⟨S100000x64, .f32⟩) main_v58).toBuf v = v := rfl
theorem ofBuf_v57 (v : (⟨S100000x64, .f32⟩ : BufTy).Contents (Elt Ideal)) :
    (TRef.of (T := ⟨S100000x64, .f32⟩) main_v57).ofBuf v = v := rfl
theorem toBuf_v77 (v : (⟨S100000x64, .f32⟩ : BufTy).Contents (Elt Ideal)) :
    (TRef.of (T := ⟨S100000x64, .f32⟩) main_v77).toBuf v = v := rfl
theorem ofBuf_v76 (v : (⟨S100000x64, .f32⟩ : BufTy).Contents (Elt Ideal)) :
    (TRef.of (T := ⟨S100000x64, .f32⟩) main_v76).ofBuf v = v := rfl

section Tail
variable (X : Valuation τ sig (Elt Ideal))

set_option maxHeartbeats 1000000 in
theorem tail_out0 : after ((ops (F := Ideal)).drop 55) X (Proc.devRef .tc main_v82) = hostDense (hostHid2 (X (Proc.devRef .tc main_v10)) (X (Proc.devRef .tc main_v14)) (X (Proc.devRef .tc main_v17)) (X (Proc.devRef .tc main_v40)) (X (Proc.devRef .tc main_arg1)) (X (Proc.devRef .tc main_arg2)) (X (Proc.devRef .tc main_arg3)) (X (Proc.devRef .tc main_arg4)) (X (Proc.devRef .tc main_arg9)) (X (Proc.devRef .tc main_arg10))) (X (Proc.devRef .tc main_arg5)) (X (Proc.devRef .tc main_arg6)) := by
  simp only [List.drop_succ_cons, List.drop_zero]
  after_results_simp
  simp only [Cert.HostFold.ofBuf_toBuf, toBuf_v58, ofBuf_v57, toBuf_v77, ofBuf_v76]
  rfl

set_option maxHeartbeats 1000000 in
theorem tail_out1 : after ((ops (F := Ideal)).drop 55) X (Proc.devRef .tc main_v86) = hostDense (hostHid2 (X (Proc.devRef .tc main_v10)) (X (Proc.devRef .tc main_v14)) (X (Proc.devRef .tc main_v17)) (X (Proc.devRef .tc main_v40)) (X (Proc.devRef .tc main_arg1)) (X (Proc.devRef .tc main_arg2)) (X (Proc.devRef .tc main_arg3)) (X (Proc.devRef .tc main_arg4)) (X (Proc.devRef .tc main_arg9)) (X (Proc.devRef .tc main_arg10))) (X (Proc.devRef .tc main_arg7)) (X (Proc.devRef .tc main_arg8)) := by
  simp only [List.drop_succ_cons, List.drop_zero]
  after_results_simp
  simp only [Cert.HostFold.ofBuf_toBuf, toBuf_v58, ofBuf_v57, toBuf_v77, ofBuf_v76]
  rfl

/-- The two heads' logits as the compositions of the stages. -/
theorem spec_out0 : after ((ops (F := Ideal)).drop 55) X (Proc.devRef .tc main_v82) = logits (hidden2 (X (Proc.devRef .tc main_v10)) (X (Proc.devRef .tc main_v14)) (X (Proc.devRef .tc main_v17)) (X (Proc.devRef .tc main_v40)) (X (Proc.devRef .tc main_arg1)) (X (Proc.devRef .tc main_arg2)) (X (Proc.devRef .tc main_arg3)) (X (Proc.devRef .tc main_arg4)) (X (Proc.devRef .tc main_arg9)) (X (Proc.devRef .tc main_arg10))) (X (Proc.devRef .tc main_arg5)) (X (Proc.devRef .tc main_arg6)) := by
  rw [tail_out0, hostDense_eq, hostHid2_eq]
theorem spec_out1 : after ((ops (F := Ideal)).drop 55) X (Proc.devRef .tc main_v86) = logits (hidden2 (X (Proc.devRef .tc main_v10)) (X (Proc.devRef .tc main_v14)) (X (Proc.devRef .tc main_v17)) (X (Proc.devRef .tc main_v40)) (X (Proc.devRef .tc main_arg1)) (X (Proc.devRef .tc main_arg2)) (X (Proc.devRef .tc main_arg3)) (X (Proc.devRef .tc main_arg4)) (X (Proc.devRef .tc main_arg9)) (X (Proc.devRef .tc main_arg10))) (X (Proc.devRef .tc main_arg7)) (X (Proc.devRef .tc main_arg8)) := by
  rw [tail_out1, hostDense_eq, hostHid2_eq]

end Tail

end Cert.ReferenceIdeal.Chain

end
-- ==== Proof.RefTailB.lean ====
/-
  The reference's operations after the edge coefficients, read from any contents of the buffers at that point: the two
  heads' selections, jax's softmax of the logits plus the noise.
-/
import proofs.«100760_j54709293417098_1_alg».proof.Proof.RefTailA

set_option maxRecDepth 16384

noncomputable section

namespace Cert.ReferenceIdeal.Chain

open Cert.ReferenceIdeal Cert.ReferenceIdeal.Gen Cert.ReferenceIdeal.ValueP Cert.Stages Cert.DenseStages Cert.RowLayers
open Idealize.ShloMosaic Idealize.ShloMosaic.TcCoe Idealize.ShloMosaic.StableHlo Idealize.SL.Sem Idealize.ShloMosaic.ValueIdx

section Tail
variable (X : Valuation τ sig (Elt Ideal))

set_option maxHeartbeats 2000000 in
theorem tail_out2 : after ((ops (F := Ideal)).drop 55) X (Proc.devRef .tc main_v98) = hostSoftmax (addf (hostDense (hostHid2 (X (Proc.devRef .tc main_v10)) (X (Proc.devRef .tc main_v14)) (X (Proc.devRef .tc main_v17)) (X (Proc.devRef .tc main_v40)) (X (Proc.devRef .tc main_arg1)) (X (Proc.devRef .tc main_arg2)) (X (Proc.devRef .tc main_arg3)) (X (Proc.devRef .tc main_arg4)) (X (Proc.devRef .tc main_arg9)) (X (Proc.devRef .tc main_arg10))) (X (Proc.devRef .tc main_arg5)) (X (Proc.devRef .tc main_arg6))) (X (Proc.devRef .tc main_arg11))) := by
  simp only [List.drop_succ_cons, List.drop_zero]
  after_results_simp
  simp only [Cert.HostFold.ofBuf_toBuf, toBuf_v58, ofBuf_v57, toBuf_v77, ofBuf_v76]
  rfl

set_option maxHeartbeats 2000000 in
theorem tail_out3 : after ((ops (F := Ideal)).drop 55) X (Proc.devRef .tc main_v110) = hostSoftmax (addf (hostDense (hostHid2 (X (Proc.devRef .tc main_v10)) (X (Proc.devRef .tc main_v14)) (X (Proc.devRef .tc main_v17)) (X (Proc.devRef .tc main_v40)) (X (Proc.devRef .tc main_arg1)) (X (Proc.devRef .tc main_arg2)) (X (Proc.devRef .tc main_arg3)) (X (Proc.devRef .tc main_arg4)) (X (Proc.devRef .tc main_arg9)) (X (Proc.devRef .tc main_arg10))) (X (Proc.devRef .tc main_arg7)) (X (Proc.devRef .tc main_arg8))) (X (Proc.devRef .tc main_arg12))) := by
  simp only [List.drop_succ_cons, List.drop_zero]
  after_results_simp
  simp only [Cert.HostFold.ofBuf_toBuf, toBuf_v58, ofBuf_v57, toBuf_v77, ofBuf_v76]
  rfl

/-- The two heads' selections as the compositions of the stages. -/
theorem spec_out2 : after ((ops (F := Ideal)).drop 55) X (Proc.devRef .tc main_v98)
    = selected (logits (hidden2 (X (Proc.devRef .tc main_v10)) (X (Proc.devRef .tc main_v14)) (X (Proc.devRef .tc main_v17)) (X (Proc.devRef .tc main_v40)) (X (Proc.devRef .tc main_arg1)) (X (Proc.devRef .tc main_arg2)) (X (Proc.devRef .tc main_arg3)) (X (Proc.devRef .tc main_arg4)) (X (Proc.devRef .tc main_arg9)) (X (Proc.devRef .tc main_arg10))) (X (Proc.devRef .tc main_arg5)) (X (Proc.devRef .tc main_arg6))) (X (Proc.devRef .tc main_arg11)) := by
  rw [tail_out2, hostSoftmax_eq, hostDense_eq, hostHid2_eq]
  rfl
theorem spec_out3 : after ((ops (F := Ideal)).drop 55) X (Proc.devRef .tc main_v110)
    = selected (logits (hidden2 (X (Proc.devRef .tc main_v10)) (X (Proc.devRef .tc main_v14)) (X (Proc.devRef .tc main_v17)) (X (Proc.devRef .tc main_v40)) (X (Proc.devRef .tc main_arg1)) (X (Proc.devRef .tc main_arg2)) (X (Proc.devRef .tc main_arg3)) (X (Proc.devRef .tc main_arg4)) (X (Proc.devRef .tc main_arg9)) (X (Proc.devRef .tc main_arg10))) (X (Proc.devRef .tc main_arg7)) (X (Proc.devRef .tc main_arg8))) (X (Proc.devRef .tc main_arg12)) := by
  rw [tail_out3, hostSoftmax_eq, hostDense_eq, hostHid2_eq]
  rfl

end Tail

end Cert.ReferenceIdeal.Chain

end
-- ==== Proof.RefHead.lean ====
/-
  The reference's line of host operations read in two stretches: the first 55 operations (the node features, the edge
  lists and the edge coefficients), which write no argument array, and the rest.
-/
import proofs.«100760_j54709293417098_1_alg».proof.Proof.RefRunPatched
import proofs.«100760_j54709293417098_1_alg».proof.Proof.LibHostFold
import Idealize.ShloMosaic.PureOps.Ideal

set_option maxRecDepth 16384

noncomputable section

namespace Cert.ReferenceIdeal.Chain

open Cert.ReferenceIdeal Cert.ReferenceIdeal.Gen Cert.ReferenceIdeal.ValueP
open Idealize.ShloMosaic Idealize.ShloMosaic.TcCoe Idealize.ShloMosaic.StableHlo Idealize.SL.Sem
/-! ## The first 55 operations write no argument array -/

section Head
variable (U : Valuation τ sig (Elt Ideal))
theorem head_arg1 : after ((ops (F := Ideal)).take 55) U (Proc.devRef .tc main_arg1) = U (Proc.devRef .tc main_arg1) := by
  simp only [List.take_succ_cons, List.take_zero]; after_results_simp
theorem head_arg2 : after ((ops (F := Ideal)).take 55) U (Proc.devRef .tc main_arg2) = U (Proc.devRef .tc main_arg2) := by
  simp only [List.take_succ_cons, List.take_zero]; after_results_simp
theorem head_arg3 : after ((ops (F := Ideal)).take 55) U (Proc.devRef .tc main_arg3) = U (Proc.devRef .tc main_arg3) := by
  simp only [List.take_succ_cons, List.take_zero]; after_results_simp
theorem head_arg4 : after ((ops (F := Ideal)).take 55) U (Proc.devRef .tc main_arg4) = U (Proc.devRef .tc main_arg4) := by
  simp only [List.take_succ_cons, List.take_zero]; after_results_simp
theorem head_arg5 : after ((ops (F := Ideal)).take 55) U (Proc.devRef .tc main_arg5) = U (Proc.devRef .tc main_arg5) := by
  simp only [List.take_succ_cons, List.take_zero]; after_results_simp
theorem head_arg6 : after ((ops (F := Ideal)).take 55) U (Proc.devRef .tc main_arg6) = U (Proc.devRef .tc main_arg6) := by
  simp only [List.take_succ_cons, List.take_zero]; after_results_simp
theorem head_arg7 : after ((ops (F := Ideal)).take 55) U (Proc.devRef .tc main_arg7) = U (Proc.devRef .tc main_arg7) := by
  simp only [List.take_succ_cons, List.take_zero]; after_results_simp
theorem head_arg8 : after ((ops (F := Ideal)).take 55) U (Proc.devRef .tc main_arg8) = U (Proc.devRef .tc main_arg8) := by
  simp only [List.take_succ_cons, List.take_zero]; after_results_simp
theorem head_arg9 : after ((ops (F := Ideal)).take 55) U (Proc.devRef .tc main_arg9) = U (Proc.devRef .tc main_arg9) := by
  simp only [List.take_succ_cons, List.take_zero]; after_results_simp
theorem head_arg10 : after ((ops (F := Ideal)).take 55) U (Proc.devRef .tc main_arg10) = U (Proc.devRef .tc main_arg10) := by
  simp only [List.take_succ_cons, List.take_zero]; after_results_simp
theorem head_arg11 : after ((ops (F := Ideal)).take 55) U (Proc.devRef .tc main_arg11) = U (Proc.devRef .tc main_arg11) := by
  simp only [List.take_succ_cons, List.take_zero]; after_results_simp
theorem head_arg12 : after ((ops (F := Ideal)).take 55) U (Proc.devRef .tc main_arg12) = U (Proc.devRef .tc main_arg12) := by
  simp only [List.take_succ_cons, List.take_zero]; after_results_simp

/-- The line read in two stretches. -/
theorem after_split : after (ops (F := Ideal)) U = after ((ops (F := Ideal)).drop 55) (after ((ops (F := Ideal)).take 55) U) := by
  conv_lhs => rw [← List.take_append_drop 55 (ops (F := Ideal))]
  exact Cert.HostFold.after_append _ _ _

end Head

end Cert.ReferenceIdeal.Chain

end
-- ==== Proof.PrefixRel.lean ====
/-
  The two programs' first stretches compute the same four arrays.

  Before its first region the kernel's @main runs, operation for operation, the reference's first 55 operations: the
  stem indicator scattered into a zero vector and joined to the inputs as a fifteenth column (the node features); the
  two rows of the edge index, each followed by the self loops 0 … N−1 (the source and target lists); the in-degrees by
  a scatter-add of ones, their guarded inverse square roots, and the product of the two gathered factors per edge (the
  edge coefficients). Read from contents that agree on the argument arrays, the two lines leave the same value in each
  of these four buffers: the two terms are the same operations of the same arguments.
-/
import proofs.«100760_j54709293417098_1_alg».proof.Proof.Gen.KernelIdeal.Launch
import proofs.«100760_j54709293417098_1_alg».proof.Proof.RefRunPatched
import proofs.«100760_j54709293417098_1_alg».proof.Proof.LibConcatPair
import Idealize.ShloMosaic.PureOps.Ideal

set_option maxRecDepth 16384

noncomputable section

namespace Cert.PrefixRel

open Idealize.ShloMosaic Idealize.ShloMosaic.TcCoe Idealize.ShloMosaic.StableHlo Idealize.SL.Sem

variable (V : Valuation Cert.KernelIdeal.τ Cert.KernelIdeal.sig (Elt Ideal)) (U : Valuation Cert.ReferenceIdeal.τ Cert.ReferenceIdeal.sig (Elt Ideal))

set_option maxHeartbeats 4000000 in
/-- The node features. -/
theorem features_rel (h0 : (V (Proc.devRef .tc Cert.KernelIdeal.main_arg0) : FVec Ideal Cert.KernelIdeal.S100000x14 .f32) = U (Proc.devRef .tc Cert.ReferenceIdeal.main_arg0)) (h14 : (V (Proc.devRef .tc Cert.KernelIdeal.main_arg14) : IVec Cert.KernelIdeal.S10000 32) = U (Proc.devRef .tc Cert.ReferenceIdeal.main_arg14)) :
    (after (Cert.KernelIdeal.Gen.hostOps0_2 (F := Ideal)) (after (Cert.KernelIdeal.Gen.hostOps0_1 (F := Ideal)) (after (Cert.KernelIdeal.Gen.hostOps0 (F := Ideal)) V)) (Proc.devRef .tc Cert.KernelIdeal.main_v10) : FVec Ideal Cert.KernelIdeal.S100000x15 .f32) = after ((Cert.ReferenceIdeal.ValueP.ops (F := Ideal)).take 55) U (Proc.devRef .tc Cert.ReferenceIdeal.main_v10) := by
  dsimp only [Cert.KernelIdeal.Gen.hostOps0, Cert.KernelIdeal.Gen.hostOps0_1, Cert.KernelIdeal.Gen.hostOps0_2]
  simp only [List.take_succ_cons, List.take_zero]
  after_results_pairs
  rw [h0, h14]
  rfl

set_option maxHeartbeats 4000000 in
/-- The source list. -/
theorem src_rel (h13 : (V (Proc.devRef .tc Cert.KernelIdeal.main_arg13) : IVec Cert.KernelIdeal.S2x1600000 32) = U (Proc.devRef .tc Cert.ReferenceIdeal.main_arg13)) :
    (after (Cert.KernelIdeal.Gen.hostOps0_2 (F := Ideal)) (after (Cert.KernelIdeal.Gen.hostOps0_1 (F := Ideal)) (after (Cert.KernelIdeal.Gen.hostOps0 (F := Ideal)) V)) (Proc.devRef .tc Cert.KernelIdeal.main_v14) : IVec Cert.KernelIdeal.S1700000 32) = after ((Cert.ReferenceIdeal.ValueP.ops (F := Ideal)).take 55) U (Proc.devRef .tc Cert.ReferenceIdeal.main_v14) := by
  dsimp only [Cert.KernelIdeal.Gen.hostOps0, Cert.KernelIdeal.Gen.hostOps0_1, Cert.KernelIdeal.Gen.hostOps0_2]
  simp only [List.take_succ_cons, List.take_zero]
  after_results_pairs
  rw [h13]
  rfl

set_option maxHeartbeats 4000000 in
/-- The target list. -/
theorem dst_rel (h13 : (V (Proc.devRef .tc Cert.KernelIdeal.main_arg13) : IVec Cert.KernelIdeal.S2x1600000 32) = U (Proc.devRef .tc Cert.ReferenceIdeal.main_arg13)) :
    (after (Cert.KernelIdeal.Gen.hostOps0_2 (F := Ideal)) (after (Cert.KernelIdeal.Gen.hostOps0_1 (F := Ideal)) (after (Cert.KernelIdeal.Gen.hostOps0 (F := Ideal)) V)) (Proc.devRef .tc Cert.KernelIdeal.main_v17) : IVec Cert.KernelIdeal.S1700000 32) = after ((Cert.ReferenceIdeal.ValueP.ops (F := Ideal)).take 55) U (Proc.devRef .tc Cert.ReferenceIdeal.main_v17) := by
  dsimp only [Cert.KernelIdeal.Gen.hostOps0, Cert.KernelIdeal.Gen.hostOps0_1, Cert.KernelIdeal.Gen.hostOps0_2]
  simp only [List.take_succ_cons, List.take_zero]
  after_results_pairs
  rw [h13]
  rfl

set_option maxHeartbeats 4000000 in
/-- The edge coefficients. -/
theorem coeff_rel (h13 : (V (Proc.devRef .tc Cert.KernelIdeal.main_arg13) : IVec Cert.KernelIdeal.S2x1600000 32) = U (Proc.devRef .tc Cert.ReferenceIdeal.main_arg13)) :
    (after (Cert.KernelIdeal.Gen.hostOps0_2 (F := Ideal)) (after (Cert.KernelIdeal.Gen.hostOps0_1 (F := Ideal)) (after (Cert.KernelIdeal.Gen.hostOps0 (F := Ideal)) V)) (Proc.devRef .tc Cert.KernelIdeal.main_v40) : FVec Ideal Cert.KernelIdeal.S1700000 .f32) = after ((Cert.ReferenceIdeal.ValueP.ops (F := Ideal)).take 55) U (Proc.devRef .tc Cert.ReferenceIdeal.main_v40) := by
  dsimp only [Cert.KernelIdeal.Gen.hostOps0, Cert.KernelIdeal.Gen.hostOps0_1, Cert.KernelIdeal.Gen.hostOps0_2]
  simp only [List.take_succ_cons, List.take_zero]
  after_results_pairs
  rw [h13]
  rfl

end Cert.PrefixRel

end
-- ==== Proof.Bridge.lean ====
/-
  The idealized kernel's results are the reference's.

  Both runs have been read as the same compositions of the dense stages and the aggregation step, applied to the node
  features, the edge lists and the edge coefficients (which the two programs compute by the same operations) and to the
  argument arrays. From launch memories that agree on the arguments, the two values of each result are therefore equal.
-/
import proofs.«100760_j54709293417098_1_alg».proof.Proof.KernelChain
import proofs.«100760_j54709293417098_1_alg».proof.Proof.RefTailB
import proofs.«100760_j54709293417098_1_alg».proof.Proof.RefHead
import proofs.«100760_j54709293417098_1_alg».proof.Proof.PrefixRel

set_option maxRecDepth 16384

noncomputable section

namespace Cert.Bridge

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The node features, the edge lists and the edge coefficients, as the kernel finds them at its first region, are what
    the reference's first 55 operations leave. -/
theorem pre_v10 (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (g14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.KernelIdeal.Gen.W3 m ρ c (Proc.devRef .tc Cert.KernelIdeal.main_v10) = after ((Cert.ReferenceIdeal.ValueP.ops (F := Ideal)).take 55) (launchContents m' c) (Proc.devRef .tc Cert.ReferenceIdeal.main_v10) :=
  Cert.PrefixRel.features_rel (Cert.KernelIdeal.Gen.W0 m ρ c) (launchContents m' c) g0.symm g14.symm
theorem pre_v14 (g13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.KernelIdeal.Gen.W3 m ρ c (Proc.devRef .tc Cert.KernelIdeal.main_v14) = after ((Cert.ReferenceIdeal.ValueP.ops (F := Ideal)).take 55) (launchContents m' c) (Proc.devRef .tc Cert.ReferenceIdeal.main_v14) :=
  Cert.PrefixRel.src_rel (Cert.KernelIdeal.Gen.W0 m ρ c) (launchContents m' c) g13.symm
theorem pre_v17 (g13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.KernelIdeal.Gen.W3 m ρ c (Proc.devRef .tc Cert.KernelIdeal.main_v17) = after ((Cert.ReferenceIdeal.ValueP.ops (F := Ideal)).take 55) (launchContents m' c) (Proc.devRef .tc Cert.ReferenceIdeal.main_v17) :=
  Cert.PrefixRel.dst_rel (Cert.KernelIdeal.Gen.W0 m ρ c) (launchContents m' c) g13.symm
theorem pre_v40 (g13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.KernelIdeal.Gen.W3 m ρ c (Proc.devRef .tc Cert.KernelIdeal.main_v40) = after ((Cert.ReferenceIdeal.ValueP.ops (F := Ideal)).take 55) (launchContents m' c) (Proc.devRef .tc Cert.ReferenceIdeal.main_v40) :=
  Cert.PrefixRel.coeff_rel (Cert.KernelIdeal.Gen.W0 m ρ c) (launchContents m' c) g13.symm

/-- Result 0. -/
theorem bridge0
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (g10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (g11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (g12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (g13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (g14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.KernelIdeal.Gen.W8 m ρ c (Proc.devRef .tc Cert.KernelIdeal.main_v73_0) = after (Cert.ReferenceIdeal.ValueP.ops (F := Ideal)) (launchContents m' c) (Proc.devRef .tc Cert.ReferenceIdeal.main_v82) := by
  rw [Cert.KernelIdeal.Chain.out0_eq, pre_v10 m ρ m' c g0 g14, pre_v14 m ρ m' c g13, pre_v17 m ρ m' c g13, pre_v40 m ρ m' c g13,
    Cert.ReferenceIdeal.Chain.after_split, Cert.ReferenceIdeal.Chain.spec_out0, Cert.ReferenceIdeal.Chain.head_arg1, Cert.ReferenceIdeal.Chain.head_arg2, Cert.ReferenceIdeal.Chain.head_arg3, Cert.ReferenceIdeal.Chain.head_arg4, Cert.ReferenceIdeal.Chain.head_arg9, Cert.ReferenceIdeal.Chain.head_arg10, Cert.ReferenceIdeal.Chain.head_arg5, Cert.ReferenceIdeal.Chain.head_arg6,
    show (launchContents m' c) (Proc.devRef .tc Cert.ReferenceIdeal.main_arg1) = m ((c.tc : Thread Cert.KernelIdeal.nD Cert.KernelIdeal.τ).loc Cert.KernelIdeal.main_arg1) from g1,
    show (launchContents m' c) (Proc.devRef .tc Cert.ReferenceIdeal.main_arg2) = m ((c.tc : Thread Cert.KernelIdeal.nD Cert.KernelIdeal.τ).loc Cert.KernelIdeal.main_arg2) from g2,
    show (launchContents m' c) (Proc.devRef .tc Cert.ReferenceIdeal.main_arg3) = m ((c.tc : Thread Cert.KernelIdeal.nD Cert.KernelIdeal.τ).loc Cert.KernelIdeal.main_arg3) from g3,
    show (launchContents m' c) (Proc.devRef .tc Cert.ReferenceIdeal.main_arg4) = m ((c.tc : Thread Cert.KernelIdeal.nD Cert.KernelIdeal.τ).loc Cert.KernelIdeal.main_arg4) from g4,
    show (launchContents m' c) (Proc.devRef .tc Cert.ReferenceIdeal.main_arg9) = m ((c.tc : Thread Cert.KernelIdeal.nD Cert.KernelIdeal.τ).loc Cert.KernelIdeal.main_arg9) from g9,
    show (launchContents m' c) (Proc.devRef .tc Cert.ReferenceIdeal.main_arg10) = m ((c.tc : Thread Cert.KernelIdeal.nD Cert.KernelIdeal.τ).loc Cert.KernelIdeal.main_arg10) from g10,
    show (launchContents m' c) (Proc.devRef .tc Cert.ReferenceIdeal.main_arg5) = m ((c.tc : Thread Cert.KernelIdeal.nD Cert.KernelIdeal.τ).loc Cert.KernelIdeal.main_arg5) from g5,
    show (launchContents m' c) (Proc.devRef .tc Cert.ReferenceIdeal.main_arg6) = m ((c.tc : Thread Cert.KernelIdeal.nD Cert.KernelIdeal.τ).loc Cert.KernelIdeal.main_arg6) from g6]

/-- Result 1. -/
theorem bridge1
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (g10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (g11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (g12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (g13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (g14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.KernelIdeal.Gen.W8 m ρ c (Proc.devRef .tc Cert.KernelIdeal.main_v73_1) = after (Cert.ReferenceIdeal.ValueP.ops (F := Ideal)) (launchContents m' c) (Proc.devRef .tc Cert.ReferenceIdeal.main_v86) := by
  rw [Cert.KernelIdeal.Chain.out1_eq, pre_v10 m ρ m' c g0 g14, pre_v14 m ρ m' c g13, pre_v17 m ρ m' c g13, pre_v40 m ρ m' c g13,
    Cert.ReferenceIdeal.Chain.after_split, Cert.ReferenceIdeal.Chain.spec_out1, Cert.ReferenceIdeal.Chain.head_arg1, Cert.ReferenceIdeal.Chain.head_arg2, Cert.ReferenceIdeal.Chain.head_arg3, Cert.ReferenceIdeal.Chain.head_arg4, Cert.ReferenceIdeal.Chain.head_arg9, Cert.ReferenceIdeal.Chain.head_arg10, Cert.ReferenceIdeal.Chain.head_arg7, Cert.ReferenceIdeal.Chain.head_arg8,
    show (launchContents m' c) (Proc.devRef .tc Cert.ReferenceIdeal.main_arg1) = m ((c.tc : Thread Cert.KernelIdeal.nD Cert.KernelIdeal.τ).loc Cert.KernelIdeal.main_arg1) from g1,
    show (launchContents m' c) (Proc.devRef .tc Cert.ReferenceIdeal.main_arg2) = m ((c.tc : Thread Cert.KernelIdeal.nD Cert.KernelIdeal.τ).loc Cert.KernelIdeal.main_arg2) from g2,
    show (launchContents m' c) (Proc.devRef .tc Cert.ReferenceIdeal.main_arg3) = m ((c.tc : Thread Cert.KernelIdeal.nD Cert.KernelIdeal.τ).loc Cert.KernelIdeal.main_arg3) from g3,
    show (launchContents m' c) (Proc.devRef .tc Cert.ReferenceIdeal.main_arg4) = m ((c.tc : Thread Cert.KernelIdeal.nD Cert.KernelIdeal.τ).loc Cert.KernelIdeal.main_arg4) from g4,
    show (launchContents m' c) (Proc.devRef .tc Cert.ReferenceIdeal.main_arg9) = m ((c.tc : Thread Cert.KernelIdeal.nD Cert.KernelIdeal.τ).loc Cert.KernelIdeal.main_arg9) from g9,
    show (launchContents m' c) (Proc.devRef .tc Cert.ReferenceIdeal.main_arg10) = m ((c.tc : Thread Cert.KernelIdeal.nD Cert.KernelIdeal.τ).loc Cert.KernelIdeal.main_arg10) from g10,
    show (launchContents m' c) (Proc.devRef .tc Cert.ReferenceIdeal.main_arg7) = m ((c.tc : Thread Cert.KernelIdeal.nD Cert.KernelIdeal.τ).loc Cert.KernelIdeal.main_arg7) from g7,
    show (launchContents m' c) (Proc.devRef .tc Cert.ReferenceIdeal.main_arg8) = m ((c.tc : Thread Cert.KernelIdeal.nD Cert.KernelIdeal.τ).loc Cert.KernelIdeal.main_arg8) from g8]

/-- Result 2. -/
theorem bridge2
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (g10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (g11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (g12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (g13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (g14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.KernelIdeal.Gen.W8 m ρ c (Proc.devRef .tc Cert.KernelIdeal.main_v73_2) = after (Cert.ReferenceIdeal.ValueP.ops (F := Ideal)) (launchContents m' c) (Proc.devRef .tc Cert.ReferenceIdeal.main_v98) := by
  rw [Cert.KernelIdeal.Chain.out2_eq, pre_v10 m ρ m' c g0 g14, pre_v14 m ρ m' c g13, pre_v17 m ρ m' c g13, pre_v40 m ρ m' c g13,
    Cert.ReferenceIdeal.Chain.after_split, Cert.ReferenceIdeal.Chain.spec_out2, Cert.ReferenceIdeal.Chain.head_arg1, Cert.ReferenceIdeal.Chain.head_arg2, Cert.ReferenceIdeal.Chain.head_arg3, Cert.ReferenceIdeal.Chain.head_arg4, Cert.ReferenceIdeal.Chain.head_arg9, Cert.ReferenceIdeal.Chain.head_arg10, Cert.ReferenceIdeal.Chain.head_arg5, Cert.ReferenceIdeal.Chain.head_arg6, Cert.ReferenceIdeal.Chain.head_arg11,
    show (launchContents m' c) (Proc.devRef .tc Cert.ReferenceIdeal.main_arg1) = m ((c.tc : Thread Cert.KernelIdeal.nD Cert.KernelIdeal.τ).loc Cert.KernelIdeal.main_arg1) from g1,
    show (launchContents m' c) (Proc.devRef .tc Cert.ReferenceIdeal.main_arg2) = m ((c.tc : Thread Cert.KernelIdeal.nD Cert.KernelIdeal.τ).loc Cert.KernelIdeal.main_arg2) from g2,
    show (launchContents m' c) (Proc.devRef .tc Cert.ReferenceIdeal.main_arg3) = m ((c.tc : Thread Cert.KernelIdeal.nD Cert.KernelIdeal.τ).loc Cert.KernelIdeal.main_arg3) from g3,
    show (launchContents m' c) (Proc.devRef .tc Cert.ReferenceIdeal.main_arg4) = m ((c.tc : Thread Cert.KernelIdeal.nD Cert.KernelIdeal.τ).loc Cert.KernelIdeal.main_arg4) from g4,
    show (launchContents m' c) (Proc.devRef .tc Cert.ReferenceIdeal.main_arg9) = m ((c.tc : Thread Cert.KernelIdeal.nD Cert.KernelIdeal.τ).loc Cert.KernelIdeal.main_arg9) from g9,
    show (launchContents m' c) (Proc.devRef .tc Cert.ReferenceIdeal.main_arg10) = m ((c.tc : Thread Cert.KernelIdeal.nD Cert.KernelIdeal.τ).loc Cert.KernelIdeal.main_arg10) from g10,
    show (launchContents m' c) (Proc.devRef .tc Cert.ReferenceIdeal.main_arg5) = m ((c.tc : Thread Cert.KernelIdeal.nD Cert.KernelIdeal.τ).loc Cert.KernelIdeal.main_arg5) from g5,
    show (launchContents m' c) (Proc.devRef .tc Cert.ReferenceIdeal.main_arg6) = m ((c.tc : Thread Cert.KernelIdeal.nD Cert.KernelIdeal.τ).loc Cert.KernelIdeal.main_arg6) from g6,
    show (launchContents m' c) (Proc.devRef .tc Cert.ReferenceIdeal.main_arg11) = m ((c.tc : Thread Cert.KernelIdeal.nD Cert.KernelIdeal.τ).loc Cert.KernelIdeal.main_arg11) from g11]

/-- Result 3. -/
theorem bridge3
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (g10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (g11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (g12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (g13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (g14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.KernelIdeal.Gen.W8 m ρ c (Proc.devRef .tc Cert.KernelIdeal.main_v73_3) = after (Cert.ReferenceIdeal.ValueP.ops (F := Ideal)) (launchContents m' c) (Proc.devRef .tc Cert.ReferenceIdeal.main_v110) := by
  rw [Cert.KernelIdeal.Chain.out3_eq, pre_v10 m ρ m' c g0 g14, pre_v14 m ρ m' c g13, pre_v17 m ρ m' c g13, pre_v40 m ρ m' c g13,
    Cert.ReferenceIdeal.Chain.after_split, Cert.ReferenceIdeal.Chain.spec_out3, Cert.ReferenceIdeal.Chain.head_arg1, Cert.ReferenceIdeal.Chain.head_arg2, Cert.ReferenceIdeal.Chain.head_arg3, Cert.ReferenceIdeal.Chain.head_arg4, Cert.ReferenceIdeal.Chain.head_arg9, Cert.ReferenceIdeal.Chain.head_arg10, Cert.ReferenceIdeal.Chain.head_arg7, Cert.ReferenceIdeal.Chain.head_arg8, Cert.ReferenceIdeal.Chain.head_arg12,
    show (launchContents m' c) (Proc.devRef .tc Cert.ReferenceIdeal.main_arg1) = m ((c.tc : Thread Cert.KernelIdeal.nD Cert.KernelIdeal.τ).loc Cert.KernelIdeal.main_arg1) from g1,
    show (launchContents m' c) (Proc.devRef .tc Cert.ReferenceIdeal.main_arg2) = m ((c.tc : Thread Cert.KernelIdeal.nD Cert.KernelIdeal.τ).loc Cert.KernelIdeal.main_arg2) from g2,
    show (launchContents m' c) (Proc.devRef .tc Cert.ReferenceIdeal.main_arg3) = m ((c.tc : Thread Cert.KernelIdeal.nD Cert.KernelIdeal.τ).loc Cert.KernelIdeal.main_arg3) from g3,
    show (launchContents m' c) (Proc.devRef .tc Cert.ReferenceIdeal.main_arg4) = m ((c.tc : Thread Cert.KernelIdeal.nD Cert.KernelIdeal.τ).loc Cert.KernelIdeal.main_arg4) from g4,
    show (launchContents m' c) (Proc.devRef .tc Cert.ReferenceIdeal.main_arg9) = m ((c.tc : Thread Cert.KernelIdeal.nD Cert.KernelIdeal.τ).loc Cert.KernelIdeal.main_arg9) from g9,
    show (launchContents m' c) (Proc.devRef .tc Cert.ReferenceIdeal.main_arg10) = m ((c.tc : Thread Cert.KernelIdeal.nD Cert.KernelIdeal.τ).loc Cert.KernelIdeal.main_arg10) from g10,
    show (launchContents m' c) (Proc.devRef .tc Cert.ReferenceIdeal.main_arg7) = m ((c.tc : Thread Cert.KernelIdeal.nD Cert.KernelIdeal.τ).loc Cert.KernelIdeal.main_arg7) from g7,
    show (launchContents m' c) (Proc.devRef .tc Cert.ReferenceIdeal.main_arg8) = m ((c.tc : Thread Cert.KernelIdeal.nD Cert.KernelIdeal.τ).loc Cert.KernelIdeal.main_arg8) from g8,
    show (launchContents m' c) (Proc.devRef .tc Cert.ReferenceIdeal.main_arg12) = m ((c.tc : Thread Cert.KernelIdeal.nD Cert.KernelIdeal.τ).loc Cert.KernelIdeal.main_arg12) from g12]

end Cert.Bridge

end
-- ==== Proof.RefKeeps.lean ====
/-
  The reference's line of host operations writes none of the fifteen argument arrays: read after the whole line, each
  holds what it held at launch.
-/
import proofs.«100760_j54709293417098_1_alg».proof.Proof.RefRunPatched
import Idealize.ShloMosaic.PureOps.Ideal

set_option maxRecDepth 16384

noncomputable section

namespace Cert.ReferenceIdeal.Keeps

open Cert.ReferenceIdeal Cert.ReferenceIdeal.Gen Cert.ReferenceIdeal.ValueP
open Idealize.ShloMosaic Idealize.ShloMosaic.TcCoe Idealize.ShloMosaic.StableHlo Idealize.SL.Sem

variable (U : Valuation τ sig (Elt Ideal))

theorem arg0 : after (ops (F := Ideal)) U (Proc.devRef .tc main_arg0) = U (Proc.devRef .tc main_arg0) := by
  after_results_simp
theorem arg1 : after (ops (F := Ideal)) U (Proc.devRef .tc main_arg1) = U (Proc.devRef .tc main_arg1) := by
  after_results_simp
theorem arg2 : after (ops (F := Ideal)) U (Proc.devRef .tc main_arg2) = U (Proc.devRef .tc main_arg2) := by
  after_results_simp
theorem arg3 : after (ops (F := Ideal)) U (Proc.devRef .tc main_arg3) = U (Proc.devRef .tc main_arg3) := by
  after_results_simp
theorem arg4 : after (ops (F := Ideal)) U (Proc.devRef .tc main_arg4) = U (Proc.devRef .tc main_arg4) := by
  after_results_simp
theorem arg5 : after (ops (F := Ideal)) U (Proc.devRef .tc main_arg5) = U (Proc.devRef .tc main_arg5) := by
  after_results_simp
theorem arg6 : after (ops (F := Ideal)) U (Proc.devRef .tc main_arg6) = U (Proc.devRef .tc main_arg6) := by
  after_results_simp
theorem arg7 : after (ops (F := Ideal)) U (Proc.devRef .tc main_arg7) = U (Proc.devRef .tc main_arg7) := by
  after_results_simp
theorem arg8 : after (ops (F := Ideal)) U (Proc.devRef .tc main_arg8) = U (Proc.devRef .tc main_arg8) := by
  after_results_simp
theorem arg9 : after (ops (F := Ideal)) U (Proc.devRef .tc main_arg9) = U (Proc.devRef .tc main_arg9) := by
  after_results_simp
theorem arg10 : after (ops (F := Ideal)) U (Proc.devRef .tc main_arg10) = U (Proc.devRef .tc main_arg10) := by
  after_results_simp
theorem arg11 : after (ops (F := Ideal)) U (Proc.devRef .tc main_arg11) = U (Proc.devRef .tc main_arg11) := by
  after_results_simp
theorem arg12 : after (ops (F := Ideal)) U (Proc.devRef .tc main_arg12) = U (Proc.devRef .tc main_arg12) := by
  after_results_simp
theorem arg13 : after (ops (F := Ideal)) U (Proc.devRef .tc main_arg13) = U (Proc.devRef .tc main_arg13) := by
  after_results_simp
theorem arg14 : after (ops (F := Ideal)) U (Proc.devRef .tc main_arg14) = U (Proc.devRef .tc main_arg14) := by
  after_results_simp

end Cert.ReferenceIdeal.Keeps

end
-- ==== Proof.lean ====
/-
  The kernel and its reference compute the same four arrays over the extended reals.

  The network: node features (the inputs and a stem indicator column) go through two graph layers — project by a weight
  matrix, gather the source rows of every edge (self loops included), scale by the symmetric degree coefficient, sum at
  the target rows, add a bias, rectify, scale by a dropout mask — and two linear heads, each also followed by a softmax
  of the logits plus given noise. The kernel computes the three dense stages in three row-tiled kernel regions and the
  aggregations between them on the host; the reference computes everything on the host.

  At the extended reals a change of float format is the identity and a product accumulated into zeros is the plain sum,
  so each region's result array is one function of its operand arrays — the projection, the projection of the hidden
  layer, the logits and their row-wise softmax — tile by tile of 1000 rows (Region0, Region1, Region2, over
  LibDenseStages). The host operations between the regions are the aggregation step (Stages), and the kernel's run is
  the composition of these (KernelChain, ValueRun). The reference's operations are read as the same compositions
  (RefChain), its first 55 operations being the kernel's own first stretches (PrefixRel). No law that needs finite
  entries is used: the precondition is never opened.
-/
import proofs.«100760_j54709293417098_1_alg».proof.Defs
import proofs.«100760_j54709293417098_1_alg».proof.Proof.Gen.Kernel
import proofs.«100760_j54709293417098_1_alg».proof.Proof.Gen.Kernel.Skeleton
import proofs.«100760_j54709293417098_1_alg».proof.Proof.Gen.Kernel.Launch
import proofs.«100760_j54709293417098_1_alg».proof.Proof.Gen.Kernel.Points
import proofs.«100760_j54709293417098_1_alg».proof.Proof.Gen.Kernel.Frame
import proofs.«100760_j54709293417098_1_alg».proof.Proof.Gen.KernelIdeal
import proofs.«100760_j54709293417098_1_alg».proof.Proof.Gen.KernelIdeal.Skeleton
import proofs.«100760_j54709293417098_1_alg».proof.Proof.Gen.KernelIdeal.Launch
import proofs.«100760_j54709293417098_1_alg».proof.Proof.Gen.KernelIdeal.Points
import proofs.«100760_j54709293417098_1_alg».proof.Proof.Gen.KernelIdeal.Frame
import proofs.«100760_j54709293417098_1_alg».proof.Proof.Gen.ReferenceIdeal
import proofs.«100760_j54709293417098_1_alg».proof.Proof.Gen.Pre_finite_inputs
import Idealize.ShloMosaic.Adequacy
import Idealize.ShloMosaic.Init
import proofs.«100760_j54709293417098_1_alg».proof.Proof.ValueRun
import proofs.«100760_j54709293417098_1_alg».proof.Proof.Bridge
import proofs.«100760_j54709293417098_1_alg».proof.Proof.RefKeeps

set_option maxRecDepth 16384

noncomputable section

namespace Cert.Proof

open Idealize.ShloMosaic Idealize.ShloMosaic.TcCoe Idealize.ShloMosaic.StableHlo Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs, and none of its operations writes an argument array. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.Keeps.arg0 _),
     (h c Cert.ReferenceIdeal.main_arg1).trans (Cert.ReferenceIdeal.Keeps.arg1 _),
     (h c Cert.ReferenceIdeal.main_arg2).trans (Cert.ReferenceIdeal.Keeps.arg2 _),
     (h c Cert.ReferenceIdeal.main_arg3).trans (Cert.ReferenceIdeal.Keeps.arg3 _),
     (h c Cert.ReferenceIdeal.main_arg4).trans (Cert.ReferenceIdeal.Keeps.arg4 _),
     (h c Cert.ReferenceIdeal.main_arg5).trans (Cert.ReferenceIdeal.Keeps.arg5 _),
     (h c Cert.ReferenceIdeal.main_arg6).trans (Cert.ReferenceIdeal.Keeps.arg6 _),
     (h c Cert.ReferenceIdeal.main_arg7).trans (Cert.ReferenceIdeal.Keeps.arg7 _),
     (h c Cert.ReferenceIdeal.main_arg8).trans (Cert.ReferenceIdeal.Keeps.arg8 _),
     (h c Cert.ReferenceIdeal.main_arg9).trans (Cert.ReferenceIdeal.Keeps.arg9 _),
     (h c Cert.ReferenceIdeal.main_arg10).trans (Cert.ReferenceIdeal.Keeps.arg10 _),
     (h c Cert.ReferenceIdeal.main_arg11).trans (Cert.ReferenceIdeal.Keeps.arg11 _),
     (h c Cert.ReferenceIdeal.main_arg12).trans (Cert.ReferenceIdeal.Keeps.arg12 _),
     (h c Cert.ReferenceIdeal.main_arg13).trans (Cert.ReferenceIdeal.Keeps.arg13 _),
     (h c Cert.ReferenceIdeal.main_arg14).trans (Cert.ReferenceIdeal.Keeps.arg14 _)⟩)
    (Cert.ReferenceIdeal.ValueP.run (F := Ideal) m ρ)

/-- From memories that agree on the arguments both idealized programs end with the same four result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W8 m ρ c (Proc.devRef .tc Cert.KernelIdeal.main_v73_0), fun c => Cert.KernelIdeal.Gen.W8 m ρ c (Proc.devRef .tc Cert.KernelIdeal.main_v73_1),
    fun c => Cert.KernelIdeal.Gen.W8 m ρ c (Proc.devRef .tc Cert.KernelIdeal.main_v73_2), fun c => Cert.KernelIdeal.Gen.W8 m ρ c (Proc.devRef .tc Cert.KernelIdeal.main_v73_3),
    Cert.KernelIdeal.ValueRun.run m ρ, ?_⟩
  refine (θ_run Cert.ReferenceIdeal.defs _ _).mono (fun r h c => ?_) (Cert.ReferenceIdeal.ValueP.run (F := Ideal) m' ρ')
  obtain ⟨g0, g1, g2, g3, g4, g5, g6, g7, g8, g9, g10, g11, g12, g13, g14⟩ := hagree c
  exact ⟨(h c Cert.ReferenceIdeal.main_v82).trans (Cert.Bridge.bridge0 m ρ m' c g0 g1 g2 g3 g4 g5 g6 g7 g8 g9 g10 g11 g12 g13 g14).symm,
    (h c Cert.ReferenceIdeal.main_v86).trans (Cert.Bridge.bridge1 m ρ m' c g0 g1 g2 g3 g4 g5 g6 g7 g8 g9 g10 g11 g12 g13 g14).symm,
    (h c Cert.ReferenceIdeal.main_v98).trans (Cert.Bridge.bridge2 m ρ m' c g0 g1 g2 g3 g4 g5 g6 g7 g8 g9 g10 g11 g12 g13 g14).symm,
    (h c Cert.ReferenceIdeal.main_v110).trans (Cert.Bridge.bridge3 m ρ m' c g0 g1 g2 g3 g4 g5 g6 g7 g8 g9 g10 g11 g12 g13 g14).symm,
    (h c Cert.ReferenceIdeal.main_arg0).trans (Cert.ReferenceIdeal.Keeps.arg0 _),
    (h c Cert.ReferenceIdeal.main_arg1).trans (Cert.ReferenceIdeal.Keeps.arg1 _),
    (h c Cert.ReferenceIdeal.main_arg2).trans (Cert.ReferenceIdeal.Keeps.arg2 _),
    (h c Cert.ReferenceIdeal.main_arg3).trans (Cert.ReferenceIdeal.Keeps.arg3 _),
    (h c Cert.ReferenceIdeal.main_arg4).trans (Cert.ReferenceIdeal.Keeps.arg4 _),
    (h c Cert.ReferenceIdeal.main_arg5).trans (Cert.ReferenceIdeal.Keeps.arg5 _),
    (h c Cert.ReferenceIdeal.main_arg6).trans (Cert.ReferenceIdeal.Keeps.arg6 _),
    (h c Cert.ReferenceIdeal.main_arg7).trans (Cert.ReferenceIdeal.Keeps.arg7 _),
    (h c Cert.ReferenceIdeal.main_arg8).trans (Cert.ReferenceIdeal.Keeps.arg8 _),
    (h c Cert.ReferenceIdeal.main_arg9).trans (Cert.ReferenceIdeal.Keeps.arg9 _),
    (h c Cert.ReferenceIdeal.main_arg10).trans (Cert.ReferenceIdeal.Keeps.arg10 _),
    (h c Cert.ReferenceIdeal.main_arg11).trans (Cert.ReferenceIdeal.Keeps.arg11 _),
    (h c Cert.ReferenceIdeal.main_arg12).trans (Cert.ReferenceIdeal.Keeps.arg12 _),
    (h c Cert.ReferenceIdeal.main_arg13).trans (Cert.ReferenceIdeal.Keeps.arg13 _),
    (h c Cert.ReferenceIdeal.main_arg14).trans (Cert.ReferenceIdeal.Keeps.arg14 _)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
